-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S1048576x3 : Shape := ⟨2, ![1048576, 3]⟩
abbrev S1048576 : Shape := ⟨1, ![1048576]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S15x64 : Shape := ⟨2, ![15, 64]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S1048576x3 : S_.BroadcastsInDim S1048576x3 (![] : Fin 0 → Fin S1048576x3.rank)
  reducesTo_S1048576x3_S_d0_1 : S1048576x3.ReducesTo [0, 1] S_
  bcast_S_S1048576 : S_.BroadcastsInDim S1048576 (![] : Fin 0 → Fin S1048576.rank)
  reducesTo_S1048576_S_d0 : S1048576.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x17 : S_.BroadcastsInDim S64x17 (![] : Fin 0 → Fin S64x17.rank)
  reducesTo_S64x17_S_d0_1 : S64x17.ReducesTo [0, 1] S_
  bcast_S_S18x64 : S_.BroadcastsInDim S18x64 (![] : Fin 0 → Fin S18x64.rank)
  reducesTo_S18x64_S_d0_1 : S18x64.ReducesTo [0, 1] S_
  bcast_S_S64x3 : S_.BroadcastsInDim S64x3 (![] : Fin 0 → Fin S64x3.rank)
  reducesTo_S64x3_S_d0_1 : S64x3.ReducesTo [0, 1] S_
  bcast_S_S15x64 : S_.BroadcastsInDim S15x64 (![] : Fin 0 → Fin S15x64.rank)
  reducesTo_S15x64_S_d0_1 : S15x64.ReducesTo [0, 1] S_

variable [Facts]

def fn_part8 {F : FTy → Type} [FloatOps F] (main_v133 : IVec S_ 1) (main_v136 : IVec S64x3 1) : IVec S_ 1 :=
  let main_c_53 : IVec S_ 1 := constantI S_ 1 1#1
  let main_v137 : IVec S_ 1 := (fun x v => Host.reduce IntOp.andi x v reducesTo_S64x3_S_d0_1 h_S_) main_v136 main_c_53
  let main_v138 : IVec S_ 1 := andi main_v133 main_v137
  main_v138

def fn_part7 {F : FTy → Type} [FloatOps F] (main_arg25 : FVec F S64x64 .f32) (main_arg26 : FVec F S64x64 .f32) (main_arg27 : FVec F S64x3 .f32) (main_v118 : IVec S_ 1) (main_v119 : FVec F S15x64 .f32) : IVec S_ 1 :=
  let main_cst_46 : FVec F S_ .f32 := constant S_ .f32 0x7F800000#32
  let main_v120 : FVec F S15x64 .f32 := broadcastInDim S15x64 ![] bcast_S_S15x64 main_cst_46
  let main_v121 : IVec S15x64 1 := cmpf .olt main_v119 main_v120
  let main_c_47 : IVec S_ 1 := constantI S_ 1 1#1
  let main_v122 : IVec S_ 1 := (fun x v => Host.reduce IntOp.andi x v reducesTo_S15x64_S_d0_1 h_S_) main_v121 main_c_47
  let main_v123 : IVec S_ 1 := andi main_v118 main_v122
  let main_v124 : FVec F S64x64 .f32 := Host.absf main_arg25
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64x64 .f32 := Host.absf main_arg26
  let main_cst_50 : FVec F S_ .f32 := constant S_ .f32 0x7F800000#32
  let main_v130 : FVec F S64x64 .f32 := broadcastInDim S64x64 ![] bcast_S_S64x64 main_cst_50
  let main_v131 : IVec S64x64 1 := cmpf .olt main_v129 main_v130
  let main_c_51 : IVec S_ 1 := constantI S_ 1 1#1
  let main_v132 : IVec S_ 1 := (fun x v => Host.reduce IntOp.andi x v reducesTo_S64x64_S_d0_1 h_S_) main_v131 main_c_51
  let main_v133 : IVec S_ 1 := andi main_v128 main_v132
  let main_v134 : FVec F S64x3 .f32 := Host.absf main_arg27
  let main_cst_52 : FVec F S_ .f32 := constant S_ .f32 0x7F800000#32
  let main_v135 : FVec F S64x3 .f32 := broadcastInDim S64x3 ![] bcast_S_S64x3 main_cst_52
  let main_v136 : IVec S64x3 1 := cmpf .olt main_v134 main_v135
  fn_part8 (F := F) main_v133 main_v136

def fn_part6 {F : FTy → Type} [FloatOps F] (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) (main_v98 : IVec S_ 1) (main_v101 : IVec S64x3 1) (main_c_39 : IVec S_ 1) : IVec S_ 1 :=
  let main_v102 : IVec S_ 1 := (fun x v => Host.reduce IntOp.andi x v reducesTo_S64x3_S_d0_1 h_S_) main_v101 main_c_39
  let main_v103 : IVec S_ 1 := andi main_v98 main_v102
  let main_v104 : FVec F S32x64 .f32 := Host.absf main_arg21
  let main_cst_40 : FVec F S_ .f32 := constant S_ .f32 0x7F800000#32
  let main_v105 : FVec F S32x64 .f32 := broadcastInDim S32x64 ![] bcast_S_S32x64 main_cst_40
  let main_v106 : IVec S32x64 1 := cmpf .olt main_v104 main_v105
  let main_c_41 : IVec S_ 1 := constantI S_ 1 1#1
  let main_v107 : IVec S_ 1 := (fun x v => Host.reduce IntOp.andi x v reducesTo_S32x64_S_d0_1 h_S_) main_v106 main_c_41
  let main_v108 : IVec S_ 1 := andi main_v103 main_v107
  let main_v109 : FVec F S64x64 .f32 := Host.absf main_arg22
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64x17 .f32 := Host.absf main_arg23
  let main_cst_44 : FVec F S_ .f32 := constant S_ .f32 0x7F800000#32
  let main_v115 : FVec F S64x17 .f32 := broadcastInDim S64x17 ![] bcast_S_S64x17 main_cst_44
  let main_v116 : IVec S64x17 1 := cmpf .olt main_v114 main_v115
  let main_c_45 : IVec S_ 1 := constantI S_ 1 1#1
  let main_v117 : IVec S_ 1 := (fun x v => Host.reduce IntOp.andi x v reducesTo_S64x17_S_d0_1 h_S_) main_v116 main_c_45
  let main_v118 : IVec S_ 1 := andi main_v113 main_v117
  let main_v119 : FVec F S15x64 .f32 := Host.absf main_arg24
  fn_part7 (F := F) main_arg25 main_arg26 main_arg27 main_v118 main_v119

def fn_part5 {F : FTy → Type} [FloatOps F] (main_arg18 : FVec F S64x64 .f32) (main_arg19 : FVec F S64x64 .f32) (main_arg20 : FVec F S64x3 .f32) (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) (main_v83 : IVec S_ 1) (main_v84 : FVec F S15x64 .f32) (main_cst_32 : FVec F S_ .f32) : IVec S_ 1 :=
  let main_v85 : FVec F S15x64 .f32 := broadcastInDim S15x64 ![] bcast_S_S15x64 main_cst_32
  let main_v86 : IVec S15x64 1 := cmpf .olt main_v84 main_v85
  let main_c_33 : IVec S_ 1 := constantI S_ 1 1#1
  let main_v87 : IVec S_ 1 := (fun x v => Host.reduce IntOp.andi x v reducesTo_S15x64_S_d0_1 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64x64 .f32 := Host.absf main_arg19
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64x3 .f32 := Host.absf main_arg20
  let main_cst_38 : FVec F S_ .f32 := constant S_ .f32 0x7F800000#32
  let main_v100 : FVec F S64x3 .f32 := broadcastInDim S64x3 ![] bcast_S_S64x3 main_cst_38
  let main_v101 : IVec S64x3 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S32x64 .f32) (main_arg15 : FVec F S64x64 .f32) (main_arg16 : FVec F S64x17 .f32) (main_arg17 : FVec F S15x64 .f32) (main_arg18 : FVec F S64x64 .f32) (main_arg19 : FVec F S64x64 .f32) (main_arg20 : FVec F S64x3 .f32) (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) (main_v63 : IVec S_ 1) (main_v67 : IVec S_ 1) : IVec S_ 1 :=
  let main_v68 : IVec S_ 1 := andi main_v63 main_v67
  let main_v69 : FVec F S32x64 .f32 := Host.absf main_arg14
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x17 .f32 := Host.absf main_arg16
  let main_cst_30 : FVec F S_ .f32 := constant S_ .f32 0x7F800000#32
  let main_v80 : FVec F S64x17 .f32 := broadcastInDim S64x17 ![] bcast_S_S64x17 main_cst_30
  let main_v81 : IVec S64x17 1 := cmpf .olt main_v79 main_v80
  let main_c_31 : IVec S_ 1 := constantI S_ 1 1#1
  let main_v82 : IVec S_ 1 := (fun x v => Host.reduce IntOp.andi x v reducesTo_S64x17_S_d0_1 h_S_) main_v81 main_c_31
  let main_v83 : IVec S_ 1 := andi main_v78 main_v82
  let main_v84 : FVec F S15x64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S64x64 .f32) (main_arg12 : FVec F S64x64 .f32) (main_arg13 : FVec F S64x3 .f32) (main_arg14 : FVec F S32x64 .f32) (main_arg15 : FVec F S64x64 .f32) (main_arg16 : FVec F S64x17 .f32) (main_arg17 : FVec F S15x64 .f32) (main_arg18 : FVec F S64x64 .f32) (main_arg19 : FVec F S64x64 .f32) (main_arg20 : FVec F S64x3 .f32) (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) (main_v48 : IVec S_ 1) (main_v49 : FVec F S18x64 .f32) (main_v50 : FVec F S18x64 .f32) : IVec S_ 1 :=
  let main_v51 : IVec S18x64 1 := cmpf .olt main_v49 main_v50
  let main_c_19 : IVec S_ 1 := constantI S_ 1 1#1
  let main_v52 : IVec S_ 1 := (fun x v => Host.reduce IntOp.andi x v reducesTo_S18x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x3 .f32 := Host.absf main_arg13
  let main_cst_24 : FVec F S_ .f32 := constant S_ .f32 0x7F800000#32
  let main_v65 : FVec F S64x3 .f32 := broadcastInDim S64x3 ![] bcast_S_S64x3 main_cst_24
  let main_v66 : IVec S64x3 1 := cmpf .olt main_v64 main_v65
  let main_c_25 : IVec S_ 1 := constantI S_ 1 1#1
  let main_v67 : IVec S_ 1 := (fun x v => Host.reduce IntOp.andi x v reducesTo_S64x3_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S32x64 .f32) (main_arg8 : FVec F S64x64 .f32) (main_arg9 : FVec F S64x17 .f32) (main_arg10 : FVec F S18x64 .f32) (main_arg11 : FVec F S64x64 .f32) (main_arg12 : FVec F S64x64 .f32) (main_arg13 : FVec F S64x3 .f32) (main_arg14 : FVec F S32x64 .f32) (main_arg15 : FVec F S64x64 .f32) (main_arg16 : FVec F S64x17 .f32) (main_arg17 : FVec F S15x64 .f32) (main_arg18 : FVec F S64x64 .f32) (main_arg19 : FVec F S64x64 .f32) (main_arg20 : FVec F S64x3 .f32) (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x17 .f32 := Host.absf main_arg9
  let main_cst_16 : FVec F S_ .f32 := constant S_ .f32 0x7F800000#32
  let main_v45 : FVec F S64x17 .f32 := broadcastInDim S64x17 ![] bcast_S_S64x17 main_cst_16
  let main_v46 : IVec S64x17 1 := cmpf .olt main_v44 main_v45
  let main_c_17 : IVec S_ 1 := constantI S_ 1 1#1
  let main_v47 : IVec S_ 1 := (fun x v => Host.reduce IntOp.andi x v reducesTo_S64x17_S_d0_1 h_S_) main_v46 main_c_17
  let main_v48 : IVec S_ 1 := andi main_v43 main_v47
  let main_v49 : FVec F S18x64 .f32 := Host.absf main_arg10
  let main_cst_18 : FVec F S_ .f32 := constant S_ .f32 0x7F800000#32
  let main_v50 : FVec F S18x64 .f32 := broadcastInDim S18x64 ![] bcast_S_S18x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S1048576 .f32) (main_arg5 : FVec F S1048576 .f32) (main_arg6 : FVec F S1048576 .f32) (main_arg7 : FVec F S32x64 .f32) (main_arg8 : FVec F S64x64 .f32) (main_arg9 : FVec F S64x17 .f32) (main_arg10 : FVec F S18x64 .f32) (main_arg11 : FVec F S64x64 .f32) (main_arg12 : FVec F S64x64 .f32) (main_arg13 : FVec F S64x3 .f32) (main_arg14 : FVec F S32x64 .f32) (main_arg15 : FVec F S64x64 .f32) (main_arg16 : FVec F S64x17 .f32) (main_arg17 : FVec F S15x64 .f32) (main_arg18 : FVec F S64x64 .f32) (main_arg19 : FVec F S64x64 .f32) (main_arg20 : FVec F S64x3 .f32) (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) (main_v13 : IVec S_ 1) (main_v16 : IVec S1048576x3 1) : IVec S_ 1 :=
  let main_c_5 : IVec S_ 1 := constantI S_ 1 1#1
  let main_v17 : IVec S_ 1 := (fun x v => Host.reduce IntOp.andi x v reducesTo_S1048576x3_S_d0_1 h_S_) main_v16 main_c_5
  let main_v18 : IVec S_ 1 := andi main_v13 main_v17
  let main_v19 : FVec F S1048576 .f32 := Host.absf main_arg4
  let main_cst_6 : FVec F S_ .f32 := constant S_ .f32 0x7F800000#32
  let main_v20 : FVec F S1048576 .f32 := broadcastInDim S1048576 ![] bcast_S_S1048576 main_cst_6
  let main_v21 : IVec S1048576 1 := cmpf .olt main_v19 main_v20
  let main_c_7 : IVec S_ 1 := constantI S_ 1 1#1
  let main_v22 : IVec S_ 1 := (fun x v => Host.reduce IntOp.andi x v reducesTo_S1048576_S_d0 h_S_) main_v21 main_c_7
  let main_v23 : IVec S_ 1 := andi main_v18 main_v22
  let main_v24 : FVec F S1048576 .f32 := Host.absf main_arg5
  let main_cst_8 : FVec F S_ .f32 := constant S_ .f32 0x7F800000#32
  let main_v25 : FVec F S1048576 .f32 := broadcastInDim S1048576 ![] bcast_S_S1048576 main_cst_8
  let main_v26 : IVec S1048576 1 := cmpf .olt main_v24 main_v25
  let main_c_9 : IVec S_ 1 := constantI S_ 1 1#1
  let main_v27 : IVec S_ 1 := (fun x v => Host.reduce IntOp.andi x v reducesTo_S1048576_S_d0 h_S_) main_v26 main_c_9
  let main_v28 : IVec S_ 1 := andi main_v23 main_v27
  let main_v29 : FVec F S1048576 .f32 := Host.absf main_arg6
  let main_cst_10 : FVec F S_ .f32 := constant S_ .f32 0x7F800000#32
  let main_v30 : FVec F S1048576 .f32 := broadcastInDim S1048576 ![] bcast_S_S1048576 main_cst_10
  let main_v31 : IVec S1048576 1 := cmpf .olt main_v29 main_v30
  let main_c_11 : IVec S_ 1 := constantI S_ 1 1#1
  let main_v32 : IVec S_ 1 := (fun x v => Host.reduce IntOp.andi x v reducesTo_S1048576_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S1048576x32 .f32) (main_arg1 : FVec F S1048576x32 .f32) (main_arg2 : FVec F S1048576x32 .f32) (main_arg3 : FVec F S1048576x3 .f32) (main_arg4 : FVec F S1048576 .f32) (main_arg5 : FVec F S1048576 .f32) (main_arg6 : FVec F S1048576 .f32) (main_arg7 : FVec F S32x64 .f32) (main_arg8 : FVec F S64x64 .f32) (main_arg9 : FVec F S64x17 .f32) (main_arg10 : FVec F S18x64 .f32) (main_arg11 : FVec F S64x64 .f32) (main_arg12 : FVec F S64x64 .f32) (main_arg13 : FVec F S64x3 .f32) (main_arg14 : FVec F S32x64 .f32) (main_arg15 : FVec F S64x64 .f32) (main_arg16 : FVec F S64x17 .f32) (main_arg17 : FVec F S15x64 .f32) (main_arg18 : FVec F S64x64 .f32) (main_arg19 : FVec F S64x64 .f32) (main_arg20 : FVec F S64x3 .f32) (main_arg21 : FVec F S32x64 .f32) (main_arg22 : FVec F S64x64 .f32) (main_arg23 : FVec F S64x17 .f32) (main_arg24 : FVec F S15x64 .f32) (main_arg25 : FVec F S64x64 .f32) (main_arg26 : FVec F S64x64 .f32) (main_arg27 : FVec F S64x3 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  let main_v9 : FVec F S1048576x32 .f32 := Host.absf main_arg2
  let main_cst_2 : FVec F S_ .f32 := constant S_ .f32 0x7F800000#32
  let main_v10 : FVec F S1048576x32 .f32 := broadcastInDim S1048576x32 ![] bcast_S_S1048576x32 main_cst_2
  let main_v11 : IVec S1048576x32 1 := cmpf .olt main_v9 main_v10
  let main_c_3 : IVec S_ 1 := constantI S_ 1 1#1
  let main_v12 : IVec S_ 1 := (fun x v => Host.reduce IntOp.andi x v reducesTo_S1048576x32_S_d0_1 h_S_) main_v11 main_c_3
  let main_v13 : IVec S_ 1 := andi main_v8 main_v12
  let main_v14 : FVec F S1048576x3 .f32 := Host.absf main_arg3
  let main_cst_4 : FVec F S_ .f32 := constant S_ .f32 0x7F800000#32
  let main_v15 : FVec F S1048576x3 .f32 := broadcastInDim S1048576x3 ![] bcast_S_S1048576x3 main_cst_4
  let main_v16 : IVec S1048576x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S1048576x32 : Shape := ⟨2, ![1048576, 32]⟩
abbrev S1048576x3 : Shape := ⟨2, ![1048576, 3]⟩
abbrev S1048576 : Shape := ⟨1, ![1048576]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S15x64 : Shape := ⟨2, ![15, 64]⟩
abbrev S_ : Shape := ⟨0, ![]⟩
abbrev S32x192 : Shape := ⟨2, ![32, 192]⟩
abbrev S96x192 : Shape := ⟨2, ![96, 192]⟩
abbrev S64x192 : Shape := ⟨2, ![64, 192]⟩
abbrev S192x192 : Shape := ⟨2, ![192, 192]⟩
abbrev S64x51 : Shape := ⟨2, ![64, 51]⟩
abbrev S192x51 : Shape := ⟨2, ![192, 51]⟩
abbrev S64x9 : Shape := ⟨2, ![64, 9]⟩
abbrev S192x9 : Shape := ⟨2, ![192, 9]⟩
abbrev S3x64 : Shape := ⟨2, ![3, 64]⟩
abbrev S2x192 : Shape := ⟨2, ![2, 192]⟩
abbrev S15x192 : Shape := ⟨2, ![15, 192]⟩
abbrev S17x192 : Shape := ⟨2, ![17, 192]⟩
abbrev S51x192 : Shape := ⟨2, ![51, 192]⟩
abbrev S3x192 : Shape := ⟨2, ![3, 192]⟩
abbrev S1048576x1 : Shape := ⟨2, ![1048576, 1]⟩
abbrev S1048576x6 : Shape := ⟨2, ![1048576, 6]⟩
abbrev S1048576x4 : Shape := ⟨2, ![1048576, 4]⟩
abbrev S2048x32 : Shape := ⟨2, ![2048, 32]⟩
abbrev S2048x6 : Shape := ⟨2, ![2048, 6]⟩
abbrev S2048x4 : Shape := ⟨2, ![2048, 4]⟩
abbrev S2048x96 : Shape := ⟨2, ![2048, 96]⟩
abbrev S2048x192 : Shape := ⟨2, ![2048, 192]⟩
abbrev S2048x51 : Shape := ⟨2, ![2048, 51]⟩
abbrev S2048x3 : Shape := ⟨2, ![2048, 3]⟩
abbrev S2048x1 : Shape := ⟨2, ![2048, 1]⟩
abbrev S2048x9 : Shape := ⟨2, ![2048, 9]⟩

abbrev nBuf : Space → Nat
  | .hbm => 155
  | .vmem => 18
  | .smem => 0
  | _ => 0

abbrev hbmTy0_0 (i : Nat) : BufTy := match i % 128 with
  | 0 => ⟨S1048576x32, .f32⟩
  | 1 => ⟨S1048576x32, .f32⟩
  | 2 => ⟨S1048576x32, .f32⟩
  | 3 => ⟨S1048576x3, .f32⟩
  | 4 => ⟨S1048576, .f32⟩
  | 5 => ⟨S1048576, .f32⟩
  | 6 => ⟨S1048576, .f32⟩
  | 7 => ⟨S32x64, .f32⟩
  | 8 => ⟨S64x64, .f32⟩
  | 9 => ⟨S64x17, .f32⟩
  | 10 => ⟨S18x64, .f32⟩
  | 11 => ⟨S64x64, .f32⟩
  | 12 => ⟨S64x64, .f32⟩
  | 13 => ⟨S64x3, .f32⟩
  | 14 => ⟨S32x64, .f32⟩
  | 15 => ⟨S64x64, .f32⟩
  | 16 => ⟨S64x17, .f32⟩
  | 17 => ⟨S15x64, .f32⟩
  | 18 => ⟨S64x64, .f32⟩
  | 19 => ⟨S64x64, .f32⟩
  | 20 => ⟨S64x3, .f32⟩
  | 21 => ⟨S32x64, .f32⟩
  | 22 => ⟨S64x64, .f32⟩
  | 23 => ⟨S64x17, .f32⟩
  | 24 => ⟨S15x64, .f32⟩
  | 25 => ⟨S64x64, .f32⟩
  | 26 => ⟨S64x64, .f32⟩
  | 27 => ⟨S64x3, .f32⟩
  | 28 => ⟨S_, .f32⟩
  | 29 => ⟨S32x64, .f32⟩
  | 30 => ⟨S_, .f32⟩
  | 31 => ⟨S32x64, .f32⟩
  | 32 => ⟨S32x192, .f32⟩
  | 33 => ⟨S_, .f32⟩
  | 34 => ⟨S32x64, .f32⟩
  | 35 => ⟨S_, .f32⟩
  | 36 => ⟨S32x64, .f32⟩
  | 37 => ⟨S32x192, .f32⟩
  | 38 => ⟨S_, .f32⟩
  | 39 => ⟨S32x64, .f32⟩
  | 40 => ⟨S_, .f32⟩
  | 41 => ⟨S32x64, .f32⟩
  | 42 => ⟨S32x192, .f32⟩
  | 43 => ⟨S96x192, .f32⟩
  | 44 => ⟨S_, .f32⟩
  | 45 => ⟨S64x64, .f32⟩
  | 46 => ⟨S_, .f32⟩
  | 47 => ⟨S64x64, .f32⟩
  | 48 => ⟨S64x192, .f32⟩
  | 49 => ⟨S_, .f32⟩
  | 50 => ⟨S64x64, .f32⟩
  | 51 => ⟨S_, .f32⟩
  | 52 => ⟨S64x64, .f32⟩
  | 53 => ⟨S64x192, .f32⟩
  | 54 => ⟨S_, .f32⟩
  | 55 => ⟨S64x64, .f32⟩
  | 56 => ⟨S_, .f32⟩
  | 57 => ⟨S64x64, .f32⟩
  | 58 => ⟨S64x192, .f32⟩
  | 59 => ⟨S192x192, .f32⟩
  | 60 => ⟨S_, .f32⟩
  | 61 => ⟨S64x17, .f32⟩
  | 62 => ⟨S_, .f32⟩
  | 63 => ⟨S64x17, .f32⟩
  | 64 => ⟨S64x51, .f32⟩
  | 65 => ⟨S_, .f32⟩
  | 66 => ⟨S64x17, .f32⟩
  | 67 => ⟨S_, .f32⟩
  | 68 => ⟨S64x17, .f32⟩
  | 69 => ⟨S64x51, .f32⟩
  | 70 => ⟨S_, .f32⟩
  | 71 => ⟨S64x17, .f32⟩
  | 72 => ⟨S_, .f32⟩
  | 73 => ⟨S64x17, .f32⟩
  | 74 => ⟨S64x51, .f32⟩
  | 75 => ⟨S192x51, .f32⟩
  | 76 => ⟨S_, .f32⟩
  | 77 => ⟨S64x64, .f32⟩
  | 78 => ⟨S_, .f32⟩
  | 79 => ⟨S64x64, .f32⟩
  | 80 => ⟨S64x192, .f32⟩
  | 81 => ⟨S_, .f32⟩
  | 82 => ⟨S64x64, .f32⟩
  | 83 => ⟨S_, .f32⟩
  | 84 => ⟨S64x64, .f32⟩
  | 85 => ⟨S64x192, .f32⟩
  | 86 => ⟨S_, .f32⟩
  | 87 => ⟨S64x64, .f32⟩
  | 88 => ⟨S_, .f32⟩
  | 89 => ⟨S64x64, .f32⟩
  | 90 => ⟨S64x192, .f32⟩
  | 91 => ⟨S192x192, .f32⟩
  | 92 => ⟨S_, .f32⟩
  | 93 => ⟨S64x64, .f32⟩
  | 94 => ⟨S_, .f32⟩
  | 95 => ⟨S64x64, .f32⟩
  | 96 => ⟨S64x192, .f32⟩
  | 97 => ⟨S_, .f32⟩
  | 98 => ⟨S64x64, .f32⟩
  | 99 => ⟨S_, .f32⟩
  | 100 => ⟨S64x64, .f32⟩
  | 101 => ⟨S64x192, .f32⟩
  | 102 => ⟨S_, .f32⟩
  | 103 => ⟨S64x64, .f32⟩
  | 104 => ⟨S_, .f32⟩
  | 105 => ⟨S64x64, .f32⟩
  | 106 => ⟨S64x192, .f32⟩
  | 107 => ⟨S192x192, .f32⟩
  | 108 => ⟨S_, .f32⟩
  | 109 => ⟨S64x3, .f32⟩
  | 110 => ⟨S_, .f32⟩
  | 111 => ⟨S64x3, .f32⟩
  | 112 => ⟨S64x9, .f32⟩
  | 113 => ⟨S_, .f32⟩
  | 114 => ⟨S64x3, .f32⟩
  | 115 => ⟨S_, .f32⟩
  | 116 => ⟨S64x3, .f32⟩
  | 117 => ⟨S64x9, .f32⟩
  | 118 => ⟨S_, .f32⟩
  | 119 => ⟨S64x3, .f32⟩
  | 120 => ⟨S_, .f32⟩
  | 121 => ⟨S64x3, .f32⟩
  | 122 => ⟨S64x9, .f32⟩
  | 123 => ⟨S192x9, .f32⟩
  | 124 => ⟨S3x64, .f32⟩
  | 125 => ⟨S15x64, .f32⟩
  | 126 => ⟨S_, .f32⟩
  | 127 => ⟨S15x64, .f32⟩
  | _ => ⟨S1048576x32, .f32⟩

abbrev hbmTy0_1 (i : Nat) : BufTy := match i % 128 with
  | 0 => ⟨S_, .f32⟩
  | 1 => ⟨S2x192, .f32⟩
  | 2 => ⟨S15x192, .f32⟩
  | 3 => ⟨S17x192, .f32⟩
  | 4 => ⟨S15x192, .f32⟩
  | 5 => ⟨S17x192, .f32⟩
  | 6 => ⟨S15x192, .f32⟩
  | 7 => ⟨S17x192, .f32⟩
  | 8 => ⟨S51x192, .f32⟩
  | 9 => ⟨S_, .f32⟩
  | 10 => ⟨S3x64, .f32⟩
  | 11 => ⟨S_, .f32⟩
  | 12 => ⟨S3x64, .f32⟩
  | 13 => ⟨S3x192, .f32⟩
  | 14 => ⟨S96x192, .bf16⟩
  | 15 => ⟨S192x192, .bf16⟩
  | 16 => ⟨S192x51, .bf16⟩
  | 17 => ⟨S51x192, .bf16⟩
  | 18 => ⟨S3x192, .bf16⟩
  | 19 => ⟨S192x192, .bf16⟩
  | 20 => ⟨S192x192, .bf16⟩
  | 21 => ⟨S192x9, .bf16⟩
  | 22 => ⟨S1048576x1, .f32⟩
  | 23 => ⟨S1048576x1, .f32⟩
  | 24 => ⟨S1048576x1, .f32⟩
  | 25 => ⟨S1048576x6, .f32⟩
  | 26 => ⟨S1048576x4, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x6, .f32⟩
  | .local _ .vmem, ⟨7, _⟩ => ⟨S2048x6, .f32⟩
  | .local _ .vmem, ⟨8, _⟩ => ⟨S96x192, .bf16⟩
  | .local _ .vmem, ⟨9, _⟩ => ⟨S192x192, .bf16⟩
  | .local _ .vmem, ⟨10, _⟩ => ⟨S192x51, .bf16⟩
  | .local _ .vmem, ⟨11, _⟩ => ⟨S51x192, .bf16⟩
  | .local _ .vmem, ⟨12, _⟩ => ⟨S3x192, .bf16⟩
  | .local _ .vmem, ⟨13, _⟩ => ⟨S192x192, .bf16⟩
  | .local _ .vmem, ⟨14, _⟩ => ⟨S192x192, .bf16⟩
  | .local _ .vmem, ⟨15, _⟩ => ⟨S192x9, .bf16⟩
  | .local _ .vmem, ⟨16, _⟩ => ⟨S2048x4, .f32⟩
  | .local _ .vmem, ⟨17, _⟩ => ⟨S2048x4, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_cst_1 : Ref sig .tc := ⟨.hbm, 33, rfl⟩
abbrev main_v3 : Ref sig .tc := ⟨.hbm, 34, rfl⟩
abbrev main_cst_2 : Ref sig .tc := ⟨.hbm, 35, rfl⟩
abbrev main_v4 : Ref sig .tc := ⟨.hbm, 36, rfl⟩
abbrev main_v5 : Ref sig .tc := ⟨.hbm, 37, rfl⟩
abbrev main_cst_3 : Ref sig .tc := ⟨.hbm, 38, rfl⟩
abbrev main_v6 : Ref sig .tc := ⟨.hbm, 39, rfl⟩
abbrev main_cst_4 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_5 : Ref sig .tc := ⟨.hbm, 44, rfl⟩
abbrev main_v10 : Ref sig .tc := ⟨.hbm, 45, rfl⟩
abbrev main_cst_6 : Ref sig .tc := ⟨.hbm, 46, rfl⟩
abbrev main_v11 : Ref sig .tc := ⟨.hbm, 47, rfl⟩
abbrev main_v12 : Ref sig .tc := ⟨.hbm, 48, rfl⟩
abbrev main_cst_7 : Ref sig .tc := ⟨.hbm, 49, rfl⟩
abbrev main_v13 : Ref sig .tc := ⟨.hbm, 50, rfl⟩
abbrev main_cst_8 : Ref sig .tc := ⟨.hbm, 51, rfl⟩
abbrev main_v14 : Ref sig .tc := ⟨.hbm, 52, rfl⟩
abbrev main_v15 : Ref sig .tc := ⟨.hbm, 53, rfl⟩
abbrev main_cst_9 : Ref sig .tc := ⟨.hbm, 54, rfl⟩
abbrev main_v16 : Ref sig .tc := ⟨.hbm, 55, rfl⟩
abbrev main_cst_10 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_11 : Ref sig .tc := ⟨.hbm, 60, rfl⟩
abbrev main_v20 : Ref sig .tc := ⟨.hbm, 61, rfl⟩
abbrev main_cst_12 : Ref sig .tc := ⟨.hbm, 62, rfl⟩
abbrev main_v21 : Ref sig .tc := ⟨.hbm, 63, rfl⟩
abbrev main_v22 : Ref sig .tc := ⟨.hbm, 64, rfl⟩
abbrev main_cst_13 : Ref sig .tc := ⟨.hbm, 65, rfl⟩
abbrev main_v23 : Ref sig .tc := ⟨.hbm, 66, rfl⟩
abbrev main_cst_14 : Ref sig .tc := ⟨.hbm, 67, rfl⟩
abbrev main_v24 : Ref sig .tc := ⟨.hbm, 68, rfl⟩
abbrev main_v25 : Ref sig .tc := ⟨.hbm, 69, rfl⟩
abbrev main_cst_15 : Ref sig .tc := ⟨.hbm, 70, rfl⟩
abbrev main_v26 : Ref sig .tc := ⟨.hbm, 71, rfl⟩
abbrev main_cst_16 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_17 : Ref sig .tc := ⟨.hbm, 76, rfl⟩
abbrev main_v30 : Ref sig .tc := ⟨.hbm, 77, rfl⟩
abbrev main_cst_18 : Ref sig .tc := ⟨.hbm, 78, rfl⟩
abbrev main_v31 : Ref sig .tc := ⟨.hbm, 79, rfl⟩
abbrev main_v32 : Ref sig .tc := ⟨.hbm, 80, rfl⟩
abbrev main_cst_19 : Ref sig .tc := ⟨.hbm, 81, rfl⟩
abbrev main_v33 : Ref sig .tc := ⟨.hbm, 82, rfl⟩
abbrev main_cst_20 : Ref sig .tc := ⟨.hbm, 83, rfl⟩
abbrev main_v34 : Ref sig .tc := ⟨.hbm, 84, rfl⟩
abbrev main_v35 : Ref sig .tc := ⟨.hbm, 85, rfl⟩
abbrev main_cst_21 : Ref sig .tc := ⟨.hbm, 86, rfl⟩
abbrev main_v36 : Ref sig .tc := ⟨.hbm, 87, rfl⟩
abbrev main_cst_22 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_23 : Ref sig .tc := ⟨.hbm, 92, rfl⟩
abbrev main_v40 : Ref sig .tc := ⟨.hbm, 93, rfl⟩
abbrev main_cst_24 : Ref sig .tc := ⟨.hbm, 94, rfl⟩
abbrev main_v41 : Ref sig .tc := ⟨.hbm, 95, rfl⟩
abbrev main_v42 : Ref sig .tc := ⟨.hbm, 96, rfl⟩
abbrev main_cst_25 : Ref sig .tc := ⟨.hbm, 97, rfl⟩
abbrev main_v43 : Ref sig .tc := ⟨.hbm, 98, rfl⟩
abbrev main_cst_26 : Ref sig .tc := ⟨.hbm, 99, rfl⟩
abbrev main_v44 : Ref sig .tc := ⟨.hbm, 100, rfl⟩
abbrev main_v45 : Ref sig .tc := ⟨.hbm, 101, rfl⟩
abbrev main_cst_27 : Ref sig .tc := ⟨.hbm, 102, rfl⟩
abbrev main_v46 : Ref sig .tc := ⟨.hbm, 103, rfl⟩
abbrev main_cst_28 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_cst_29 : Ref sig .tc := ⟨.hbm, 108, rfl⟩
abbrev main_v50 : Ref sig .tc := ⟨.hbm, 109, rfl⟩
abbrev main_cst_30 : Ref sig .tc := ⟨.hbm, 110, rfl⟩
abbrev main_v51 : Ref sig .tc := ⟨.hbm, 111, rfl⟩
abbrev main_v52 : Ref sig .tc := ⟨.hbm, 112, rfl⟩
abbrev main_cst_31 : Ref sig .tc := ⟨.hbm, 113, rfl⟩
abbrev main_v53 : Ref sig .tc := ⟨.hbm, 114, rfl⟩
abbrev main_cst_32 : Ref sig .tc := ⟨.hbm, 115, rfl⟩
abbrev main_v54 : Ref sig .tc := ⟨.hbm, 116, rfl⟩
abbrev main_v55 : Ref sig .tc := ⟨.hbm, 117, rfl⟩
abbrev main_cst_33 : Ref sig .tc := ⟨.hbm, 118, rfl⟩
abbrev main_v56 : Ref sig .tc := ⟨.hbm, 119, rfl⟩
abbrev main_cst_34 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_35 : Ref sig .tc := ⟨.hbm, 126, rfl⟩
abbrev main_v62 : Ref sig .tc := ⟨.hbm, 127, rfl⟩
abbrev main_cst_36 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_37 : Ref sig .tc := ⟨.hbm, 137, rfl⟩
abbrev main_v71 : Ref sig .tc := ⟨.hbm, 138, rfl⟩
abbrev main_cst_38 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x51 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S51x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x9 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S32x64 : S_.BroadcastsInDim S32x64 (![] : Fin 0 → Fin S32x64.rank)
  concatenates_S32x64_S32x64_S32x64_S32x192_d1 : Shape.Concatenates [S32x64, S32x64, S32x64] S32x192 1
  concatenates_S32x192_S32x192_S32x192_S96x192_d0 : Shape.Concatenates [S32x192, S32x192, S32x192] S96x192 0
  bcast_S_S64x64 : S_.BroadcastsInDim S64x64 (![] : Fin 0 → Fin S64x64.rank)
  concatenates_S64x64_S64x64_S64x64_S64x192_d1 : Shape.Concatenates [S64x64, S64x64, S64x64] S64x192 1
  concatenates_S64x192_S64x192_S64x192_S192x192_d0 : Shape.Concatenates [S64x192, S64x192, S64x192] S192x192 0
  bcast_S_S64x17 : S_.BroadcastsInDim S64x17 (![] : Fin 0 → Fin S64x17.rank)
  concatenates_S64x17_S64x17_S64x17_S64x51_d1 : Shape.Concatenates [S64x17, S64x17, S64x17] S64x51 1
  concatenates_S64x51_S64x51_S64x51_S192x51_d0 : Shape.Concatenates [S64x51, S64x51, S64x51] S192x51 0
  bcast_S_S64x3 : S_.BroadcastsInDim S64x3 (![] : Fin 0 → Fin S64x3.rank)
  concatenates_S64x3_S64x3_S64x3_S64x9_d1 : Shape.Concatenates [S64x3, S64x3, S64x3] S64x9 1
  concatenates_S64x9_S64x9_S64x9_S192x9_d0 : Shape.Concatenates [S64x9, S64x9, S64x9] S192x9 0
  slices_S18x64_S3x64_0_0 : S18x64.Slices ![0, 0] S3x64
  slices_S18x64_S15x64_3_0 : S18x64.Slices ![3, 0] S15x64
  bcast_S_S15x64 : S_.BroadcastsInDim S15x64 (![] : Fin 0 → Fin S15x64.rank)
  bcast_S_S2x192 : S_.BroadcastsInDim S2x192 (![] : Fin 0 → Fin S2x192.rank)
  concatenates_S15x64_S15x64_S15x64_S15x192_d1 : Shape.Concatenates [S15x64, S15x64, S15x64] S15x192 1
  concatenates_S2x192_S15x192_S17x192_d0 : Shape.Concatenates [S2x192, S15x192] S17x192 0
  concatenates_S17x192_S17x192_S17x192_S51x192_d0 : Shape.Concatenates [S17x192, S17x192, S17x192] S51x192 0
  bcast_S_S3x64 : S_.BroadcastsInDim S3x64 (![] : Fin 0 → Fin S3x64.rank)
  concatenates_S3x64_S3x64_S3x64_S3x192_d1 : Shape.Concatenates [S3x64, S3x64, S3x64] S3x192 1
  bitsLt_bf16_f32 : FTy.bits .bf16 < FTy.bits .f32
  bcast_S1048576_S1048576x1_0 : S1048576.BroadcastsInDim S1048576x1 (![0] : Fin 1 → Fin S1048576x1.rank)
  concatenates_S1048576x3_S1048576x1_S1048576x1_S1048576x1_S1048576x6_d1 : Shape.Concatenates [S1048576x3, S1048576x1, S1048576x1, S1048576x1] S1048576x6 1
  inb_S2048x32_S2048x32_0_0 : ∀ a, (![0, 0] : Fin 2 → Nat) a + S2048x32.size a ≤ S2048x32.size a
  h_S2048x32 : 0 < S2048x32.numel
  concatenates_S2048x32_S2048x32_S2048x32_S2048x96_d1 : Shape.Concatenates [S2048x32, S2048x32, S2048x32] S2048x96 1
  inb_S96x192_S96x192_0_0 : ∀ a, (![0, 0] : Fin 2 → Nat) a + S96x192.size a ≤ S96x192.size a
  h_S96x192 : 0 < S96x192.numel
  shapeCasts_S96x192_S96x192 : S96x192.ShapeCasts S96x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192x51_S192x51_0_0 : ∀ a, (![0, 0] : Fin 2 → Nat) a + S192x51.size a ≤ S192x51.size a
  h_S192x51 : 0 < S192x51.numel
  shapeCasts_S192x51_S192x51 : S192x51.ShapeCasts S192x51
  inb_S2048x6_S2048x6_0_0 : ∀ a, (![0, 0] : Fin 2 → Nat) a + S2048x6.size a ≤ S2048x6.size a
  h_S2048x6 : 0 < S2048x6.numel
  shapeCasts_S2048x6_S2048x6 : S2048x6.ShapeCasts S2048x6
  slices_S2048x6_o0_0_S2048x3 : S2048x6.Slices ![0, 0] S2048x3
  slices_S2048x6_o0_3_S2048x1 : S2048x6.Slices ![0, 3] S2048x1
  slices_S2048x6_o0_4_S2048x1 : S2048x6.Slices ![0, 4] S2048x1
  slices_S2048x6_o0_5_S2048x1 : S2048x6.Slices ![0, 5] S2048x1
  slices_S2048x51_o0_0_S2048x1 : S2048x51.Slices ![0, 0] S2048x1
  slices_S2048x51_o0_17_S2048x1 : S2048x51.Slices ![0, 17] S2048x1
  slices_S2048x51_o0_34_S2048x1 : S2048x51.Slices ![0, 34] S2048x1
  inb_S51x192_S51x192_0_0 : ∀ a, (![0, 0] : Fin 2 → Nat) a + S51x192.size a ≤ S51x192.size a
  h_S51x192 : 0 < S51x192.numel
  shapeCasts_S51x192_S51x192 : S51x192.ShapeCasts S51x192
  inb_S3x192_S3x192_0_0 : ∀ a, (![0, 0] : Fin 2 → Nat) a + S3x192.size a ≤ S3x192.size a
  h_S3x192 : 0 < S3x192.numel
  shapeCasts_S3x192_S3x192 : S3x192.ShapeCasts S3x192
  inb_S192x9_S192x9_0_0 : ∀ a, (![0, 0] : Fin 2 → Nat) a + S192x9.size a ≤ S192x9.size a
  h_S192x9 : 0 < S192x9.numel
  shapeCasts_S192x9_S192x9 : S192x9.ShapeCasts S192x9
  slices_S2048x9_o0_0_S2048x3 : S2048x9.Slices ![0, 0] S2048x3
  broadcasts_S2048x1_S2048x3 : S2048x1.Broadcasts S2048x3
  slices_S2048x9_o0_3_S2048x3 : S2048x9.Slices ![0, 3] S2048x3
  slices_S2048x9_o0_6_S2048x3 : S2048x9.Slices ![0, 6] S2048x3
  concatenates_S2048x3_S2048x1_S2048x4_d1 : Shape.Concatenates [S2048x3, S2048x1] S2048x4 1
  inb_S2048x4_S2048x4_0_0 : ∀ a, (![0, 0] : Fin 2 → Nat) a + S2048x4.size a ≤ S2048x4.size a
  h_S2048x4 : 0 < S2048x4.numel
  dot_S2048x96_S96x192_S2048x192_1_0_0_1_n_n_wf : DotDims.WF S2048x96 S96x192 S2048x192 [1] [0] [0] [1] [] []
  dot_S2048x192_S192x192_S2048x192_1_0_0_1_n_n_wf : DotDims.WF S2048x192 S192x192 S2048x192 [1] [0] [0] [1] [] []
  dot_S2048x192_S192x51_S2048x51_1_0_0_1_n_n_wf : DotDims.WF S2048x192 S192x51 S2048x51 [1] [0] [0] [1] [] []
  dot_S2048x51_S51x192_S2048x192_1_0_0_1_n_n_wf : DotDims.WF S2048x51 S51x192 S2048x192 [1] [0] [0] [1] [] []
  dot_S2048x3_S3x192_S2048x192_1_0_0_1_n_n_wf : DotDims.WF S2048x3 S3x192 S2048x192 [1] [0] [0] [1] [] []
  dot_S2048x192_S192x9_S2048x9_1_0_0_1_n_n_wf : DotDims.WF S2048x192 S192x9 S2048x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S1048576x32.size a
  hwx0_0 : ∀ i : grid0.Coords, EltTy.bits .f32 = 32 ∨ (Rect.block (s := S1048576x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S1048576x32.size a
  hwx0_1 : ∀ i : grid0.Coords, EltTy.bits .f32 = 32 ∨ (Rect.block (s := S1048576x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S1048576x32.size a
  hwx0_2 : ∀ i : grid0.Coords, EltTy.bits .f32 = 32 ∨ (Rect.block (s := S1048576x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x6.size a ≤ S1048576x6.size a
  hwx0_3 : ∀ i : grid0.Coords, EltTy.bits .f32 = 32 ∨ (Rect.block (s := S1048576x6) S2048x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x192.size a ≤ S96x192.size a
  hwx0_4 : ∀ i : grid0.Coords, EltTy.bits .bf16 = 32 ∨ (Rect.block (s := S96x192) S96x192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x192.size a ≤ S192x192.size a
  hwx0_5 : ∀ i : grid0.Coords, EltTy.bits .bf16 = 32 ∨ (Rect.block (s := S192x192) S192x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x51.size a ≤ S192x51.size a
  hwx0_6 : ∀ i : grid0.Coords, EltTy.bits .bf16 = 32 ∨ (Rect.block (s := S192x51) S192x51.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S51x192.size a ≤ S51x192.size a
  hwx0_7 : ∀ i : grid0.Coords, EltTy.bits .bf16 = 32 ∨ (Rect.block (s := S51x192) S51x192.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x192.size a ≤ S3x192.size a
  hwx0_8 : ∀ i : grid0.Coords, EltTy.bits .bf16 = 32 ∨ (Rect.block (s := S3x192) S3x192.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x192.size a ≤ S192x192.size a
  hwx0_9 : ∀ i : grid0.Coords, EltTy.bits .bf16 = 32 ∨ (Rect.block (s := S192x192) S192x192.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192x192.size a ≤ S192x192.size a
  hwx0_10 : ∀ i : grid0.Coords, EltTy.bits .bf16 = 32 ∨ (Rect.block (s := S192x192) S192x192.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S192x9.size a ≤ S192x9.size a
  hwx0_11 : ∀ i : grid0.Coords, EltTy.bits .bf16 = 32 ∨ (Rect.block (s := S192x9) S192x9.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x4.size a ≤ S1048576x4.size a
  hwx0_12 : ∀ i : grid0.Coords, EltTy.bits .f32 = 32 ∨ (Rect.block (s := S1048576x4) S2048x4.size (cc0_transform_12 i) (hinb0_12 i)).WholeWords (EltTy.packing .f32)

variable [Facts₀]

def dot_S2048x96_S96x192_S2048x192_1_0_0_1_n_n : DotDims S2048x96 S96x192 S2048x192 where
  lhsContracting := [1]
  rhsContracting := [0]
  lhsNonContracting := [0]
  rhsNonContracting := [1]
  lhsBatch := []
  rhsBatch := []
  wf := dot_S2048x96_S96x192_S2048x192_1_0_0_1_n_n_wf
def dot_S2048x192_S192x192_S2048x192_1_0_0_1_n_n : DotDims S2048x192 S192x192 S2048x192 where
  lhsContracting := [1]
  rhsContracting := [0]
  lhsNonContracting := [0]
  rhsNonContracting := [1]
  lhsBatch := []
  rhsBatch := []
  wf := dot_S2048x192_S192x192_S2048x192_1_0_0_1_n_n_wf
def dot_S2048x192_S192x51_S2048x51_1_0_0_1_n_n : DotDims S2048x192 S192x51 S2048x51 where
  lhsContracting := [1]
  rhsContracting := [0]
  lhsNonContracting := [0]
  rhsNonContracting := [1]
  lhsBatch := []
  rhsBatch := []
  wf := dot_S2048x192_S192x51_S2048x51_1_0_0_1_n_n_wf
def dot_S2048x51_S51x192_S2048x192_1_0_0_1_n_n : DotDims S2048x51 S51x192 S2048x192 where
  lhsContracting := [1]
  rhsContracting := [0]
  lhsNonContracting := [0]
  rhsNonContracting := [1]
  lhsBatch := []
  rhsBatch := []
  wf := dot_S2048x51_S51x192_S2048x192_1_0_0_1_n_n_wf
def dot_S2048x3_S3x192_S2048x192_1_0_0_1_n_n : DotDims S2048x3 S3x192 S2048x192 where
  lhsContracting := [1]
  rhsContracting := [0]
  lhsNonContracting := [0]
  rhsNonContracting := [1]
  lhsBatch := []
  rhsBatch := []
  wf := dot_S2048x3_S3x192_S2048x192_1_0_0_1_n_n_wf
def dot_S2048x192_S192x9_S2048x9_1_0_0_1_n_n : DotDims S2048x192 S192x9 S2048x9 where
  lhsContracting := [1]
  rhsContracting := [0]
  lhsNonContracting := [0]
  rhsNonContracting := [1]
  lhsBatch := []
  rhsBatch := []
  wf := dot_S2048x192_S192x9_S2048x9_1_0_0_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S2048x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v74) S96x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S192x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v76) S192x51.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S51x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v78) S3x192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v79) S192x192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v80) S192x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v81) S192x9.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v86) S2048x4.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S1048576x3 : Shape := ⟨2, ![1048576, 3]⟩
abbrev S1048576 : Shape := ⟨1, ![1048576]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S15x64 : Shape := ⟨2, ![15, 64]⟩
abbrev S1048576x64 : Shape := ⟨2, ![1048576, 64]⟩
abbrev S_ : Shape := ⟨0, ![]⟩
abbrev S1048576x17 : Shape := ⟨2, ![1048576, 17]⟩
abbrev S1048576x1 : Shape := ⟨2, ![1048576, 1]⟩
abbrev S1048576x15 : Shape := ⟨2, ![1048576, 15]⟩
abbrev S1048576x18 : Shape := ⟨2, ![1048576, 18]⟩
abbrev S1048576x4 : Shape := ⟨2, ![1048576, 4]⟩

abbrev nBuf : Space → Nat
  | .hbm => 203
  | .vmem => 0
  | .smem => 0
  | _ => 0

abbrev hbmTy0_0 (i : Nat) : BufTy := match i % 128 with
  | 0 => ⟨S1048576x32, .f32⟩
  | 1 => ⟨S1048576x32, .f32⟩
  | 2 => ⟨S1048576x32, .f32⟩
  | 3 => ⟨S1048576x3, .f32⟩
  | 4 => ⟨S1048576, .f32⟩
  | 5 => ⟨S1048576, .f32⟩
  | 6 => ⟨S1048576, .f32⟩
  | 7 => ⟨S32x64, .f32⟩
  | 8 => ⟨S64x64, .f32⟩
  | 9 => ⟨S64x17, .f32⟩
  | 10 => ⟨S18x64, .f32⟩
  | 11 => ⟨S64x64, .f32⟩
  | 12 => ⟨S64x64, .f32⟩
  | 13 => ⟨S64x3, .f32⟩
  | 14 => ⟨S32x64, .f32⟩
  | 15 => ⟨S64x64, .f32⟩
  | 16 => ⟨S64x17, .f32⟩
  | 17 => ⟨S15x64, .f32⟩
  | 18 => ⟨S64x64, .f32⟩
  | 19 => ⟨S64x64, .f32⟩
  | 20 => ⟨S64x3, .f32⟩
  | 21 => ⟨S32x64, .f32⟩
  | 22 => ⟨S64x64, .f32⟩
  | 23 => ⟨S64x17, .f32⟩
  | 24 => ⟨S15x64, .f32⟩
  | 25 => ⟨S64x64, .f32⟩
  | 26 => ⟨S64x64, .f32⟩
  | 27 => ⟨S64x3, .f32⟩
  | 28 => ⟨S1048576x64, .f32⟩
  | 29 => ⟨S_, .f32⟩
  | 30 => ⟨S1048576x64, .f32⟩
  | 31 => ⟨S1048576x64, .f32⟩
  | 32 => ⟨S1048576x64, .f32⟩
  | 33 => ⟨S_, .f32⟩
  | 34 => ⟨S1048576x64, .f32⟩
  | 35 => ⟨S1048576x64, .f32⟩
  | 36 => ⟨S1048576x17, .f32⟩
  | 37 => ⟨S1048576x1, .f32⟩
  | 38 => ⟨S1048576, .f32⟩
  | 39 => ⟨S_, .f32⟩
  | 40 => ⟨S1048576, .f32⟩
  | 41 => ⟨S1048576, .f32⟩
  | 42 => ⟨S1048576, .f32⟩
  | 43 => ⟨S1048576, .f32⟩
  | 44 => ⟨S1048576, .i1⟩
  | 45 => ⟨S1048576, .f32⟩
  | 46 => ⟨S1048576, .f32⟩
  | 47 => ⟨S1048576, .f32⟩
  | 48 => ⟨S1048576, .f32⟩
  | 49 => ⟨S1048576, .f32⟩
  | 50 => ⟨S1048576, .f32⟩
  | 51 => ⟨S1048576, .f32⟩
  | 52 => ⟨S1048576, .f32⟩
  | 53 => ⟨S1048576, .f32⟩
  | 54 => ⟨S1048576x15, .f32⟩
  | 55 => ⟨S1048576x18, .f32⟩
  | 56 => ⟨S1048576x64, .f32⟩
  | 57 => ⟨S_, .f32⟩
  | 58 => ⟨S1048576x64, .f32⟩
  | 59 => ⟨S1048576x64, .f32⟩
  | 60 => ⟨S1048576x64, .f32⟩
  | 61 => ⟨S_, .f32⟩
  | 62 => ⟨S1048576x64, .f32⟩
  | 63 => ⟨S1048576x64, .f32⟩
  | 64 => ⟨S1048576x64, .f32⟩
  | 65 => ⟨S_, .f32⟩
  | 66 => ⟨S1048576x64, .f32⟩
  | 67 => ⟨S1048576x64, .f32⟩
  | 68 => ⟨S1048576x3, .f32⟩
  | 69 => ⟨S1048576x3, .f32⟩
  | 70 => ⟨S1048576x3, .f32⟩
  | 71 => ⟨S_, .f32⟩
  | 72 => ⟨S1048576x3, .f32⟩
  | 73 => ⟨S1048576x3, .f32⟩
  | 74 => ⟨S_, .f32⟩
  | 75 => ⟨S1048576x3, .f32⟩
  | 76 => ⟨S1048576x3, .f32⟩
  | 77 => ⟨S1048576x1, .f32⟩
  | 78 => ⟨S1048576x3, .f32⟩
  | 79 => ⟨S1048576x3, .f32⟩
  | 80 => ⟨S1048576x64, .f32⟩
  | 81 => ⟨S_, .f32⟩
  | 82 => ⟨S1048576x64, .f32⟩
  | 83 => ⟨S1048576x64, .f32⟩
  | 84 => ⟨S1048576x64, .f32⟩
  | 85 => ⟨S_, .f32⟩
  | 86 => ⟨S1048576x64, .f32⟩
  | 87 => ⟨S1048576x64, .f32⟩
  | 88 => ⟨S1048576x17, .f32⟩
  | 89 => ⟨S1048576x1, .f32⟩
  | 90 => ⟨S1048576, .f32⟩
  | 91 => ⟨S_, .f32⟩
  | 92 => ⟨S1048576, .f32⟩
  | 93 => ⟨S1048576, .f32⟩
  | 94 => ⟨S1048576, .f32⟩
  | 95 => ⟨S1048576, .f32⟩
  | 96 => ⟨S1048576, .i1⟩
  | 97 => ⟨S1048576, .f32⟩
  | 98 => ⟨S1048576, .f32⟩
  | 99 => ⟨S1048576, .f32⟩
  | 100 => ⟨S1048576, .f32⟩
  | 101 => ⟨S1048576, .f32⟩
  | 102 => ⟨S1048576, .f32⟩
  | 103 => ⟨S1048576, .f32⟩
  | 104 => ⟨S1048576, .f32⟩
  | 105 => ⟨S1048576, .f32⟩
  | 106 => ⟨S1048576x15, .f32⟩
  | 107 => ⟨S1048576x64, .f32⟩
  | 108 => ⟨S_, .f32⟩
  | 109 => ⟨S1048576x64, .f32⟩
  | 110 => ⟨S1048576x64, .f32⟩
  | 111 => ⟨S1048576x64, .f32⟩
  | 112 => ⟨S_, .f32⟩
  | 113 => ⟨S1048576x64, .f32⟩
  | 114 => ⟨S1048576x64, .f32⟩
  | 115 => ⟨S1048576x64, .f32⟩
  | 116 => ⟨S_, .f32⟩
  | 117 => ⟨S1048576x64, .f32⟩
  | 118 => ⟨S1048576x64, .f32⟩
  | 119 => ⟨S1048576x3, .f32⟩
  | 120 => ⟨S1048576x3, .f32⟩
  | 121 => ⟨S1048576x3, .f32⟩
  | 122 => ⟨S_, .f32⟩
  | 123 => ⟨S1048576x3, .f32⟩
  | 124 => ⟨S1048576x3, .f32⟩
  | 125 => ⟨S_, .f32⟩
  | 126 => ⟨S1048576x3, .f32⟩
  | 127 => ⟨S1048576x3, .f32⟩
  | _ => ⟨S1048576x32, .f32⟩

abbrev hbmTy0_1 (i : Nat) : BufTy := match i % 128 with
  | 0 => ⟨S1048576x1, .f32⟩
  | 1 => ⟨S1048576x3, .f32⟩
  | 2 => ⟨S1048576x3, .f32⟩
  | 3 => ⟨S1048576x64, .f32⟩
  | 4 => ⟨S_, .f32⟩
  | 5 => ⟨S1048576x64, .f32⟩
  | 6 => ⟨S1048576x64, .f32⟩
  | 7 => ⟨S1048576x64, .f32⟩
  | 8 => ⟨S_, .f32⟩
  | 9 => ⟨S1048576x64, .f32⟩
  | 10 => ⟨S1048576x64, .f32⟩
  | 11 => ⟨S1048576x17, .f32⟩
  | 12 => ⟨S1048576x1, .f32⟩
  | 13 => ⟨S1048576, .f32⟩
  | 14 => ⟨S_, .f32⟩
  | 15 => ⟨S1048576, .f32⟩
  | 16 => ⟨S1048576, .f32⟩
  | 17 => ⟨S1048576, .f32⟩
  | 18 => ⟨S1048576, .f32⟩
  | 19 => ⟨S1048576, .i1⟩
  | 20 => ⟨S1048576, .f32⟩
  | 21 => ⟨S1048576, .f32⟩
  | 22 => ⟨S1048576, .f32⟩
  | 23 => ⟨S1048576, .f32⟩
  | 24 => ⟨S1048576, .f32⟩
  | 25 => ⟨S1048576, .f32⟩
  | 26 => ⟨S1048576, .f32⟩
  | 27 => ⟨S1048576, .f32⟩
  | 28 => ⟨S1048576, .f32⟩
  | 29 => ⟨S1048576x15, .f32⟩
  | 30 => ⟨S1048576x64, .f32⟩
  | 31 => ⟨S_, .f32⟩
  | 32 => ⟨S1048576x64, .f32⟩
  | 33 => ⟨S1048576x64, .f32⟩
  | 34 => ⟨S1048576x64, .f32⟩
  | 35 => ⟨S_, .f32⟩
  | 36 => ⟨S1048576x64, .f32⟩
  | 37 => ⟨S1048576x64, .f32⟩
  | 38 => ⟨S1048576x64, .f32⟩
  | 39 => ⟨S_, .f32⟩
  | 40 => ⟨S1048576x64, .f32⟩
  | 41 => ⟨S1048576x64, .f32⟩
  | 42 => ⟨S1048576x3, .f32⟩
  | 43 => ⟨S1048576x3, .f32⟩
  | 44 => ⟨S1048576x3, .f32⟩
  | 45 => ⟨S_, .f32⟩
  | 46 => ⟨S1048576x3, .f32⟩
  | 47 => ⟨S1048576x3, .f32⟩
  | 48 => ⟨S_, .f32⟩
  | 49 => ⟨S1048576x3, .f32⟩
  | 50 => ⟨S1048576x3, .f32⟩
  | 51 => ⟨S1048576x1, .f32⟩
  | 52 => ⟨S1048576x3, .f32⟩
  | 53 => ⟨S1048576x3, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S1048576x1, .f32⟩
  | 61 => ⟨S1048576x3, .f32⟩
  | 62 => ⟨S1048576x3, .f32⟩
  | 63 => ⟨S1048576, .f32⟩
  | 64 => ⟨S1048576x1, .f32⟩
  | 65 => ⟨S1048576x3, .f32⟩
  | 66 => ⟨S1048576x3, .f32⟩
  | 67 => ⟨S1048576x3, .f32⟩
  | 68 => ⟨S1048576, .f32⟩
  | 69 => ⟨S1048576x1, .f32⟩
  | 70 => ⟨S1048576x3, .f32⟩
  | 71 => ⟨S1048576x3, .f32⟩
  | 72 => ⟨S1048576x3, .f32⟩
  | 73 => ⟨S1048576x1, .f32⟩
  | 74 => ⟨S1048576x4, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_call0_cst : Ref sig .tc := ⟨.hbm, 29, rfl⟩
abbrev main_call0_v0 : Ref sig .tc := ⟨.hbm, 30, rfl⟩
abbrev main_v1 : Ref sig .tc := ⟨.hbm, 31, rfl⟩
abbrev main_v2 : Ref sig .tc := ⟨.hbm, 32, rfl⟩
abbrev main_call1_cst : Ref sig .tc := ⟨.hbm, 33, rfl⟩
abbrev main_call1_v0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_call2_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_call3_cst : Ref sig .tc := ⟨.hbm, 57, rfl⟩
abbrev main_call3_v0 : Ref sig .tc := ⟨.hbm, 58, rfl⟩
abbrev main_v12 : Ref sig .tc := ⟨.hbm, 59, rfl⟩
abbrev main_v13 : Ref sig .tc := ⟨.hbm, 60, rfl⟩
abbrev main_call4_cst : Ref sig .tc := ⟨.hbm, 61, rfl⟩
abbrev main_call4_v0 : Ref sig .tc := ⟨.hbm, 62, rfl⟩
abbrev main_v14 : Ref sig .tc := ⟨.hbm, 63, rfl⟩
abbrev main_v15 : Ref sig .tc := ⟨.hbm, 64, rfl⟩
abbrev main_call5_cst : Ref sig .tc := ⟨.hbm, 65, rfl⟩
abbrev main_call5_v0 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst : Ref sig .tc := ⟨.hbm, 71, rfl⟩
abbrev main_v20 : Ref sig .tc := ⟨.hbm, 72, rfl⟩
abbrev main_v21 : Ref sig .tc := ⟨.hbm, 73, rfl⟩
abbrev main_cst_0 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_call6_cst : Ref sig .tc := ⟨.hbm, 81, rfl⟩
abbrev main_call6_v0 : Ref sig .tc := ⟨.hbm, 82, rfl⟩
abbrev main_v28 : Ref sig .tc := ⟨.hbm, 83, rfl⟩
abbrev main_v29 : Ref sig .tc := ⟨.hbm, 84, rfl⟩
abbrev main_call7_cst : Ref sig .tc := ⟨.hbm, 85, rfl⟩
abbrev main_call7_v0 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_call8_cst : Ref sig .tc := ⟨.hbm, 91, rfl⟩
abbrev main_call8_v0 : Ref sig .tc := ⟨.hbm, 92, rfl⟩
abbrev main_call8_v1 : Ref sig .tc := ⟨.hbm, 93, rfl⟩
abbrev main_call8_v2 : Ref sig .tc := ⟨.hbm, 94, rfl⟩
abbrev main_call8_v3 : Ref sig .tc := ⟨.hbm, 95, rfl⟩
abbrev main_call8_v4 : Ref sig .tc := ⟨.hbm, 96, rfl⟩
abbrev main_call8_v5 : Ref sig .tc := ⟨.hbm, 97, rfl⟩
abbrev main_call8_v6 : Ref sig .tc := ⟨.hbm, 98, rfl⟩
abbrev main_call8_v7 : Ref sig .tc := ⟨.hbm, 99, rfl⟩
abbrev main_call8_v8 : Ref sig .tc := ⟨.hbm, 100, rfl⟩
abbrev main_call8_v9 : Ref sig .tc := ⟨.hbm, 101, rfl⟩
abbrev main_call8_v10 : Ref sig .tc := ⟨.hbm, 102, rfl⟩
abbrev main_call8_v11 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_call9_cst : Ref sig .tc := ⟨.hbm, 108, rfl⟩
abbrev main_call9_v0 : Ref sig .tc := ⟨.hbm, 109, rfl⟩
abbrev main_v38 : Ref sig .tc := ⟨.hbm, 110, rfl⟩
abbrev main_v39 : Ref sig .tc := ⟨.hbm, 111, rfl⟩
abbrev main_call10_cst : Ref sig .tc := ⟨.hbm, 112, rfl⟩
abbrev main_call10_v0 : Ref sig .tc := ⟨.hbm, 113, rfl⟩
abbrev main_v40 : Ref sig .tc := ⟨.hbm, 114, rfl⟩
abbrev main_v41 : Ref sig .tc := ⟨.hbm, 115, rfl⟩
abbrev main_call11_cst : Ref sig .tc := ⟨.hbm, 116, rfl⟩
abbrev main_call11_v0 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_cst_1 : Ref sig .tc := ⟨.hbm, 122, rfl⟩
abbrev main_v46 : Ref sig .tc := ⟨.hbm, 123, rfl⟩
abbrev main_v47 : Ref sig .tc := ⟨.hbm, 124, rfl⟩
abbrev main_cst_2 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_call12_cst : Ref sig .tc := ⟨.hbm, 132, rfl⟩
abbrev main_call12_v0 : Ref sig .tc := ⟨.hbm, 133, rfl⟩
abbrev main_v54 : Ref sig .tc := ⟨.hbm, 134, rfl⟩
abbrev main_v55 : Ref sig .tc := ⟨.hbm, 135, rfl⟩
abbrev main_call13_cst : Ref sig .tc := ⟨.hbm, 136, rfl⟩
abbrev main_call13_v0 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_call14_cst : Ref sig .tc := ⟨.hbm, 142, rfl⟩
abbrev main_call14_v0 : Ref sig .tc := ⟨.hbm, 143, rfl⟩
abbrev main_call14_v1 : Ref sig .tc := ⟨.hbm, 144, rfl⟩
abbrev main_call14_v2 : Ref sig .tc := ⟨.hbm, 145, rfl⟩
abbrev main_call14_v3 : Ref sig .tc := ⟨.hbm, 146, rfl⟩
abbrev main_call14_v4 : Ref sig .tc := ⟨.hbm, 147, rfl⟩
abbrev main_call14_v5 : Ref sig .tc := ⟨.hbm, 148, rfl⟩
abbrev main_call14_v6 : Ref sig .tc := ⟨.hbm, 149, rfl⟩
abbrev main_call14_v7 : Ref sig .tc := ⟨.hbm, 150, rfl⟩
abbrev main_call14_v8 : Ref sig .tc := ⟨.hbm, 151, rfl⟩
abbrev main_call14_v9 : Ref sig .tc := ⟨.hbm, 152, rfl⟩
abbrev main_call14_v10 : Ref sig .tc := ⟨.hbm, 153, rfl⟩
abbrev main_call14_v11 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_call15_cst : Ref sig .tc := ⟨.hbm, 159, rfl⟩
abbrev main_call15_v0 : Ref sig .tc := ⟨.hbm, 160, rfl⟩
abbrev main_v64 : Ref sig .tc := ⟨.hbm, 161, rfl⟩
abbrev main_v65 : Ref sig .tc := ⟨.hbm, 162, rfl⟩
abbrev main_call16_cst : Ref sig .tc := ⟨.hbm, 163, rfl⟩
abbrev main_call16_v0 : Ref sig .tc := ⟨.hbm, 164, rfl⟩
abbrev main_v66 : Ref sig .tc := ⟨.hbm, 165, rfl⟩
abbrev main_v67 : Ref sig .tc := ⟨.hbm, 166, rfl⟩
abbrev main_call17_cst : Ref sig .tc := ⟨.hbm, 167, rfl⟩
abbrev main_call17_v0 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_cst_3 : Ref sig .tc := ⟨.hbm, 173, rfl⟩
abbrev main_v72 : Ref sig .tc := ⟨.hbm, 174, rfl⟩
abbrev main_v73 : Ref sig .tc := ⟨.hbm, 175, rfl⟩
abbrev main_cst_4 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_cst_5 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩

abbrev nD : Nat := 1
abbrev τ : Topo := Topo.v7x

variable {F : FTy → Type} [FloatOps F]

class Facts₀ : Prop where
  bcast_S_S1048576x64 : S_.BroadcastsInDim S1048576x64 (![] : Fin 0 → Fin S1048576x64.rank)
  slices_S1048576x17_S1048576x1_0_0 : S1048576x17.Slices ![0, 0] S1048576x1
  shapeCasts_S1048576x1_S1048576 : S1048576x1.ShapeCasts S1048576
  bcast_S_S1048576 : S_.BroadcastsInDim S1048576 (![] : Fin 0 → Fin S1048576.rank)
  slices_S1048576x17_S1048576x15_0_2 : S1048576x17.Slices ![0, 2] S1048576x15
  concatenates_S1048576x3_S1048576x15_S1048576x18_d1 : Shape.Concatenates [S1048576x3, S1048576x15] S1048576x18 1
  bcast_S_S1048576x3 : S_.BroadcastsInDim S1048576x3 (![] : Fin 0 → Fin S1048576x3.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  concatenates_S1048576x3_S1048576x1_S1048576x4_d1 : Shape.Concatenates [S1048576x3, S1048576x1] S1048576x4 1
  dot_S1048576x32_S32x64_S1048576x64_1_0_0_1_n_n_wf : DotDims.WF S1048576x32 S32x64 S1048576x64 [1] [0] [0] [1] [] []
  dot_S1048576x64_S64x64_S1048576x64_1_0_0_1_n_n_wf : DotDims.WF S1048576x64 S64x64 S1048576x64 [1] [0] [0] [1] [] []
  dot_S1048576x64_S64x17_S1048576x17_1_0_0_1_n_n_wf : DotDims.WF S1048576x64 S64x17 S1048576x17 [1] [0] [0] [1] [] []
  dot_S1048576x18_S18x64_S1048576x64_1_0_0_1_n_n_wf : DotDims.WF S1048576x18 S18x64 S1048576x64 [1] [0] [0] [1] [] []
  dot_S1048576x64_S64x3_S1048576x3_1_0_0_1_n_n_wf : DotDims.WF S1048576x64 S64x3 S1048576x3 [1] [0] [0] [1] [] []
  dot_S1048576x15_S15x64_S1048576x64_1_0_0_1_n_n_wf : DotDims.WF S1048576x15 S15x64 S1048576x64 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x17_S1048576x17_1_0_0_1_n_n : DotDims S1048576x64 S64x17 S1048576x17 where
  lhsContracting := [1]
  rhsContracting := [0]
  lhsNonContracting := [0]
  rhsNonContracting := [1]
  lhsBatch := []
  rhsBatch := []
  wf := dot_S1048576x64_S64x17_S1048576x17_1_0_0_1_n_n_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf
def dot_S1048576x15_S15x64_S1048576x64_1_0_0_1_n_n : DotDims S1048576x15 S15x64 S1048576x64 where
  lhsContracting := [1]
  rhsContracting := [0]
  lhsNonContracting := [0]
  rhsNonContracting := [1]
  lhsBatch := []
  rhsBatch := []
  wf := dot_S1048576x15_S15x64_S1048576x64_1_0_0_1_n_n_wf

class Facts : Prop extends Facts₀ where

variable [Facts]
-- ==== Proof.FrameBitsArgs.lean ====
/- The host line before the one region of the program as printed, and that it leaves every argument array as launched. -/
import proofs.«149636_j70153995813579_2_alg».proof.Proof.Gen.Kernel.Launch
import Idealize.ShloMosaic.Lib.Pipeline.FrameBody

noncomputable section

namespace Cert.Kernel.Fr

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)
/-! ## @main up to the region

The program's @main is one straight line of host operations (broadcasts, concatenations and
truncations that build the weight matrices and the fourth data operand out of the arguments) followed by
the one region. None of these operations writes an argument array: each writes its own result
buffer, and the results are pairwise other references than the arguments. -/

/-- Core `c`'s TensorCore buffers when the region is entered: the launch contents carried through the
    host operations before it. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main up to the region, at any variants `𝒱₀`: the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host operations write, in order: each operation's one result. -/
def hostW : List (Ref sig .tc) :=
  [main_cst, main_v0, main_cst_0, main_v1, main_v2, main_cst_1, main_v3, main_cst_2, main_v4, main_v5, main_cst_3, main_v6, main_cst_4, main_v7, main_v8, main_v9, main_cst_5, main_v10, main_cst_6, main_v11, main_v12, main_cst_7, main_v13, main_cst_8, main_v14, main_v15, main_cst_9, main_v16, main_cst_10, main_v17, main_v18, main_v19, main_cst_11, main_v20, main_cst_12, main_v21, main_v22, main_cst_13, main_v23, main_cst_14, main_v24, main_v25, main_cst_15, main_v26, main_cst_16, main_v27, main_v28, main_v29, main_cst_17, main_v30, main_cst_18, main_v31, main_v32, main_cst_19, main_v33, main_cst_20, main_v34, main_v35, main_cst_21, main_v36, main_cst_22, main_v37, main_v38, main_v39, main_cst_23, main_v40, main_cst_24, main_v41, main_v42, main_cst_25, main_v43, main_cst_26, main_v44, main_v45, main_cst_27, main_v46, main_cst_28, main_v47, main_v48, main_v49, main_cst_29, main_v50, main_cst_30, main_v51, main_v52, main_cst_31, main_v53, main_cst_32, main_v54, main_v55, main_cst_33, main_v56, main_cst_34, main_v57, main_v58, main_v59, main_v60, main_v61, main_cst_35, main_v62, main_cst_36, main_v63, main_v64, main_v65, main_v66, main_v67, main_v68, main_v69, main_v70, main_cst_37, main_v71, main_cst_38, main_v72, main_v73, main_v74, main_v75, main_v76, main_v77, main_v78, main_v79, main_v80, main_v81, main_v82, main_v83, main_v84, main_v85]

/-- Every host operation writes within that list. -/
theorem hostOps0_writes : (hostOps0 : List (HloOp τ sig (Elt F))).Forall fun op =>
    op.writes ⊆ (hostW.map (Proc.devRef (τ := τ) .tc)).toFinset := by
  simp only [hostOps0, List.Forall, StableHlo.nullary_writes, StableHlo.unary_writes, StableHlo.binary_writes,
    StableHlo.nary_writes, Finset.singleton_subset_iff, List.mem_toFinset]
  repeat' apply And.intro
  all_goals exact List.mem_map_of_mem (by decide)

/-- A reference outside that list reaches the region with its launch contents. -/
theorem V_of_not_mem (c : Dev nD) {r : Ref sig .tc} (hr : r ∉ hostW) : V m c r = m ((c : Thread nD τ).loc r) :=
  StableHlo.after_of_writes_sub hostOps0 _ hostOps0_writes hr

/-- No host operation before the region writes `main_arg0`: the region finds it as launched. -/
theorem V_main_arg0 (c : Dev nD) : V m c main_arg0 = m ((c : Thread nD τ).loc main_arg0) := V_of_not_mem m c (by decide)
/-- No host operation before the region writes `main_arg1`: the region finds it as launched. -/
theorem V_main_arg1 (c : Dev nD) : V m c main_arg1 = m ((c : Thread nD τ).loc main_arg1) := V_of_not_mem m c (by decide)
/-- No host operation before the region writes `main_arg2`: the region finds it as launched. -/
theorem V_main_arg2 (c : Dev nD) : V m c main_arg2 = m ((c : Thread nD τ).loc main_arg2) := V_of_not_mem m c (by decide)
/-- No host operation before the region writes `main_arg3`: the region finds it as launched. -/
theorem V_main_arg3 (c : Dev nD) : V m c main_arg3 = m ((c : Thread nD τ).loc main_arg3) := V_of_not_mem m c (by decide)
/-- No host operation before the region writes `main_arg4`: the region finds it as launched. -/
theorem V_main_arg4 (c : Dev nD) : V m c main_arg4 = m ((c : Thread nD τ).loc main_arg4) := V_of_not_mem m c (by decide)
/-- No host operation before the region writes `main_arg5`: the region finds it as launched. -/
theorem V_main_arg5 (c : Dev nD) : V m c main_arg5 = m ((c : Thread nD τ).loc main_arg5) := V_of_not_mem m c (by decide)
/-- No host operation before the region writes `main_arg6`: the region finds it as launched. -/
theorem V_main_arg6 (c : Dev nD) : V m c main_arg6 = m ((c : Thread nD τ).loc main_arg6) := V_of_not_mem m c (by decide)
/-- No host operation before the region writes `main_arg7`: the region finds it as launched. -/
theorem V_main_arg7 (c : Dev nD) : V m c main_arg7 = m ((c : Thread nD τ).loc main_arg7) := V_of_not_mem m c (by decide)
/-- No host operation before the region writes `main_arg8`: the region finds it as launched. -/
theorem V_main_arg8 (c : Dev nD) : V m c main_arg8 = m ((c : Thread nD τ).loc main_arg8) := V_of_not_mem m c (by decide)
/-- No host operation before the region writes `main_arg9`: the region finds it as launched. -/
theorem V_main_arg9 (c : Dev nD) : V m c main_arg9 = m ((c : Thread nD τ).loc main_arg9) := V_of_not_mem m c (by decide)
/-- No host operation before the region writes `main_arg10`: the region finds it as launched. -/
theorem V_main_arg10 (c : Dev nD) : V m c main_arg10 = m ((c : Thread nD τ).loc main_arg10) := V_of_not_mem m c (by decide)
/-- No host operation before the region writes `main_arg11`: the region finds it as launched. -/
theorem V_main_arg11 (c : Dev nD) : V m c main_arg11 = m ((c : Thread nD τ).loc main_arg11) := V_of_not_mem m c (by decide)
/-- No host operation before the region writes `main_arg12`: the region finds it as launched. -/
theorem V_main_arg12 (c : Dev nD) : V m c main_arg12 = m ((c : Thread nD τ).loc main_arg12) := V_of_not_mem m c (by decide)
/-- No host operation before the region writes `main_arg13`: the region finds it as launched. -/
theorem V_main_arg13 (c : Dev nD) : V m c main_arg13 = m ((c : Thread nD τ).loc main_arg13) := V_of_not_mem m c (by decide)
/-- No host operation before the region writes `main_arg14`: the region finds it as launched. -/
theorem V_main_arg14 (c : Dev nD) : V m c main_arg14 = m ((c : Thread nD τ).loc main_arg14) := V_of_not_mem m c (by decide)
/-- No host operation before the region writes `main_arg15`: the region finds it as launched. -/
theorem V_main_arg15 (c : Dev nD) : V m c main_arg15 = m ((c : Thread nD τ).loc main_arg15) := V_of_not_mem m c (by decide)
/-- No host operation before the region writes `main_arg16`: the region finds it as launched. -/
theorem V_main_arg16 (c : Dev nD) : V m c main_arg16 = m ((c : Thread nD τ).loc main_arg16) := V_of_not_mem m c (by decide)
/-- No host operation before the region writes `main_arg17`: the region finds it as launched. -/
theorem V_main_arg17 (c : Dev nD) : V m c main_arg17 = m ((c : Thread nD τ).loc main_arg17) := V_of_not_mem m c (by decide)
/-- No host operation before the region writes `main_arg18`: the region finds it as launched. -/
theorem V_main_arg18 (c : Dev nD) : V m c main_arg18 = m ((c : Thread nD τ).loc main_arg18) := V_of_not_mem m c (by decide)
/-- No host operation before the region writes `main_arg19`: the region finds it as launched. -/
theorem V_main_arg19 (c : Dev nD) : V m c main_arg19 = m ((c : Thread nD τ).loc main_arg19) := V_of_not_mem m c (by decide)
/-- No host operation before the region writes `main_arg20`: the region finds it as launched. -/
theorem V_main_arg20 (c : Dev nD) : V m c main_arg20 = m ((c : Thread nD τ).loc main_arg20) := V_of_not_mem m c (by decide)
/-- No host operation before the region writes `main_arg21`: the region finds it as launched. -/
theorem V_main_arg21 (c : Dev nD) : V m c main_arg21 = m ((c : Thread nD τ).loc main_arg21) := V_of_not_mem m c (by decide)
/-- No host operation before the region writes `main_arg22`: the region finds it as launched. -/
theorem V_main_arg22 (c : Dev nD) : V m c main_arg22 = m ((c : Thread nD τ).loc main_arg22) := V_of_not_mem m c (by decide)
/-- No host operation before the region writes `main_arg23`: the region finds it as launched. -/
theorem V_main_arg23 (c : Dev nD) : V m c main_arg23 = m ((c : Thread nD τ).loc main_arg23) := V_of_not_mem m c (by decide)
/-- No host operation before the region writes `main_arg24`: the region finds it as launched. -/
theorem V_main_arg24 (c : Dev nD) : V m c main_arg24 = m ((c : Thread nD τ).loc main_arg24) := V_of_not_mem m c (by decide)
/-- No host operation before the region writes `main_arg25`: the region finds it as launched. -/
theorem V_main_arg25 (c : Dev nD) : V m c main_arg25 = m ((c : Thread nD τ).loc main_arg25) := V_of_not_mem m c (by decide)
/-- No host operation before the region writes `main_arg26`: the region finds it as launched. -/
theorem V_main_arg26 (c : Dev nD) : V m c main_arg26 = m ((c : Thread nD τ).loc main_arg26) := V_of_not_mem m c (by decide)
/-- No host operation before the region writes `main_arg27`: the region finds it as launched. -/
theorem V_main_arg27 (c : Dev nD) : V m c main_arg27 = m ((c : Thread nD τ).loc main_arg27) := V_of_not_mem m c (by decide)

end Cert.Kernel.Fr

end
-- ==== Proof.FrameBits.lean ====
/- The frame of the program: it runs to the end, faults nowhere, and leaves every argument array as launched.

   @main is one line of host operations followed by ONE region on a static grid of 512 points with 13 windows: four
   data inputs cut row-block by row-block (block index `(i, 0)`), eight weight matrices held whole (a constant block
   index, fetched at the first point only), and the one output, cut like the data inputs. At every point the body loads
   each input's staging buffer whole, computes, and stores the output's staging buffer whole; it has no scratch, no
   semaphore of its own, no loop and no branch. So what the body leaves in the output's buffer is a closed function of
   the twelve input blocks at the point (`out12`), every input's buffer holds its block whether or not the pipeline
   fetched it there, and the pipeline library's frame run applies: every array the pipeline stages ends as the library
   computes from these data, and every other unscoped buffer as the region found it. The host line writes result
   buffers only (FrameBitsArgs), so each argument array ends as launched. -/
import proofs.«149636_j70153995813579_2_alg».proof.Proof.FrameBitsArgs
import proofs.«149636_j70153995813579_2_alg».proof.Proof.Gen.Kernel.Launch
import proofs.«149636_j70153995813579_2_alg».proof.Proof.Gen.Kernel.Skeleton
import proofs.«149636_j70153995813579_2_alg».proof.Proof.Gen.Kernel.Points
import Idealize.ShloMosaic.Lib.Pipeline.FrameBody
import Idealize.ShloMosaic.Lib.Ring
import Idealize.ShloMosaic.Lib.Tactic

-- membership in a rectangle of these extents is checked structurally, once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for ANY proof
    data whose array is `V`'s (`hA`) and whose body leaves the block in place (`hafter`): where the pipeline does not
    fetch, the block index has not moved, and the buffer still holds the previous point's block, which is this
    point's. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents (`hA`), a run to the library's frame post, read at
    the argument arrays — the three the region stages as inputs through their windows, the other twenty-five as
    unscoped buffers no window stages —, gives each argument array its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩) h

/-! ## The body's accesses -/

abbrev r0_0 : Rect S2048x32 := Rect.unit (s := S2048x32) ![0, 0] S2048x32.size inb_S2048x32_S2048x32_0_0
abbrev r0_1 : Rect S96x192 := Rect.unit (s := S96x192) ![0, 0] S96x192.size inb_S96x192_S96x192_0_0
abbrev r0_2 : Rect S192x192 := Rect.unit (s := S192x192) ![0, 0] S192x192.size inb_S192x192_S192x192_0_0
abbrev r0_3 : Rect S192x51 := Rect.unit (s := S192x51) ![0, 0] S192x51.size inb_S192x51_S192x51_0_0
abbrev r0_4 : Rect S2048x6 := Rect.unit (s := S2048x6) ![0, 0] S2048x6.size inb_S2048x6_S2048x6_0_0
abbrev r0_5 : Rect S51x192 := Rect.unit (s := S51x192) ![0, 0] S51x192.size inb_S51x192_S51x192_0_0
abbrev r0_6 : Rect S3x192 := Rect.unit (s := S3x192) ![0, 0] S3x192.size inb_S3x192_S3x192_0_0
abbrev r0_7 : Rect S192x9 := Rect.unit (s := S192x9) ![0, 0] S192x9.size inb_S192x9_S192x9_0_0
abbrev r0_8 : Rect S2048x4 := Rect.unit (s := S2048x4) ![0, 0] S2048x4.size inb_S2048x4_S2048x4_0_0

/-! ## What the body leaves in the output window's buffer -/

/-- The output's staging buffer after the body, from the twelve input blocks: its one store, of the last payload over
    the loads of the inputs through their whole rectangles. -/
def out12 (x0 : Vec F S2048x32 .f32) (x1 : Vec F S2048x32 .f32) (x2 : Vec F S2048x32 .f32) (x3 : Vec F S2048x6 .f32) (x4 : Vec F S96x192 .bf16) (x5 : Vec F S192x192 .bf16) (x6 : Vec F S192x51 .bf16) (x7 : Vec F S51x192 .bf16) (x8 : Vec F S3x192 .bf16) (x9 : Vec F S192x192 .bf16) (x10 : Vec F S192x192 .bf16) (x11 : Vec F S192x9 .bf16) : Vec F S2048x4 .f32 :=
  View.canon [⟨r0_8, k0_pay17 (k0_pay4 (View.ld x3 r0_4)) (k0_pay5 (View.ld x3 r0_4)) (k0_pay6 (View.ld x3 r0_4))
      (k0_pay13 (k0_pay4 (View.ld x3 r0_4)) (k0_pay8 (View.ld x0 r0_0) (View.ld x1 r0_0) (View.ld x2 r0_0) (View.ld x4 r0_1) (View.ld x5 r0_2) (View.ld x6 r0_3)) (k0_pay10 (View.ld x0 r0_0) (View.ld x1 r0_0) (View.ld x2 r0_0) (View.ld x4 r0_1) (View.ld x5 r0_2) (View.ld x6 r0_3)) (k0_pay11 (View.ld x0 r0_0) (View.ld x1 r0_0) (View.ld x2 r0_0) (View.ld x4 r0_1) (View.ld x5 r0_2) (View.ld x6 r0_3)) (k0_pay12 (View.ld x0 r0_0) (View.ld x1 r0_0) (View.ld x2 r0_0) (View.ld x4 r0_1) (View.ld x5 r0_2) (View.ld x6 r0_3)))
      (k0_pay14 (k0_pay1 (View.ld x0 r0_0) (View.ld x1 r0_0) (View.ld x2 r0_0) (View.ld x4 r0_1) (View.ld x5 r0_2) (View.ld x6 r0_3)) (k0_pay5 (View.ld x3 r0_4)))
      (k0_pay15 (k0_pay1 (View.ld x0 r0_0) (View.ld x1 r0_0) (View.ld x2 r0_0) (View.ld x4 r0_1) (View.ld x5 r0_2) (View.ld x6 r0_3)) (k0_pay6 (View.ld x3 r0_4)))
      (k0_pay16 (k0_pay1 (View.ld x0 r0_0) (View.ld x1 r0_0) (View.ld x2 r0_0) (View.ld x4 r0_1) (View.ld x5 r0_2) (View.ld x6 r0_3)) (k0_pay3 (View.ld x3 r0_4)) (View.ld x7 r0_5) (View.ld x8 r0_6))
      (View.ld x9 r0_2) (View.ld x10 r0_2) (View.ld x11 r0_7)⟩]

/-- The one store fills the buffer. -/
theorem cover12 (p0 : Vec F S2048x4 .f32) (y : S2048x4.Idx) :
    ∃ pc ∈ ([⟨r0_8, p0⟩] : List (View.Piece (Elt F) S2048x4 .f32)), y ∈ pc.1.set :=
  View.cover_of_tiled [⟨r0_8, p0⟩] S2048x4.size (by rfl) y

/-! ## The body's triple -/

set_option maxHeartbeats 4000000 in
/-- The kernel body on whole staging memrefs, the inputs' at read contents `xW` and the output's at anything, runs to
    the continuation holding the inputs' as they were and the output's at `out12` of the inputs'. The body also loads
    the output's buffer once before storing into it and drops the value: the buffer is held at some contents, so the
    load is a step like any other. -/
theorem sound_kernel (c : Dev nD) (E : Set ℕ) (i : grid0.Coords) (arg1 : Memref sig .tc .vmem S2048x32 .f32) (harg1 : arg1.IsWhole) (arg2 : Memref sig .tc .vmem S2048x32 .f32) (harg2 : arg2.IsWhole) (arg3 : Memref sig .tc .vmem S2048x32 .f32) (harg3 : arg3.IsWhole) (arg4 : Memref sig .tc .vmem S2048x6 .f32) (harg4 : arg4.IsWhole) (arg5 : Memref sig .tc .vmem S96x192 .bf16) (harg5 : arg5.IsWhole) (arg6 : Memref sig .tc .vmem S192x192 .bf16) (harg6 : arg6.IsWhole) (arg7 : Memref sig .tc .vmem S192x51 .bf16) (harg7 : arg7.IsWhole) (arg8 : Memref sig .tc .vmem S51x192 .bf16) (harg8 : arg8.IsWhole) (arg9 : Memref sig .tc .vmem S3x192 .bf16) (harg9 : arg9.IsWhole) (arg10 : Memref sig .tc .vmem S192x192 .bf16) (harg10 : arg10.IsWhole) (arg11 : Memref sig .tc .vmem S192x192 .bf16) (harg11 : arg11.IsWhole) (arg12 : Memref sig .tc .vmem S192x9 .bf16) (harg12 : arg12.IsWhole) (arg13 : Memref sig .tc .vmem S2048x4 .f32) (harg13 : arg13.IsWhole)
    (x0 : Vec F S2048x32 .f32) (x1 : Vec F S2048x32 .f32) (x2 : Vec F S2048x32 .f32) (x3 : Vec F S2048x6 .f32) (x4 : Vec F S96x192 .bf16) (x5 : Vec F S192x192 .bf16) (x6 : Vec F S192x51 .bf16) (x7 : Vec F S51x192 .bf16) (x8 : Vec F S3x192 .bf16) (x9 : Vec F S192x192 .bf16) (x10 : Vec F S192x192 .bf16) (x11 : Vec F S192x9 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x2 x3 x4 x5 x6 x7 x8 x9 x10 x11)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  simp only [k0_part3_eq_skeleton]; unfold k0_part3_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover12 _)

/-! ## The pipeline's proof data -/

/-- The proof data of the one pipeline on core `c`: the arrays as the region finds them (`V`); after the body at
    point `t` each input's buffer at its block and the output's at `out12` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected, never unfolding `V`). -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-! Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Fr.run_main' depends on axioms: [propext, Classical.choice, Quot.sound] -/
#guard_msgs in #print axioms run_main

/-- THE FRAME, at any `F`: the program runs to the end without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.Kernel.Fr

end
-- ==== Proof.FrameIdealArgs.lean ====
/- The host line before the one region of the idealized program, and that it leaves every argument array as launched. -/
import proofs.«149636_j70153995813579_2_alg».proof.Proof.Gen.KernelIdeal.Launch
import Idealize.ShloMosaic.Lib.Pipeline.FrameBody

noncomputable section

namespace Cert.KernelIdeal.Fr

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)
/-! ## @main up to the region

The program's @main is one straight line of host operations (broadcasts, concatenations and
truncations that build the weight matrices and the fourth data operand out of the arguments) followed by
the one region. None of these operations writes an argument array: each writes its own result
buffer, and the results are pairwise other references than the arguments. -/

/-- Core `c`'s TensorCore buffers when the region is entered: the launch contents carried through the
    host operations before it. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main up to the region, at any variants `𝒱₀`: the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host operations write, in order: each operation's one result. -/
def hostW : List (Ref sig .tc) :=
  [main_cst, main_v0, main_cst_0, main_v1, main_v2, main_cst_1, main_v3, main_cst_2, main_v4, main_v5, main_cst_3, main_v6, main_cst_4, main_v7, main_v8, main_v9, main_cst_5, main_v10, main_cst_6, main_v11, main_v12, main_cst_7, main_v13, main_cst_8, main_v14, main_v15, main_cst_9, main_v16, main_cst_10, main_v17, main_v18, main_v19, main_cst_11, main_v20, main_cst_12, main_v21, main_v22, main_cst_13, main_v23, main_cst_14, main_v24, main_v25, main_cst_15, main_v26, main_cst_16, main_v27, main_v28, main_v29, main_cst_17, main_v30, main_cst_18, main_v31, main_v32, main_cst_19, main_v33, main_cst_20, main_v34, main_v35, main_cst_21, main_v36, main_cst_22, main_v37, main_v38, main_v39, main_cst_23, main_v40, main_cst_24, main_v41, main_v42, main_cst_25, main_v43, main_cst_26, main_v44, main_v45, main_cst_27, main_v46, main_cst_28, main_v47, main_v48, main_v49, main_cst_29, main_v50, main_cst_30, main_v51, main_v52, main_cst_31, main_v53, main_cst_32, main_v54, main_v55, main_cst_33, main_v56, main_cst_34, main_v57, main_v58, main_v59, main_v60, main_v61, main_cst_35, main_v62, main_cst_36, main_v63, main_v64, main_v65, main_v66, main_v67, main_v68, main_v69, main_v70, main_cst_37, main_v71, main_cst_38, main_v72, main_v73, main_v74, main_v75, main_v76, main_v77, main_v78, main_v79, main_v80, main_v81, main_v82, main_v83, main_v84, main_v85]

/-- Every host operation writes within that list. -/
theorem hostOps0_writes : (hostOps0 : List (HloOp τ sig (Elt F))).Forall fun op =>
    op.writes ⊆ (hostW.map (Proc.devRef (τ := τ) .tc)).toFinset := by
  simp only [hostOps0, List.Forall, StableHlo.nullary_writes, StableHlo.unary_writes, StableHlo.binary_writes,
    StableHlo.nary_writes, Finset.singleton_subset_iff, List.mem_toFinset]
  repeat' apply And.intro
  all_goals exact List.mem_map_of_mem (by decide)

/-- A reference outside that list reaches the region with its launch contents. -/
theorem V_of_not_mem (c : Dev nD) {r : Ref sig .tc} (hr : r ∉ hostW) : V m c r = m ((c : Thread nD τ).loc r) :=
  StableHlo.after_of_writes_sub hostOps0 _ hostOps0_writes hr

/-- No host operation before the region writes `main_arg0`: the region finds it as launched. -/
theorem V_main_arg0 (c : Dev nD) : V m c main_arg0 = m ((c : Thread nD τ).loc main_arg0) := V_of_not_mem m c (by decide)
/-- No host operation before the region writes `main_arg1`: the region finds it as launched. -/
theorem V_main_arg1 (c : Dev nD) : V m c main_arg1 = m ((c : Thread nD τ).loc main_arg1) := V_of_not_mem m c (by decide)
/-- No host operation before the region writes `main_arg2`: the region finds it as launched. -/
theorem V_main_arg2 (c : Dev nD) : V m c main_arg2 = m ((c : Thread nD τ).loc main_arg2) := V_of_not_mem m c (by decide)
/-- No host operation before the region writes `main_arg3`: the region finds it as launched. -/
theorem V_main_arg3 (c : Dev nD) : V m c main_arg3 = m ((c : Thread nD τ).loc main_arg3) := V_of_not_mem m c (by decide)
/-- No host operation before the region writes `main_arg4`: the region finds it as launched. -/
theorem V_main_arg4 (c : Dev nD) : V m c main_arg4 = m ((c : Thread nD τ).loc main_arg4) := V_of_not_mem m c (by decide)
/-- No host operation before the region writes `main_arg5`: the region finds it as launched. -/
theorem V_main_arg5 (c : Dev nD) : V m c main_arg5 = m ((c : Thread nD τ).loc main_arg5) := V_of_not_mem m c (by decide)
/-- No host operation before the region writes `main_arg6`: the region finds it as launched. -/
theorem V_main_arg6 (c : Dev nD) : V m c main_arg6 = m ((c : Thread nD τ).loc main_arg6) := V_of_not_mem m c (by decide)
/-- No host operation before the region writes `main_arg7`: the region finds it as launched. -/
theorem V_main_arg7 (c : Dev nD) : V m c main_arg7 = m ((c : Thread nD τ).loc main_arg7) := V_of_not_mem m c (by decide)
/-- No host operation before the region writes `main_arg8`: the region finds it as launched. -/
theorem V_main_arg8 (c : Dev nD) : V m c main_arg8 = m ((c : Thread nD τ).loc main_arg8) := V_of_not_mem m c (by decide)
/-- No host operation before the region writes `main_arg9`: the region finds it as launched. -/
theorem V_main_arg9 (c : Dev nD) : V m c main_arg9 = m ((c : Thread nD τ).loc main_arg9) := V_of_not_mem m c (by decide)
/-- No host operation before the region writes `main_arg10`: the region finds it as launched. -/
theorem V_main_arg10 (c : Dev nD) : V m c main_arg10 = m ((c : Thread nD τ).loc main_arg10) := V_of_not_mem m c (by decide)
/-- No host operation before the region writes `main_arg11`: the region finds it as launched. -/
theorem V_main_arg11 (c : Dev nD) : V m c main_arg11 = m ((c : Thread nD τ).loc main_arg11) := V_of_not_mem m c (by decide)
/-- No host operation before the region writes `main_arg12`: the region finds it as launched. -/
theorem V_main_arg12 (c : Dev nD) : V m c main_arg12 = m ((c : Thread nD τ).loc main_arg12) := V_of_not_mem m c (by decide)
/-- No host operation before the region writes `main_arg13`: the region finds it as launched. -/
theorem V_main_arg13 (c : Dev nD) : V m c main_arg13 = m ((c : Thread nD τ).loc main_arg13) := V_of_not_mem m c (by decide)
/-- No host operation before the region writes `main_arg14`: the region finds it as launched. -/
theorem V_main_arg14 (c : Dev nD) : V m c main_arg14 = m ((c : Thread nD τ).loc main_arg14) := V_of_not_mem m c (by decide)
/-- No host operation before the region writes `main_arg15`: the region finds it as launched. -/
theorem V_main_arg15 (c : Dev nD) : V m c main_arg15 = m ((c : Thread nD τ).loc main_arg15) := V_of_not_mem m c (by decide)
/-- No host operation before the region writes `main_arg16`: the region finds it as launched. -/
theorem V_main_arg16 (c : Dev nD) : V m c main_arg16 = m ((c : Thread nD τ).loc main_arg16) := V_of_not_mem m c (by decide)
/-- No host operation before the region writes `main_arg17`: the region finds it as launched. -/
theorem V_main_arg17 (c : Dev nD) : V m c main_arg17 = m ((c : Thread nD τ).loc main_arg17) := V_of_not_mem m c (by decide)
/-- No host operation before the region writes `main_arg18`: the region finds it as launched. -/
theorem V_main_arg18 (c : Dev nD) : V m c main_arg18 = m ((c : Thread nD τ).loc main_arg18) := V_of_not_mem m c (by decide)
/-- No host operation before the region writes `main_arg19`: the region finds it as launched. -/
theorem V_main_arg19 (c : Dev nD) : V m c main_arg19 = m ((c : Thread nD τ).loc main_arg19) := V_of_not_mem m c (by decide)
/-- No host operation before the region writes `main_arg20`: the region finds it as launched. -/
theorem V_main_arg20 (c : Dev nD) : V m c main_arg20 = m ((c : Thread nD τ).loc main_arg20) := V_of_not_mem m c (by decide)
/-- No host operation before the region writes `main_arg21`: the region finds it as launched. -/
theorem V_main_arg21 (c : Dev nD) : V m c main_arg21 = m ((c : Thread nD τ).loc main_arg21) := V_of_not_mem m c (by decide)
/-- No host operation before the region writes `main_arg22`: the region finds it as launched. -/
theorem V_main_arg22 (c : Dev nD) : V m c main_arg22 = m ((c : Thread nD τ).loc main_arg22) := V_of_not_mem m c (by decide)
/-- No host operation before the region writes `main_arg23`: the region finds it as launched. -/
theorem V_main_arg23 (c : Dev nD) : V m c main_arg23 = m ((c : Thread nD τ).loc main_arg23) := V_of_not_mem m c (by decide)
/-- No host operation before the region writes `main_arg24`: the region finds it as launched. -/
theorem V_main_arg24 (c : Dev nD) : V m c main_arg24 = m ((c : Thread nD τ).loc main_arg24) := V_of_not_mem m c (by decide)
/-- No host operation before the region writes `main_arg25`: the region finds it as launched. -/
theorem V_main_arg25 (c : Dev nD) : V m c main_arg25 = m ((c : Thread nD τ).loc main_arg25) := V_of_not_mem m c (by decide)
/-- No host operation before the region writes `main_arg26`: the region finds it as launched. -/
theorem V_main_arg26 (c : Dev nD) : V m c main_arg26 = m ((c : Thread nD τ).loc main_arg26) := V_of_not_mem m c (by decide)
/-- No host operation before the region writes `main_arg27`: the region finds it as launched. -/
theorem V_main_arg27 (c : Dev nD) : V m c main_arg27 = m ((c : Thread nD τ).loc main_arg27) := V_of_not_mem m c (by decide)

end Cert.KernelIdeal.Fr

end
-- ==== Proof.FrameIdeal.lean ====
/- The frame of the program: it runs to the end, faults nowhere, and leaves every argument array as launched.

   @main is one line of host operations followed by ONE region on a static grid of 512 points with 13 windows: four
   data inputs cut row-block by row-block (block index `(i, 0)`), eight weight matrices held whole (a constant block
   index, fetched at the first point only), and the one output, cut like the data inputs. At every point the body loads
   each input's staging buffer whole, computes, and stores the output's staging buffer whole; it has no scratch, no
   semaphore of its own, no loop and no branch. So what the body leaves in the output's buffer is a closed function of
   the twelve input blocks at the point (`out12`), every input's buffer holds its block whether or not the pipeline
   fetched it there, and the pipeline library's frame run applies: every array the pipeline stages ends as the library
   computes from these data, and every other unscoped buffer as the region found it. The host line writes result
   buffers only (FrameIdealArgs), so each argument array ends as launched. -/
import proofs.«149636_j70153995813579_2_alg».proof.Proof.FrameIdealArgs
import proofs.«149636_j70153995813579_2_alg».proof.Proof.Gen.KernelIdeal.Launch
import proofs.«149636_j70153995813579_2_alg».proof.Proof.Gen.KernelIdeal.Skeleton
import proofs.«149636_j70153995813579_2_alg».proof.Proof.Gen.KernelIdeal.Points
import Idealize.ShloMosaic.Lib.Pipeline.FrameBody
import Idealize.ShloMosaic.Lib.Ring
import Idealize.ShloMosaic.Lib.Tactic

-- membership in a rectangle of these extents is checked structurally, once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for ANY proof
    data whose array is `V`'s (`hA`) and whose body leaves the block in place (`hafter`): where the pipeline does not
    fetch, the block index has not moved, and the buffer still holds the previous point's block, which is this
    point's. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents (`hA`), a run to the library's frame post, read at
    the argument arrays — the three the region stages as inputs through their windows, the other twenty-five as
    unscoped buffers no window stages —, gives each argument array its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩) h

/-! ## The body's accesses -/

abbrev r0_0 : Rect S2048x32 := Rect.unit (s := S2048x32) ![0, 0] S2048x32.size inb_S2048x32_S2048x32_0_0
abbrev r0_1 : Rect S96x192 := Rect.unit (s := S96x192) ![0, 0] S96x192.size inb_S96x192_S96x192_0_0
abbrev r0_2 : Rect S192x192 := Rect.unit (s := S192x192) ![0, 0] S192x192.size inb_S192x192_S192x192_0_0
abbrev r0_3 : Rect S192x51 := Rect.unit (s := S192x51) ![0, 0] S192x51.size inb_S192x51_S192x51_0_0
abbrev r0_4 : Rect S2048x6 := Rect.unit (s := S2048x6) ![0, 0] S2048x6.size inb_S2048x6_S2048x6_0_0
abbrev r0_5 : Rect S51x192 := Rect.unit (s := S51x192) ![0, 0] S51x192.size inb_S51x192_S51x192_0_0
abbrev r0_6 : Rect S3x192 := Rect.unit (s := S3x192) ![0, 0] S3x192.size inb_S3x192_S3x192_0_0
abbrev r0_7 : Rect S192x9 := Rect.unit (s := S192x9) ![0, 0] S192x9.size inb_S192x9_S192x9_0_0
abbrev r0_8 : Rect S2048x4 := Rect.unit (s := S2048x4) ![0, 0] S2048x4.size inb_S2048x4_S2048x4_0_0

/-! ## What the body leaves in the output window's buffer -/

/-- The output's staging buffer after the body, from the twelve input blocks: its one store, of the last payload over
    the loads of the inputs through their whole rectangles. -/
def out12 (x0 : Vec F S2048x32 .f32) (x1 : Vec F S2048x32 .f32) (x2 : Vec F S2048x32 .f32) (x3 : Vec F S2048x6 .f32) (x4 : Vec F S96x192 .bf16) (x5 : Vec F S192x192 .bf16) (x6 : Vec F S192x51 .bf16) (x7 : Vec F S51x192 .bf16) (x8 : Vec F S3x192 .bf16) (x9 : Vec F S192x192 .bf16) (x10 : Vec F S192x192 .bf16) (x11 : Vec F S192x9 .bf16) : Vec F S2048x4 .f32 :=
  View.canon [⟨r0_8, k0_pay17 (k0_pay4 (View.ld x3 r0_4)) (k0_pay5 (View.ld x3 r0_4)) (k0_pay6 (View.ld x3 r0_4))
      (k0_pay13 (k0_pay4 (View.ld x3 r0_4)) (k0_pay8 (View.ld x0 r0_0) (View.ld x1 r0_0) (View.ld x2 r0_0) (View.ld x4 r0_1) (View.ld x5 r0_2) (View.ld x6 r0_3)) (k0_pay10 (View.ld x0 r0_0) (View.ld x1 r0_0) (View.ld x2 r0_0) (View.ld x4 r0_1) (View.ld x5 r0_2) (View.ld x6 r0_3)) (k0_pay11 (View.ld x0 r0_0) (View.ld x1 r0_0) (View.ld x2 r0_0) (View.ld x4 r0_1) (View.ld x5 r0_2) (View.ld x6 r0_3)) (k0_pay12 (View.ld x0 r0_0) (View.ld x1 r0_0) (View.ld x2 r0_0) (View.ld x4 r0_1) (View.ld x5 r0_2) (View.ld x6 r0_3)))
      (k0_pay14 (k0_pay1 (View.ld x0 r0_0) (View.ld x1 r0_0) (View.ld x2 r0_0) (View.ld x4 r0_1) (View.ld x5 r0_2) (View.ld x6 r0_3)) (k0_pay5 (View.ld x3 r0_4)))
      (k0_pay15 (k0_pay1 (View.ld x0 r0_0) (View.ld x1 r0_0) (View.ld x2 r0_0) (View.ld x4 r0_1) (View.ld x5 r0_2) (View.ld x6 r0_3)) (k0_pay6 (View.ld x3 r0_4)))
      (k0_pay16 (k0_pay1 (View.ld x0 r0_0) (View.ld x1 r0_0) (View.ld x2 r0_0) (View.ld x4 r0_1) (View.ld x5 r0_2) (View.ld x6 r0_3)) (k0_pay3 (View.ld x3 r0_4)) (View.ld x7 r0_5) (View.ld x8 r0_6))
      (View.ld x9 r0_2) (View.ld x10 r0_2) (View.ld x11 r0_7)⟩]

/-- The one store fills the buffer. -/
theorem cover12 (p0 : Vec F S2048x4 .f32) (y : S2048x4.Idx) :
    ∃ pc ∈ ([⟨r0_8, p0⟩] : List (View.Piece (Elt F) S2048x4 .f32)), y ∈ pc.1.set :=
  View.cover_of_tiled [⟨r0_8, p0⟩] S2048x4.size (by rfl) y

/-! ## The body's triple -/

set_option maxHeartbeats 4000000 in
/-- The kernel body on whole staging memrefs, the inputs' at read contents `xW` and the output's at anything, runs to
    the continuation holding the inputs' as they were and the output's at `out12` of the inputs'. The body also loads
    the output's buffer once before storing into it and drops the value: the buffer is held at some contents, so the
    load is a step like any other. -/
theorem sound_kernel (c : Dev nD) (E : Set ℕ) (i : grid0.Coords) (arg1 : Memref sig .tc .vmem S2048x32 .f32) (harg1 : arg1.IsWhole) (arg2 : Memref sig .tc .vmem S2048x32 .f32) (harg2 : arg2.IsWhole) (arg3 : Memref sig .tc .vmem S2048x32 .f32) (harg3 : arg3.IsWhole) (arg4 : Memref sig .tc .vmem S2048x6 .f32) (harg4 : arg4.IsWhole) (arg5 : Memref sig .tc .vmem S96x192 .bf16) (harg5 : arg5.IsWhole) (arg6 : Memref sig .tc .vmem S192x192 .bf16) (harg6 : arg6.IsWhole) (arg7 : Memref sig .tc .vmem S192x51 .bf16) (harg7 : arg7.IsWhole) (arg8 : Memref sig .tc .vmem S51x192 .bf16) (harg8 : arg8.IsWhole) (arg9 : Memref sig .tc .vmem S3x192 .bf16) (harg9 : arg9.IsWhole) (arg10 : Memref sig .tc .vmem S192x192 .bf16) (harg10 : arg10.IsWhole) (arg11 : Memref sig .tc .vmem S192x192 .bf16) (harg11 : arg11.IsWhole) (arg12 : Memref sig .tc .vmem S192x9 .bf16) (harg12 : arg12.IsWhole) (arg13 : Memref sig .tc .vmem S2048x4 .f32) (harg13 : arg13.IsWhole)
    (x0 : Vec F S2048x32 .f32) (x1 : Vec F S2048x32 .f32) (x2 : Vec F S2048x32 .f32) (x3 : Vec F S2048x6 .f32) (x4 : Vec F S96x192 .bf16) (x5 : Vec F S192x192 .bf16) (x6 : Vec F S192x51 .bf16) (x7 : Vec F S51x192 .bf16) (x8 : Vec F S3x192 .bf16) (x9 : Vec F S192x192 .bf16) (x10 : Vec F S192x192 .bf16) (x11 : Vec F S192x9 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x2 x3 x4 x5 x6 x7 x8 x9 x10 x11)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  simp only [k0_part3_eq_skeleton]; unfold k0_part3_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover12 _)

/-! ## The pipeline's proof data -/

/-- The proof data of the one pipeline on core `c`: the arrays as the region finds them (`V`); after the body at
    point `t` each input's buffer at its block and the output's at `out12` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected, never unfolding `V`). -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-! Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Fr.run_main' depends on axioms: [propext, Classical.choice, Quot.sound] -/
#guard_msgs in #print axioms run_main

/-- THE FRAME, at any `F`: the program runs to the end without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.KernelIdeal.Fr

end
-- ==== Proof.KernelValue.lean ====
/- From the blocks to the arrays: each input window's block at a grid point as rows of its array, and — for ANY
   candidate result `Gf` — that if the body's result at every point is that point's block of rows of `Gf`, then the
   result array ends holding `Gf` and the run's post is "result = Gf, arguments as launched".

   The grid has 512 points; point `t` of a data window (the three embeddings, the fourth data operand, the result) is
   rows `2048 t … 2048 t + 2047` and all columns of its array; a weight window's one block is its whole array. The 512
   row blocks of the result tile its 1048576 rows: row `R` lies in the block of point `R / 2048`. -/
import proofs.«149636_j70153995813579_2_alg».proof.Proof.FrameIdeal
import Idealize.ShloMosaic.Lib.Pipeline.Value
import Idealize.ShloMosaic.Lib.ValueIdx

noncomputable section

namespace Cert.KernelIdeal.KV

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## Rows -/

theorem point_lt (t : Fin cfg0.N) : t.val < 512 := by
  exact Nat.lt_of_lt_of_eq t.isLt N_0

theorem row_lt (t : Fin cfg0.N) (p : Fin 2048) : 2048 * t.val + p.val < 1048576 := by
  have := point_lt t; have := p.isLt; omega

/-- Row `p` of the block of point `t`, as a row of the array. -/
abbrev row (t : Fin cfg0.N) (p : Fin 2048) : Fin 1048576 := ⟨2048 * t.val + p.val, row_lt t p⟩

/-! ## The windows' arrays and index maps -/

theorem arrRef_0 : Pipeline.arrRef spec0 0 = main_arg0 := rfl
theorem arrRef_1 : Pipeline.arrRef spec0 1 = main_arg1 := rfl
theorem arrRef_2 : Pipeline.arrRef spec0 2 = main_arg2 := rfl
theorem arrRef_3 : Pipeline.arrRef spec0 3 = main_v85 := rfl
theorem arrRef_4 : Pipeline.arrRef spec0 4 = main_v74 := rfl
theorem arrRef_5 : Pipeline.arrRef spec0 5 = main_v75 := rfl
theorem arrRef_6 : Pipeline.arrRef spec0 6 = main_v76 := rfl
theorem arrRef_7 : Pipeline.arrRef spec0 7 = main_v77 := rfl
theorem arrRef_8 : Pipeline.arrRef spec0 8 = main_v78 := rfl
theorem arrRef_9 : Pipeline.arrRef spec0 9 = main_v79 := rfl
theorem arrRef_10 : Pipeline.arrRef spec0 10 = main_v80 := rfl
theorem arrRef_11 : Pipeline.arrRef spec0 11 = main_v81 := rfl
theorem arrRef_12 : Pipeline.arrRef spec0 12 = main_v86 := rfl

/-- The data windows' block index at point `t` is `(t, 0)` (decided over the grid). -/
theorem idx_data : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0 :=
  (by decide +kernel : ∀ t : Fin grid0.N, _)

/-- The weight windows' block index is `(0, 0)` at every point (decided over the grid). -/
theorem idx_weight : ∀ t : Fin cfg0.N,
      win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The input blocks, read -/

/-- Data window 0's block at point `t` is rows `2048 t … 2048 t + 2047` of its array. -/
theorem blk_data_0 (c : Dev nD) (t : Fin cfg0.N) (p : Fin 2048) (k : Fin 32) :
    (iblk m c 0 t : Vec F S2048x32 .f32) (ix2 p k)
      = (V m c (Pipeline.arrRef spec0 0) : S1048576x32.Idx → Elt F .f32) (ix2 (row t p) k) := by
  obtain ⟨h0, h1, -, -, -, -, -, -, -, -⟩ := idx_data t
  unfold iblk
  rw [View.read_apply]
  show V m c main_arg0 _ = V m c main_arg0 _
  congr 1
  funext a; apply Fin.ext
  match a with
  | ⟨0, _⟩ => show win0_0.index t (0 : Fin 2) * 2048 + 1 * p.val = 2048 * t.val + p.val; rw [h0]; omega
  | ⟨1, _⟩ => show win0_0.index t (1 : Fin 2) * 32 + 1 * k.val = k.val; rw [h1]; omega
/-- Data window 1's block at point `t` is rows `2048 t … 2048 t + 2047` of its array. -/
theorem blk_data_1 (c : Dev nD) (t : Fin cfg0.N) (p : Fin 2048) (k : Fin 32) :
    (iblk m c 1 t : Vec F S2048x32 .f32) (ix2 p k)
      = (V m c (Pipeline.arrRef spec0 1) : S1048576x32.Idx → Elt F .f32) (ix2 (row t p) k) := by
  obtain ⟨-, -, h0, h1, -, -, -, -, -, -⟩ := idx_data t
  unfold iblk
  rw [View.read_apply]
  show V m c main_arg1 _ = V m c main_arg1 _
  congr 1
  funext a; apply Fin.ext
  match a with
  | ⟨0, _⟩ => show win0_1.index t (0 : Fin 2) * 2048 + 1 * p.val = 2048 * t.val + p.val; rw [h0]; omega
  | ⟨1, _⟩ => show win0_1.index t (1 : Fin 2) * 32 + 1 * k.val = k.val; rw [h1]; omega
/-- Data window 2's block at point `t` is rows `2048 t … 2048 t + 2047` of its array. -/
theorem blk_data_2 (c : Dev nD) (t : Fin cfg0.N) (p : Fin 2048) (k : Fin 32) :
    (iblk m c 2 t : Vec F S2048x32 .f32) (ix2 p k)
      = (V m c (Pipeline.arrRef spec0 2) : S1048576x32.Idx → Elt F .f32) (ix2 (row t p) k) := by
  obtain ⟨-, -, -, -, h0, h1, -, -, -, -⟩ := idx_data t
  unfold iblk
  rw [View.read_apply]
  show V m c main_arg2 _ = V m c main_arg2 _
  congr 1
  funext a; apply Fin.ext
  match a with
  | ⟨0, _⟩ => show win0_2.index t (0 : Fin 2) * 2048 + 1 * p.val = 2048 * t.val + p.val; rw [h0]; omega
  | ⟨1, _⟩ => show win0_2.index t (1 : Fin 2) * 32 + 1 * k.val = k.val; rw [h1]; omega
/-- Data window 3's block at point `t` is rows `2048 t … 2048 t + 2047` of its array. -/
theorem blk_data_3 (c : Dev nD) (t : Fin cfg0.N) (p : Fin 2048) (k : Fin 6) :
    (iblk m c 3 t : Vec F S2048x6 .f32) (ix2 p k)
      = (V m c (Pipeline.arrRef spec0 3) : S1048576x6.Idx → Elt F .f32) (ix2 (row t p) k) := by
  obtain ⟨-, -, -, -, -, -, h0, h1, -, -⟩ := idx_data t
  unfold iblk
  rw [View.read_apply]
  show V m c main_v85 _ = V m c main_v85 _
  congr 1
  funext a; apply Fin.ext
  match a with
  | ⟨0, _⟩ => show win0_3.index t (0 : Fin 2) * 2048 + 1 * p.val = 2048 * t.val + p.val; rw [h0]; omega
  | ⟨1, _⟩ => show win0_3.index t (1 : Fin 2) * 6 + 1 * k.val = k.val; rw [h1]; omega

/-- Weight window 4's one block is its whole array, at every point. -/
theorem blk_weight_4 (c : Dev nD) (t : Fin cfg0.N) :
    (iblk m c 4 t : Vec F S96x192 .bf16) = (V m c (Pipeline.arrRef spec0 4) : S96x192.Idx → Elt F .bf16) := by
  obtain ⟨h0, h1, -, -, -, -, -, -, -, -, -, -, -, -, -, -⟩ := idx_weight t
  funext j
  unfold iblk
  rw [View.read_apply]
  show V m c main_v74 _ = V m c main_v74 j
  congr 1
  funext a; apply Fin.ext
  match a with
  | ⟨0, _⟩ => show win0_4.index t (0 : Fin 2) * 96 + 1 * (j 0).val = (j 0).val; rw [h0]; omega
  | ⟨1, _⟩ => show win0_4.index t (1 : Fin 2) * 192 + 1 * (j 1).val = (j 1).val; rw [h1]; omega
/-- Weight window 5's one block is its whole array, at every point. -/
theorem blk_weight_5 (c : Dev nD) (t : Fin cfg0.N) :
    (iblk m c 5 t : Vec F S192x192 .bf16) = (V m c (Pipeline.arrRef spec0 5) : S192x192.Idx → Elt F .bf16) := by
  obtain ⟨-, -, h0, h1, -, -, -, -, -, -, -, -, -, -, -, -⟩ := idx_weight t
  funext j
  unfold iblk
  rw [View.read_apply]
  show V m c main_v75 _ = V m c main_v75 j
  congr 1
  funext a; apply Fin.ext
  match a with
  | ⟨0, _⟩ => show win0_5.index t (0 : Fin 2) * 192 + 1 * (j 0).val = (j 0).val; rw [h0]; omega
  | ⟨1, _⟩ => show win0_5.index t (1 : Fin 2) * 192 + 1 * (j 1).val = (j 1).val; rw [h1]; omega
/-- Weight window 6's one block is its whole array, at every point. -/
theorem blk_weight_6 (c : Dev nD) (t : Fin cfg0.N) :
    (iblk m c 6 t : Vec F S192x51 .bf16) = (V m c (Pipeline.arrRef spec0 6) : S192x51.Idx → Elt F .bf16) := by
  obtain ⟨-, -, -, -, h0, h1, -, -, -, -, -, -, -, -, -, -⟩ := idx_weight t
  funext j
  unfold iblk
  rw [View.read_apply]
  show V m c main_v76 _ = V m c main_v76 j
  congr 1
  funext a; apply Fin.ext
  match a with
  | ⟨0, _⟩ => show win0_6.index t (0 : Fin 2) * 192 + 1 * (j 0).val = (j 0).val; rw [h0]; omega
  | ⟨1, _⟩ => show win0_6.index t (1 : Fin 2) * 51 + 1 * (j 1).val = (j 1).val; rw [h1]; omega
/-- Weight window 7's one block is its whole array, at every point. -/
theorem blk_weight_7 (c : Dev nD) (t : Fin cfg0.N) :
    (iblk m c 7 t : Vec F S51x192 .bf16) = (V m c (Pipeline.arrRef spec0 7) : S51x192.Idx → Elt F .bf16) := by
  obtain ⟨-, -, -, -, -, -, h0, h1, -, -, -, -, -, -, -, -⟩ := idx_weight t
  funext j
  unfold iblk
  rw [View.read_apply]
  show V m c main_v77 _ = V m c main_v77 j
  congr 1
  funext a; apply Fin.ext
  match a with
  | ⟨0, _⟩ => show win0_7.index t (0 : Fin 2) * 51 + 1 * (j 0).val = (j 0).val; rw [h0]; omega
  | ⟨1, _⟩ => show win0_7.index t (1 : Fin 2) * 192 + 1 * (j 1).val = (j 1).val; rw [h1]; omega
/-- Weight window 8's one block is its whole array, at every point. -/
theorem blk_weight_8 (c : Dev nD) (t : Fin cfg0.N) :
    (iblk m c 8 t : Vec F S3x192 .bf16) = (V m c (Pipeline.arrRef spec0 8) : S3x192.Idx → Elt F .bf16) := by
  obtain ⟨-, -, -, -, -, -, -, -, h0, h1, -, -, -, -, -, -⟩ := idx_weight t
  funext j
  unfold iblk
  rw [View.read_apply]
  show V m c main_v78 _ = V m c main_v78 j
  congr 1
  funext a; apply Fin.ext
  match a with
  | ⟨0, _⟩ => show win0_8.index t (0 : Fin 2) * 3 + 1 * (j 0).val = (j 0).val; rw [h0]; omega
  | ⟨1, _⟩ => show win0_8.index t (1 : Fin 2) * 192 + 1 * (j 1).val = (j 1).val; rw [h1]; omega
/-- Weight window 9's one block is its whole array, at every point. -/
theorem blk_weight_9 (c : Dev nD) (t : Fin cfg0.N) :
    (iblk m c 9 t : Vec F S192x192 .bf16) = (V m c (Pipeline.arrRef spec0 9) : S192x192.Idx → Elt F .bf16) := by
  obtain ⟨-, -, -, -, -, -, -, -, -, -, h0, h1, -, -, -, -⟩ := idx_weight t
  funext j
  unfold iblk
  rw [View.read_apply]
  show V m c main_v79 _ = V m c main_v79 j
  congr 1
  funext a; apply Fin.ext
  match a with
  | ⟨0, _⟩ => show win0_9.index t (0 : Fin 2) * 192 + 1 * (j 0).val = (j 0).val; rw [h0]; omega
  | ⟨1, _⟩ => show win0_9.index t (1 : Fin 2) * 192 + 1 * (j 1).val = (j 1).val; rw [h1]; omega
/-- Weight window 10's one block is its whole array, at every point. -/
theorem blk_weight_10 (c : Dev nD) (t : Fin cfg0.N) :
    (iblk m c 10 t : Vec F S192x192 .bf16) = (V m c (Pipeline.arrRef spec0 10) : S192x192.Idx → Elt F .bf16) := by
  obtain ⟨-, -, -, -, -, -, -, -, -, -, -, -, h0, h1, -, -⟩ := idx_weight t
  funext j
  unfold iblk
  rw [View.read_apply]
  show V m c main_v80 _ = V m c main_v80 j
  congr 1
  funext a; apply Fin.ext
  match a with
  | ⟨0, _⟩ => show win0_10.index t (0 : Fin 2) * 192 + 1 * (j 0).val = (j 0).val; rw [h0]; omega
  | ⟨1, _⟩ => show win0_10.index t (1 : Fin 2) * 192 + 1 * (j 1).val = (j 1).val; rw [h1]; omega
/-- Weight window 11's one block is its whole array, at every point. -/
theorem blk_weight_11 (c : Dev nD) (t : Fin cfg0.N) :
    (iblk m c 11 t : Vec F S192x9 .bf16) = (V m c (Pipeline.arrRef spec0 11) : S192x9.Idx → Elt F .bf16) := by
  obtain ⟨-, -, -, -, -, -, -, -, -, -, -, -, -, -, h0, h1⟩ := idx_weight t
  funext j
  unfold iblk
  rw [View.read_apply]
  show V m c main_v81 _ = V m c main_v81 j
  congr 1
  funext a; apply Fin.ext
  match a with
  | ⟨0, _⟩ => show win0_11.index t (0 : Fin 2) * 192 + 1 * (j 0).val = (j 0).val; rw [h0]; omega
  | ⟨1, _⟩ => show win0_11.index t (1 : Fin 2) * 9 + 1 * (j 1).val = (j 1).val; rw [h1]; omega

/-! ## The result array -/

/-- The result window's block at point `t`, read off any contents `G` of its array: rows `2048 t …` of `G`. -/
theorem read_blk12 (G : S1048576x4.Idx → Elt F .f32) (t : Fin cfg0.N) (j : S2048x4.Idx) :
    (((cfg0.win 12).blk t).view.read (Elt F) G : Vec F S2048x4 .f32) j = G (ix2 (row t (j 0)) (j 1)) := by
  obtain ⟨-, -, -, -, -, -, -, -, h0, h1⟩ := idx_data t
  rw [View.read_apply]
  show G _ = G _
  congr 1
  funext a; apply Fin.ext
  match a with
  | ⟨0, _⟩ => show win0_12.index t (0 : Fin 2) * 2048 + 1 * (j 0).val = 2048 * t.val + (j 0).val; rw [h0]; omega
  | ⟨1, _⟩ => show win0_12.index t (1 : Fin 2) * 4 + 1 * (j 1).val = (j 1).val; rw [h1]; omega

section Final

variable (Gf : (c : Dev nD) → S1048576x4.Idx → Elt F .f32)
variable (H : ∀ (c : Dev nD) (t : Fin cfg0.N) (p : Fin 2048) (q : Fin 4),
      out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = Gf c (ix2 (row t p) q))
include H

/-- WHAT POINT `t` WRITES BACK is block `t` of `Gf`. -/
theorem flushed_eq (c : Dev nD) (t : Fin cfg0.N) :
    (dats m 0 c).flushed 12 t = ((cfg0.win 12).blk t).view.read (Elt F) (Gf c) := by
  show (cfg0.win 12).cut (grid0.coords t) ((dats m 0 c).after 12 t) = _
  rw [after0_12]
  funext j
  have hj : (j : S2048x4.Idx) = ix2 (j 0) (j 1) := eq_ix2 j
  calc out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j
      = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 (j 0) (j 1)) := congrArg _ hj
    _ = Gf c (ix2 (row t (j 0)) (j 1)) := H c t (j 0) (j 1)
    _ = _ := (read_blk12 (Gf c) t j).symm

omit H in
/-- An index of the result array is in point `t`'s block iff each coordinate is in the block's range on its axis. -/
theorem mem_blk12 (t : Fin cfg0.N) (i : S1048576x4.Idx) :
    i ∈ ((cfg0.win 12).blk t).view.set ↔ ∀ a : Fin 2, win0_12.index t a * S2048x4.size a ≤ (i a).val ∧ (i a).val < win0_12.index t a * S2048x4.size a + S2048x4.size a := by
  show i ∈ ((View.whole main_v86).slice (win0_12.rect t)).set ↔ _
  rw [View.set_slice_whole, Rect.mem_set_unit]
  exact Iff.rfl

omit H in
/-- Every index of the result array is in some point's block, and every point writes its block back: row `R` is in
    the block of point `R / 2048`. -/
theorem blocks_cover (i : S1048576x4.Idx) :
    ∃ t : Fin cfg0.N, (cfg0.win 12).flush t = true ∧ i ∈ ((cfg0.win 12).blk t).view.set := by
  have hi0 : (i 0).val < 1048576 := (i 0).isLt
  have hi1 : (i 1).val < 4 := (i 1).isLt
  have hN : cfg0.N = 512 := N_0
  refine ⟨⟨(i 0).val / 2048, by rw [hN]; omega⟩, flush0_12 _, ?_⟩
  obtain ⟨-, -, -, -, -, -, -, -, h0, h1⟩ := idx_data ⟨(i 0).val / 2048, by rw [hN]; omega⟩
  rw [mem_blk12]
  intro a
  match a with
  | ⟨0, _⟩ =>
    show win0_12.index _ (0 : Fin 2) * 2048 ≤ (i 0).val ∧ (i 0).val < win0_12.index _ (0 : Fin 2) * 2048 + 2048
    rw [h0]; show (i 0).val / 2048 * 2048 ≤ (i 0).val ∧ (i 0).val < (i 0).val / 2048 * 2048 + 2048; omega
  | ⟨1, _⟩ =>
    show win0_12.index _ (1 : Fin 2) * 4 ≤ (i 1).val ∧ (i 1).val < win0_12.index _ (1 : Fin 2) * 4 + 4
    rw [h1]; omega

/-- THE RESULT ARRAY after the run is `Gf`. -/
theorem final_of (c : Dev nD) : (dats m 0 c).arrAt 12 cfg0.N = Gf c :=
  (dats m 0 c).arrAt_eq_of_cover 12 (Gf c) (fun t _ => flushed_eq m Gf H c t) blocks_cover

omit H in
/-- After the frame run every argument array is as launched. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c),
    ((h c).2 main_arg20 (Pipeline.mem_restRefs_of main_arg20 (by decide) (by decide))).trans (V_main_arg20 m c),
    ((h c).2 main_arg21 (Pipeline.mem_restRefs_of main_arg21 (by decide) (by decide))).trans (V_main_arg21 m c),
    ((h c).2 main_arg22 (Pipeline.mem_restRefs_of main_arg22 (by decide) (by decide))).trans (V_main_arg22 m c),
    ((h c).2 main_arg23 (Pipeline.mem_restRefs_of main_arg23 (by decide) (by decide))).trans (V_main_arg23 m c),
    ((h c).2 main_arg24 (Pipeline.mem_restRefs_of main_arg24 (by decide) (by decide))).trans (V_main_arg24 m c),
    ((h c).2 main_arg25 (Pipeline.mem_restRefs_of main_arg25 (by decide) (by decide))).trans (V_main_arg25 m c),
    ((h c).2 main_arg26 (Pipeline.mem_restRefs_of main_arg26 (by decide) (by decide))).trans (V_main_arg26 m c),
    ((h c).2 main_arg27 (Pipeline.mem_restRefs_of main_arg27 (by decide) (by decide))).trans (V_main_arg27 m c)⟩

/-- THE RUN, read: the result array at `Gf`, the arguments unchanged. -/
theorem run_of : θ_run defs (onTc (τ := τ) (main (F := F))) ⟨m, fun _ => 0, ρ⟩ (fun r => ∀ c : Dev nD,
      r.2.mem ((c.tc : Thread nD τ).loc main_v86) = Gf c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨((h c).1 12).trans (final_of m Gf H c), kept m r h c⟩) (run_main m ρ)

end Final

end Cert.KernelIdeal.KV

end
-- ==== Proof.Spec.lean ====
/-
  The function both programs compute, index by index, on the extended reals.

  A point (row) has three feature vectors in R^32, a view direction in R^3 and three masks. Each of three branches
  (background, foreground, actor) pushes its feature vector through a bias-free three-layer perceptron
  32 -> 64 -> 64 -> 17 with rectifiers between the layers. Entry 0 of the 17 outputs, through the softplus and times the
  branch's mask, is the branch's density; entries 2..16 are its geometry features. The branch's colour comes from a
  four-layer perceptron ( -> 64 -> 64 -> 64 -> 3, rectifiers between the layers) on the geometry features (the
  background also on the view direction, placed first), through the logistic function and times the mask.
  The total density is the sum of the three densities plus a small constant, and the colour of the point is the
  density-weighted mean of the three colours. A row of the result is (colour, total density).
-/
import Idealize.ShloMosaic.PureOps.Ideal.Laws
import Idealize.ShloMosaic.Lib.ValueIdx

noncomputable section

open scoped BigOperators

namespace Cert.Field

open Idealize.ShloMosaic Idealize.ShloMosaic.ValueIdx

/-- A matrix of extended reals with `a` rows and `b` columns, as an array over a literal shape. -/
abbrev Arr (a b : Nat) : Type := (⟨2, ![a, b]⟩ : Shape).Idx → EReal
/-- A vector of extended reals of length `a`, as an array over a literal shape. -/
abbrev Arr1 (a : Nat) : Type := (⟨1, ![a]⟩ : Shape).Idx → EReal

/-- Row `a` of a matrix. -/
def row {M K : Nat} (X : Arr M K) (a : Fin M) : Fin K → EReal := fun k => X (ix2 a k)

/-- One bias-free linear layer: the row vector `x` times the matrix `W`. -/
def layer {K N : Nat} (x : Fin K → EReal) (W : Arr K N) : Fin N → EReal := fun n => ∑ k : Fin K, x k * W (ix2 k n)

/-- The rectifier, entry by entry. -/
def reluV {N : Nat} (x : Fin N → EReal) : Fin N → EReal := fun n => max (x n) 0

/-- The density perceptron 32 -> 64 -> 64 -> 17. -/
def sigmaNet (x : Fin 32 → EReal) (s0 : Arr 32 64) (s1 : Arr 64 64) (s2 : Arr 64 17) : Fin 17 → EReal :=
  layer (reluV (layer (reluV (layer x s0)) s1)) s2

/-- The geometry features: entries 2..16 of the density perceptron's output. -/
def geo (h : Fin 17 → EReal) : Fin 15 → EReal := fun r => h ⟨r.val + 2, by omega⟩

/-- The softplus `log (1 + e^x)` in its stable form `max x 0 + log1p (e^(-|x|))`. -/
def softplus (x : EReal) : EReal := max x 0 + Ideal.log1p (Ideal.exp (-(max x (-x))))

/-- A branch's density: the softplus of entry 0, times the mask. -/
def density (h : Fin 17 → EReal) (mk : EReal) : EReal := softplus (h ⟨0, by omega⟩) * mk

/-- The first colour layer of the background: the view direction against rows 0..2 of the weight matrix plus the
    geometry features against rows 3..17. -/
def firstBg (v : Fin 3 → EReal) (g : Fin 15 → EReal) (c0 : Arr 18 64) : Fin 64 → EReal := fun n =>
  (∑ k : Fin 3, v k * c0 (ix2 ⟨k.val, by omega⟩ n)) + ∑ r : Fin 15, g r * c0 (ix2 ⟨r.val + 3, by omega⟩ n)

/-- The colour perceptron after its first layer: rectifier, 64 -> 64, rectifier, 64 -> 64, rectifier, 64 -> 3. -/
def colourTail (h : Fin 64 → EReal) (c1 c2 : Arr 64 64) (c3 : Arr 64 3) : Fin 3 → EReal :=
  layer (reluV (layer (reluV (layer (reluV h) c1)) c2)) c3

/-- A branch's colour channel: the logistic function of the perceptron's output, times the mask. -/
def colour (o : Fin 3 → EReal) (mk : EReal) (q : Fin 3) : EReal := Ideal.logistic (o q) * mk

/-- The small constant added to the total density (the single-precision value nearest 1e-9). -/
def eps : EReal := Ideal.ofBits .f32 0x3089705F#32

/-- The total density. -/
def total (a b c : EReal) : EReal := a + b + c + eps

/-- One channel of the density-weighted mean of the three colours. -/
def mix (a b c s ca cb cc : EReal) : EReal := Ideal.div a s * ca + Ideal.div b s * cb + Ideal.div c s * cc

/-- One row of the result from the row's densities and colours: three colour channels, then the total density. -/
def outRow (a b c : EReal) (ca cb cc : Fin 3 → EReal) (q : Fin 4) : EReal :=
  if h : q.val < 3 then mix a b c (total a b c) (ca ⟨q.val, h⟩) (cb ⟨q.val, h⟩) (cc ⟨q.val, h⟩) else total a b c

/-- The weights of one branch's density perceptron and of its colour perceptron after the first layer. -/
structure Branch where
  s0 : Arr 32 64
  s1 : Arr 64 64
  s2 : Arr 64 17
  c1 : Arr 64 64
  c2 : Arr 64 64
  c3 : Arr 64 3

/-- The whole result array [1048576, 4] as a function of the argument arrays. -/
def G (x0 x1 x2 : Arr 1048576 32) (vw : Arr 1048576 3) (m0 m1 m2 : Arr1 1048576)
    (B0 : Branch) (bc0 : Arr 18 64) (B1 : Branch) (fc0 : Arr 15 64) (B2 : Branch) (ac0 : Arr 15 64) : Arr 1048576 4 := fun i =>
  let R : Fin 1048576 := i 0
  let h0 := sigmaNet (row x0 R) B0.s0 B0.s1 B0.s2
  let h1 := sigmaNet (row x1 R) B1.s0 B1.s1 B1.s2
  let h2 := sigmaNet (row x2 R) B2.s0 B2.s1 B2.s2
  let k0 := m0 (ix1 R)
  let k1 := m1 (ix1 R)
  let k2 := m2 (ix1 R)
  let o0 := colourTail (firstBg (row vw R) (geo h0) bc0) B0.c1 B0.c2 B0.c3
  let o1 := colourTail (layer (geo h1) fc0) B1.c1 B1.c2 B1.c3
  let o2 := colourTail (layer (geo h2) ac0) B2.c1 B2.c2 B2.c3
  outRow (density h0 k0) (density h1 k1) (density h2 k2) (colour o0 k0) (colour o1 k1) (colour o2 k2) (i 1)

end Cert.Field

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.RowOps.lean ====
/-
  Vector operations of a point's row, read at explicit coordinates on the extended reals: a matrix product into zeros is
  the row times the matrix; rounding is the identity; the rectifier against a zero splat is the entrywise maximum with
  zero; a column slice and a column repeated across columns; and the softplus in the spelling
  `select (d <> d) (x + 0) (max x 0 + log1p (exp (0 - |d|)))` with `d = x - 0`, whose test is never true.
-/
import proofs.«149636_j70153995813579_2_alg».proof.Proof.Spec
import proofs.«149636_j70153995813579_2_alg».proof.Proof.LibDot2
import Idealize.ShloMosaic.Lib.Pipeline.Value

noncomputable section

open scoped BigOperators

namespace Cert.Field

open Idealize.ShloMosaic Idealize.ShloMosaic.ValueIdx Idealize.ShloMosaic.Pipeline

variable {M R C : Nat} {φ₁ φ₂ : FTy}

/-- An [M,R] array times an [R,C] matrix (behind an identity reshape) into zeros, at (p, n): row p times the matrix. -/
theorem mm_row (w : DotDims.WF ⟨2, ![M, R]⟩ ⟨2, ![R, C]⟩ ⟨2, ![M, C]⟩ [1] [0] [0] [1] [] [])
    (A : FVec Ideal ⟨2, ![M, R]⟩ φ₁) (W : FVec Ideal ⟨2, ![R, C]⟩ φ₂)
    (hs : (⟨2, ![R, C]⟩ : Shape).ShapeCasts ⟨2, ![R, C]⟩) (p : Fin M) (n : Fin C) :
    matmul (⟨[1], [0], [0], [1], [], [], w⟩ : DotDims ⟨2, ![M, R]⟩ ⟨2, ![R, C]⟩ ⟨2, ![M, C]⟩) none A
        (shapeCast ⟨2, ![R, C]⟩ W hs) (constant ⟨2, ![M, C]⟩ .f32 0x00000000#32) (ix2 p n)
      = layer (row A p) W n := by
  rw [shapeCast_self]
  exact Cert.LibDot2.matmul_zero_apply w none A W p n

/-- The rectifier against a zero splat, then a rounding: row p is the entrywise maximum with zero. -/
theorem relu_row {ψ : FTy} (hb : ψ.bits < FTy.f32.bits) (Y : FVec Ideal ⟨2, ![M, C]⟩ .f32) (p : Fin M) :
    row (truncf ψ (maximumf Y (broadcast ⟨2, ![M, C]⟩ (Scalar.ofBits (F := Ideal) .f32 0x00000000#32))) hb) p
      = reluV (row Y p) := by
  funext n
  show max (Y (ix2 p n)) (Ideal.ofBits .f32 0x00000000#32) = max (Y (ix2 p n)) 0
  rw [Ideal.ofBits_zero_f32]

/-- Columns o .. o + c - 1 of an [M, C] array, at (p, q): the array at (p, o + q). -/
theorem slice_cols {c : Nat} {α : Type} (o : Nat) (x : (⟨2, ![M, C]⟩ : Shape).Idx → α)
    (h : (⟨2, ![M, C]⟩ : Shape).Slices ![0, o] ⟨2, ![M, c]⟩) (p : Fin M) (q : Fin c) (hq : o + q.val < C) :
    extractStridedSlice ⟨2, ![M, c]⟩ ![0, o] x h (ix2 p q) = x (ix2 p ⟨o + q.val, hq⟩) :=
  extractStridedSlice_apply ![0, o] x h (ix2 p q) (ix2 p ⟨o + q.val, hq⟩) (fun a => by
    match a with
    | ⟨0, _⟩ => show p.val = 0 + p.val; omega
    | ⟨1, _⟩ => rfl)

/-- A column [M, 1] repeated across c columns, at (p, q): the column at p. -/
theorem bcast_col {c : Nat} {α : Type} (hM : M ≠ 1) (x : (⟨2, ![M, 1]⟩ : Shape).Idx → α)
    (h : (⟨2, ![M, 1]⟩ : Shape).Broadcasts ⟨2, ![M, c]⟩) (p : Fin M) (q : Fin c) :
    broadcastTo ⟨2, ![M, c]⟩ x h (ix2 p q) = x (ix2 p (0 : Fin 1)) :=
  broadcastTo_apply x h (ix2 p q) (ix2 p (0 : Fin 1)) (fun a => by
    match a with
    | ⟨0, _⟩ => show p.val = if M = 1 then 0 else p.val; rw [if_neg hM]
    | ⟨1, _⟩ => rfl)

/-- The comparison "ordered and different" of a value with itself is never true. -/
theorem cmp_one_self (d : EReal) : FloatOps.cmpf (F := Ideal) (φ := .f32) .one d d = 0#1 := by
  show Ideal.cmp .one d d = 0#1
  simp [Ideal.cmp]

/-- The softplus in the printed spelling is `softplus`. -/
theorem softplus_printed (x : EReal) :
    Scalar.select (FloatOps.cmpf (F := Ideal) (φ := .f32) .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32 - FloatOps.absf (F := Ideal) (φ := .f32) (x - Ideal.ofBits .f32 0x00000000#32))))
      = softplus x := by
  rw [cmp_one_self, select_zero, Ideal.ofBits_zero_f32, sub_zero, zero_sub]
  rfl

end Cert.Field

end
-- ==== Proof.LibGrid.lean ====
/-
  Two-dimensional arrays glued from pieces, read at explicit coordinates, over any element type and any extents:
  pieces side by side (joined along the columns) and pieces one over the other (joined along the rows) — the entry at
  (a, j) is the entry of the piece whose span holds the joined coordinate, at that coordinate less the extents of the
  pieces before it — and a 3 x 3 grid of [r, c] pieces (three rows of three pieces side by side, one over the other)
  read at (r * b + k, c * b' + n) as piece (b, b') at (k, n).
-/
import Idealize.ShloMosaic.Lib.Pipeline.Value
import Idealize.ShloMosaic.Lib.ValueIdx

noncomputable section

namespace Cert.LibGrid

open Idealize.ShloMosaic Idealize.ShloMosaic.ValueIdx Idealize.ShloMosaic.Pipeline

variable {α : Type}

/-- Pieces side by side: the entry at (a, j) with `j = pre + n`, `pre` the total width of the pieces before piece `k`
    and `n` a column of piece `k`, is piece `k`'s entry at (a, n). -/
theorem cols_apply {r C : Nat} (xs : List ((s : Shape) × (s.Idx → α)))
    (h : Shape.Concatenates (xs.map (·.1)) ⟨2, ![r, C]⟩ 1) (a : Fin r) (j : Fin C)
    (k : Nat) (hk : k < xs.length) (c : Nat) (x₁ : (⟨2, ![r, c]⟩ : Shape).Idx → α) (hxk : xs[k] = ⟨⟨2, ![r, c]⟩, x₁⟩)
    (pre : Nat)
    (hpre : (((xs.take k).map (·.1)).map fun s : Shape =>
      if h : s.rank = (⟨2, ![r, C]⟩ : Shape).rank then s.size ((1 : Fin (⟨2, ![r, C]⟩ : Shape).rank).cast h.symm) else 0).sum = pre)
    (n : Fin c) (hj : pre + n.val = j.val) :
    concatenate ⟨2, ![r, C]⟩ 1 xs h (ix2 a j) = x₁ (ix2 a n) :=
  concatenate_apply_piece (t := ⟨2, ![r, C]⟩) 1 xs h (ix2 a j) k hk ⟨2, ![r, c]⟩ x₁ hxk rfl pre hpre (ix2 a n)
    (fun b hb => by
      match b with
      | ⟨0, _⟩ => rfl
      | ⟨1, _⟩ => exact absurd rfl hb)
    hj

/-- Pieces one over the other: the entry at (j, b) with `j = pre + k'`, `pre` the total height of the pieces before piece
    `k` and `k'` a row of piece `k`, is piece `k`'s entry at (k', b). -/
theorem rows_apply {R c : Nat} (xs : List ((s : Shape) × (s.Idx → α)))
    (h : Shape.Concatenates (xs.map (·.1)) ⟨2, ![R, c]⟩ 0) (j : Fin R) (b : Fin c)
    (k : Nat) (hk : k < xs.length) (r : Nat) (x₁ : (⟨2, ![r, c]⟩ : Shape).Idx → α) (hxk : xs[k] = ⟨⟨2, ![r, c]⟩, x₁⟩)
    (pre : Nat)
    (hpre : (((xs.take k).map (·.1)).map fun s : Shape =>
      if h : s.rank = (⟨2, ![R, c]⟩ : Shape).rank then s.size ((0 : Fin (⟨2, ![R, c]⟩ : Shape).rank).cast h.symm) else 0).sum = pre)
    (k' : Fin r) (hj : pre + k'.val = j.val) :
    concatenate ⟨2, ![R, c]⟩ 0 xs h (ix2 j b) = x₁ (ix2 k' b) :=
  concatenate_apply_piece (t := ⟨2, ![R, c]⟩) 0 xs h (ix2 j b) k hk ⟨2, ![r, c]⟩ x₁ hxk rfl pre hpre (ix2 k' b)
    (fun d hd => by
      match d with
      | ⟨0, _⟩ => exact absurd rfl hd
      | ⟨1, _⟩ => rfl)
    hj

/-- A 3 x 3 grid of [r, c] pieces — three rows, each three pieces side by side, one over the other — read at
    (r * b + k, c * b' + n): piece (b, b') at (k, n). -/
theorem grid3_apply {r c R C : Nat} (P : Fin 3 → Fin 3 → ((⟨2, ![r, c]⟩ : Shape).Idx → α))
    (h0 h1 h2 : Shape.Concatenates [(⟨2, ![r, c]⟩ : Shape), ⟨2, ![r, c]⟩, ⟨2, ![r, c]⟩] ⟨2, ![r, C]⟩ 1)
    (h : Shape.Concatenates [(⟨2, ![r, C]⟩ : Shape), ⟨2, ![r, C]⟩, ⟨2, ![r, C]⟩] ⟨2, ![R, C]⟩ 0)
    (b b' : Fin 3) (k : Fin r) (n : Fin c) (j : Fin R) (n' : Fin C)
    (hj : r * b.val + k.val = j.val) (hn : c * b'.val + n.val = n'.val) :
    concatenate ⟨2, ![R, C]⟩ 0
      [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩] h (ix2 j n')
    = P b b' (ix2 k n) := by
  have colsOf : ∀ (Q : Fin 3 → ((⟨2, ![r, c]⟩ : Shape).Idx → α)) (hh : Shape.Concatenates [(⟨2, ![r, c]⟩ : Shape), ⟨2, ![r, c]⟩, ⟨2, ![r, c]⟩] ⟨2, ![r, C]⟩ 1),
      concatenate ⟨2, ![r, C]⟩ 1 [⟨⟨2, ![r, c]⟩, Q 0⟩, ⟨⟨2, ![r, c]⟩, Q 1⟩, ⟨⟨2, ![r, c]⟩, Q 2⟩] hh (ix2 k n') = Q b' (ix2 k n) := by
    intro Q hh
    fin_cases b'
    · exact cols_apply [⟨⟨2, ![r, c]⟩, Q 0⟩, ⟨⟨2, ![r, c]⟩, Q 1⟩, ⟨⟨2, ![r, c]⟩, Q 2⟩] hh k n' 0 (by simp) c (Q 0) rfl 0 (by simp) n (by simpa using hn)
    · exact cols_apply [⟨⟨2, ![r, c]⟩, Q 0⟩, ⟨⟨2, ![r, c]⟩, Q 1⟩, ⟨⟨2, ![r, c]⟩, Q 2⟩] hh k n' 1 (by simp) c (Q 1) rfl c (by simp) n (by simpa using hn)
    · exact cols_apply [⟨⟨2, ![r, c]⟩, Q 0⟩, ⟨⟨2, ![r, c]⟩, Q 1⟩, ⟨⟨2, ![r, c]⟩, Q 2⟩] hh k n' 2 (by simp) c (Q 2) rfl (c + c) (by simp) n (by simp at hn; omega)
  fin_cases b
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 0 (by simp) r _ rfl 0 (by simp) k (by simpa using hj)).trans (colsOf (P 0) h0)
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 1 (by simp) r _ rfl r (by simp) k (by simpa using hj)).trans (colsOf (P 1) h1)
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 2 (by simp) r _ rfl (r + r) (by simp) k (by simp at hj; omega)).trans (colsOf (P 2) h2)

end Cert.LibGrid

end
-- ==== Proof.Payload.lean ====
/-
  The kernel body's values at a row p of a block, as row vectors: the fused density perceptron's 51 outputs, the packed
  view/mask columns, the three densities, the fused first colour layer, and the stored [2048, 4] block — three colour
  channels and the total density.
-/
import proofs.«149636_j70153995813579_2_alg».proof.Proof.RowOps
import proofs.«149636_j70153995813579_2_alg».proof.Proof.LibGrid
import proofs.«149636_j70153995813579_2_alg».proof.Proof.Gen.KernelIdeal.Skeleton

noncomputable section

open scoped BigOperators

namespace Cert.KernelIdeal.Pay

open Cert.KernelIdeal Cert.KernelIdeal.Gen Cert.Field
open Idealize.ShloMosaic Idealize.ShloMosaic.ValueIdx Idealize.ShloMosaic.Pipeline

/-- The three feature blocks side by side. -/
abbrev feat (v0 v1 v2 : Vec Ideal S2048x32 .f32) : FVec Ideal S2048x96 .f32 :=
  concatenate S2048x96 1 [⟨S2048x32, v0⟩, ⟨S2048x32, v1⟩, ⟨S2048x32, v2⟩] concatenates_S2048x32_S2048x32_S2048x32_S2048x96_d1

/-- The fused density perceptron's output at (p, n'): three fused layers on row p of the features. -/
theorem pay1_at (v0 v1 v2 : Vec Ideal S2048x32 .f32) (v5 : Vec Ideal S96x192 .bf16) (v11 : Vec Ideal S192x192 .bf16)
    (v17 : Vec Ideal S192x51 .bf16) (p : Fin 2048) (n' : Fin 51) :
    k0_pay1 (F := Ideal) v0 v1 v2 v5 v11 v17 (ix2 p n')
      = layer (reluV (layer (reluV (layer (row (feat v0 v1 v2) p) v5)) v11)) v17 n' := by
  unfold k0_pay1
  refine (mm_row _ _ _ _ p n').trans ?_
  refine congrArg (fun x => layer x v17 n') ?_
  refine (relu_row _ _ p).trans (congrArg reluV (funext fun k => ?_))
  refine (mm_row _ _ _ _ p k).trans ?_
  refine congrArg (fun x => layer x v11 k) ?_
  refine (relu_row _ _ p).trans (congrArg reluV (funext fun j => ?_))
  exact mm_row _ _ _ _ p j

/-- The view columns of the packed block. -/
theorem pay3_at (v20 : Vec Ideal S2048x6 .f32) (p : Fin 2048) (k : Fin 3) :
    k0_pay3 (F := Ideal) v20 (ix2 p k) = v20 (ix2 p ⟨k.val, by omega⟩) := by
  unfold k0_pay3 k0_pay2
  rw [shapeCast_self]
  exact (slice_cols 0 v20 _ p k (by omega)).trans (congrArg v20 (congrArg (ix2 p) (Fin.ext (Nat.zero_add k.val))))

theorem pay4_at (v20 : Vec Ideal S2048x6 .f32) (p : Fin 2048) :
    k0_pay4 (F := Ideal) v20 (ix2 p (0 : Fin 1)) = v20 (ix2 p ⟨3, by omega⟩) := by
  unfold k0_pay4 k0_pay2
  rw [shapeCast_self]
  exact slice_cols 3 v20 _ p (0 : Fin 1) (by decide)

theorem pay5_at (v20 : Vec Ideal S2048x6 .f32) (p : Fin 2048) :
    k0_pay5 (F := Ideal) v20 (ix2 p (0 : Fin 1)) = v20 (ix2 p ⟨4, by omega⟩) := by
  unfold k0_pay5 k0_pay2
  rw [shapeCast_self]
  exact slice_cols 4 v20 _ p (0 : Fin 1) (by decide)

theorem pay6_at (v20 : Vec Ideal S2048x6 .f32) (p : Fin 2048) :
    k0_pay6 (F := Ideal) v20 (ix2 p (0 : Fin 1)) = v20 (ix2 p ⟨5, by omega⟩) := by
  unfold k0_pay6 k0_pay2
  rw [shapeCast_self]
  exact slice_cols 5 v20 _ p (0 : Fin 1) (by decide)

/-- The background's density: the softplus of fused output 0, times the mask column. -/
theorem pay13_at (v0 v1 v2 : Vec Ideal S2048x32 .f32) (v5 : Vec Ideal S96x192 .bf16) (v11 : Vec Ideal S192x192 .bf16)
    (v17 : Vec Ideal S192x51 .bf16) (v23 : FVec Ideal S2048x1 .f32) (p : Fin 2048) :
    k0_pay13 (F := Ideal) v23 (k0_pay8 v0 v1 v2 v5 v11 v17) (k0_pay10 v0 v1 v2 v5 v11 v17)
        (k0_pay11 v0 v1 v2 v5 v11 v17) (k0_pay12 v0 v1 v2 v5 v11 v17) (ix2 p (0 : Fin 1))
      = softplus (k0_pay1 (F := Ideal) v0 v1 v2 v5 v11 v17 (ix2 p ⟨0, by omega⟩)) * v23 (ix2 p (0 : Fin 1)) := by
  have hy : k0_pay7 (F := Ideal) v0 v1 v2 v5 v11 v17 (ix2 p (0 : Fin 1))
      = k0_pay1 (F := Ideal) v0 v1 v2 v5 v11 v17 (ix2 p ⟨0, by omega⟩) := by
    unfold k0_pay7
    exact slice_cols 0 _ _ p (0 : Fin 1) (by decide)
  rw [← hy]
  exact congrArg (· * v23 (ix2 p (0 : Fin 1))) (softplus_printed _)

/-- A further branch's density: the softplus of the fused output in column o, times the mask column. -/
theorem pay14_at (v19 : FVec Ideal S2048x51 .f32) (v24 : FVec Ideal S2048x1 .f32) (p : Fin 2048) :
    k0_pay14 (F := Ideal) v19 v24 (ix2 p (0 : Fin 1)) = softplus (v19 (ix2 p ⟨17, by omega⟩)) * v24 (ix2 p (0 : Fin 1)) := by
  have hy : extractStridedSlice S2048x1 ![0, 17] v19 slices_S2048x51_o0_17_S2048x1 (ix2 p (0 : Fin 1)) = v19 (ix2 p ⟨17, by omega⟩) :=
    slice_cols 17 v19 _ p (0 : Fin 1) (by decide)
  rw [← hy]
  exact congrArg (· * v24 (ix2 p (0 : Fin 1))) (softplus_printed _)

theorem pay15_at (v19 : FVec Ideal S2048x51 .f32) (v25 : FVec Ideal S2048x1 .f32) (p : Fin 2048) :
    k0_pay15 (F := Ideal) v19 v25 (ix2 p (0 : Fin 1)) = softplus (v19 (ix2 p ⟨34, by omega⟩)) * v25 (ix2 p (0 : Fin 1)) := by
  have hy : extractStridedSlice S2048x1 ![0, 34] v19 slices_S2048x51_o0_34_S2048x1 (ix2 p (0 : Fin 1)) = v19 (ix2 p ⟨34, by omega⟩) :=
    slice_cols 34 v19 _ p (0 : Fin 1) (by decide)
  rw [← hy]
  exact congrArg (· * v25 (ix2 p (0 : Fin 1))) (softplus_printed _)

/-- The fused first colour layer, rectified: row p of the density outputs against the geometry weights plus row p of
    the views against the view weights. -/
theorem pay16_row (v19 : FVec Ideal S2048x51 .f32) (v22 : FVec Ideal S2048x3 .f32) (v76 : Vec Ideal S51x192 .bf16)
    (v79 : Vec Ideal S3x192 .bf16) (p : Fin 2048) :
    row (k0_pay16 (F := Ideal) v19 v22 v76 v79) p
      = reluV (fun n' => layer (row v19 p) v76 n' + layer (row v22 p) v79 n') := by
  unfold k0_pay16
  refine (relu_row _ _ p).trans (congrArg reluV (funext fun n' => ?_))
  exact congrArg₂ (· + ·) (mm_row _ _ _ _ p n') (mm_row _ _ _ _ p n')

/-- The fused colour perceptron's nine outputs at row p (after the first layer `v85`). -/
def oRow (v85 : FVec Ideal S2048x192 .bf16) (v86 v92 : Vec Ideal S192x192 .bf16) (v98 : Vec Ideal S192x9 .bf16)
    (p : Fin 2048) : Fin 9 → EReal :=
  layer (reluV (layer (reluV (layer (row v85 p) v86)) v92)) v98

/-- The same nine outputs as the body computes them: two rectified fused layers and a third. -/
def oVec (v85 : FVec Ideal S2048x192 .bf16) (v86 v92 : Vec Ideal S192x192 .bf16) (v98 : Vec Ideal S192x9 .bf16) :
    FVec Ideal S2048x9 .f32 :=
  matmul dot_S2048x192_S192x9_S2048x9_1_0_0_1_n_n none
    (truncf .bf16 (maximumf (matmul dot_S2048x192_S192x192_S2048x192_1_0_0_1_n_n none
      (truncf .bf16 (maximumf (matmul dot_S2048x192_S192x192_S2048x192_1_0_0_1_n_n none v85
          (shapeCast S192x192 v86 shapeCasts_S192x192_S192x192 : FVec Ideal S192x192 .bf16) (constant S2048x192 .f32 0x00000000#32))
        (broadcast S2048x192 (Scalar.ofBits (F := Ideal) .f32 0x00000000#32))) bitsLt_bf16_f32 : FVec Ideal S2048x192 .bf16)
      (shapeCast S192x192 v92 shapeCasts_S192x192_S192x192 : FVec Ideal S192x192 .bf16) (constant S2048x192 .f32 0x00000000#32))
        (broadcast S2048x192 (Scalar.ofBits (F := Ideal) .f32 0x00000000#32))) bitsLt_bf16_f32 : FVec Ideal S2048x192 .bf16)
    (shapeCast S192x9 v98 shapeCasts_S192x9_S192x9 : FVec Ideal S192x9 .bf16) (constant S2048x9 .f32 0x00000000#32)

theorem oVec_at (v85 : FVec Ideal S2048x192 .bf16) (v86 v92 : Vec Ideal S192x192 .bf16) (v98 : Vec Ideal S192x9 .bf16)
    (p : Fin 2048) (n' : Fin 9) : oVec v85 v86 v92 v98 (ix2 p n') = oRow v85 v86 v92 v98 p n' := by
  unfold oVec oRow
  refine (mm_row _ _ _ _ p n').trans ?_
  refine congrArg (fun x => layer x v98 n') ?_
  refine (relu_row _ _ p).trans (congrArg reluV (funext fun j => ?_))
  refine (mm_row _ _ _ _ p j).trans ?_
  refine congrArg (fun x => layer x v92 j) ?_
  refine (relu_row _ _ p).trans (congrArg reluV (funext fun i => ?_))
  exact mm_row _ _ _ _ p i

/-- The total density at row p. -/
def sRow (v41 v57 v73 : FVec Ideal S2048x1 .f32) (p : Fin 2048) : EReal :=
  v41 (ix2 p (0 : Fin 1)) + v57 (ix2 p (0 : Fin 1)) + v73 (ix2 p (0 : Fin 1)) + eps

/-- The stored block's colour channel k at row p. -/
theorem pay17_colour (v23 v24 v25 v41 v57 v73 : FVec Ideal S2048x1 .f32) (v85 : FVec Ideal S2048x192 .bf16)
    (v86 v92 : Vec Ideal S192x192 .bf16) (v98 : Vec Ideal S192x9 .bf16) (p : Fin 2048) (k : Fin 3) :
    k0_pay17 (F := Ideal) v23 v24 v25 v41 v57 v73 v85 v86 v92 v98 (ix2 p ⟨k.val, by omega⟩)
      = v41 (ix2 p (0 : Fin 1)) * Ideal.div (Ideal.ofBits .f32 0x3F800000#32) (sRow v41 v57 v73 p)
            * (Ideal.logistic (oRow v85 v86 v92 v98 p ⟨0 + k.val, by omega⟩) * v23 (ix2 p (0 : Fin 1)))
        + v57 (ix2 p (0 : Fin 1)) * Ideal.div (Ideal.ofBits .f32 0x3F800000#32) (sRow v41 v57 v73 p)
            * (Ideal.logistic (oRow v85 v86 v92 v98 p ⟨3 + k.val, by omega⟩) * v24 (ix2 p (0 : Fin 1)))
        + v73 (ix2 p (0 : Fin 1)) * Ideal.div (Ideal.ofBits .f32 0x3F800000#32) (sRow v41 v57 v73 p)
            * (Ideal.logistic (oRow v85 v86 v92 v98 p ⟨6 + k.val, by omega⟩) * v25 (ix2 p (0 : Fin 1))) := by
  unfold k0_pay17
  refine (Cert.LibGrid.cols_apply [⟨S2048x3, _⟩, ⟨S2048x1, _⟩] concatenates_S2048x3_S2048x1_S2048x4_d1 p (⟨k.val, by omega⟩ : Fin 4) 0 (by simp) 3 _ rfl 0 (by simp) k (by simp)).trans ?_
  have hb : ∀ (x : FVec Ideal S2048x1 .f32), broadcastTo S2048x3 x broadcasts_S2048x1_S2048x3 (ix2 p k) = x (ix2 p (0 : Fin 1)) :=
    fun x => bcast_col (by decide) x _ p k
  have hs0 : ∀ (x : FVec Ideal S2048x9 .f32), extractStridedSlice S2048x3 ![0, 0] x slices_S2048x9_o0_0_S2048x3 (ix2 p k) = x (ix2 p ⟨0 + k.val, by omega⟩) :=
    fun x => slice_cols 0 x _ p k (by omega)
  have hs3 : ∀ (x : FVec Ideal S2048x9 .f32), extractStridedSlice S2048x3 ![0, 3] x slices_S2048x9_o0_3_S2048x3 (ix2 p k) = x (ix2 p ⟨3 + k.val, by omega⟩) :=
    fun x => slice_cols 3 x _ p k (by omega)
  have hs6 : ∀ (x : FVec Ideal S2048x9 .f32), extractStridedSlice S2048x3 ![0, 6] x slices_S2048x9_o0_6_S2048x3 (ix2 p k) = x (ix2 p ⟨6 + k.val, by omega⟩) :=
    fun x => slice_cols 6 x _ p k (by omega)
  simp only [addf_apply, mulf_apply, hb, hs0, hs3, hs6]
  show v41 (ix2 p (0 : Fin 1)) * Ideal.div (Ideal.ofBits .f32 0x3F800000#32) (sRow v41 v57 v73 p)
            * (Ideal.logistic (oVec v85 v86 v92 v98 (ix2 p ⟨0 + k.val, by omega⟩)) * v23 (ix2 p (0 : Fin 1)))
        + v57 (ix2 p (0 : Fin 1)) * Ideal.div (Ideal.ofBits .f32 0x3F800000#32) (sRow v41 v57 v73 p)
            * (Ideal.logistic (oVec v85 v86 v92 v98 (ix2 p ⟨3 + k.val, by omega⟩)) * v24 (ix2 p (0 : Fin 1)))
        + v73 (ix2 p (0 : Fin 1)) * Ideal.div (Ideal.ofBits .f32 0x3F800000#32) (sRow v41 v57 v73 p)
            * (Ideal.logistic (oVec v85 v86 v92 v98 (ix2 p ⟨6 + k.val, by omega⟩)) * v25 (ix2 p (0 : Fin 1))) = _
  rw [oVec_at, oVec_at, oVec_at]

/-- The stored block's last column at row p: the total density. -/
theorem pay17_total (v23 v24 v25 v41 v57 v73 : FVec Ideal S2048x1 .f32) (v85 : FVec Ideal S2048x192 .bf16)
    (v86 v92 : Vec Ideal S192x192 .bf16) (v98 : Vec Ideal S192x9 .bf16) (p : Fin 2048) :
    k0_pay17 (F := Ideal) v23 v24 v25 v41 v57 v73 v85 v86 v92 v98 (ix2 p ⟨3, by omega⟩) = sRow v41 v57 v73 p := by
  unfold k0_pay17
  refine (Cert.LibGrid.cols_apply [⟨S2048x3, _⟩, ⟨S2048x1, _⟩] concatenates_S2048x3_S2048x1_S2048x4_d1 p (⟨3, by omega⟩ : Fin 4) 1 (by simp) 1 _ rfl 3 (by simp) (0 : Fin 1) (by simp)).trans ?_
  rfl

end Cert.KernelIdeal.Pay

end
-- ==== Proof.Blocks.lean ====
/-
  Block-diagonal matrices against row vectors. If a matrix vanishes, in one column, off the rows an injection picks
  out, the row-times-matrix sum in that column runs over the picked rows only; for a matrix made of a 3 x 3 grid of
  [r, c] blocks whose off-diagonal blocks are zero, the product of a row vector of length 3r with it, read in column
  block b, is the product of the vector's b-th third with the diagonal block b.
-/
import proofs.«149636_j70153995813579_2_alg».proof.Proof.Spec

noncomputable section

open scoped BigOperators

namespace Cert.Field

open Idealize.ShloMosaic Idealize.ShloMosaic.ValueIdx

/-- The (b, b') block of the block-diagonal arrangement of three matrices: the b-th matrix on the diagonal, zero off it. -/
def diag3 {r c : Nat} (A0 A1 A2 : Arr r c) (b b' : Fin 3) : Arr r c :=
  if b = b' then (match b with | 0 => A0 | 1 => A1 | 2 => A2) else fun _ => 0

theorem diag3_self {r c : Nat} (A0 A1 A2 : Arr r c) (b : Fin 3) :
    diag3 A0 A1 A2 b b = (match b with | 0 => A0 | 1 => A1 | 2 => A2) := if_pos rfl

theorem diag3_ne {r c : Nat} (A0 A1 A2 : Arr r c) {b b' : Fin 3} (h : b ≠ b') (i) : diag3 A0 A1 A2 b b' i = 0 := by
  unfold diag3; rw [if_neg h]

/-- A column of a matrix that vanishes off the rows `ι` picks out: the sum runs over the picked rows. -/
theorem layer_pick {J K N N' : Nat} (x : Fin J → EReal) (W : Arr J N') (ι : Fin K → Fin J) (hι : Function.Injective ι)
    (xb : Fin K → EReal) (Wb : Arr K N) (n' : Fin N') (n : Fin N)
    (hx : ∀ k, x (ι k) = xb k) (hW : ∀ k, W (ix2 (ι k) n') = Wb (ix2 k n))
    (h0 : ∀ j, j ∉ Set.range ι → W (ix2 j n') = 0) :
    layer x W n' = layer xb Wb n := by
  unfold layer
  exact (Fintype.sum_of_injective ι hι (fun k => xb k * Wb (ix2 k n)) (fun j => x j * W (ix2 j n'))
    (fun j hj => by rw [h0 j hj, mul_zero]) (fun k => by rw [hx, hW])).symm

/-- The b-th third of a vector of length 3r. -/
def third {r R : Nat} (hR : R = 3 * r) (x : Fin R → EReal) (b : Fin 3) : Fin r → EReal :=
  fun k => x ⟨r * b.val + k.val, by have := b.isLt; have := k.isLt; subst hR; nlinarith⟩

/-- A row vector of length 3r times a 3 x 3 grid of [r, c] blocks with zero off-diagonal blocks, read in column block
    b' at column n: the vector's b'-th third times the diagonal block. -/
theorem layer_block {r c R C : Nat} (hR : R = 3 * r) (x : Fin R → EReal) (W : Arr R C)
    (P : Fin 3 → Fin 3 → Arr r c)
    (hW : ∀ (b b' : Fin 3) (k : Fin r) (n : Fin c) (j : Fin R) (n' : Fin C),
      r * b.val + k.val = j.val → c * b'.val + n.val = n'.val → W (ix2 j n') = P b b' (ix2 k n))
    (hz : ∀ b b' : Fin 3, b ≠ b' → ∀ i, P b b' i = 0)
    (b' : Fin 3) (n : Fin c) (n' : Fin C) (hn : c * b'.val + n.val = n'.val) :
    layer x W n' = layer (third hR x b') (P b' b') n := by
  have hb' := b'.isLt
  refine layer_pick x W (fun k : Fin r => ⟨r * b'.val + k.val, by have := k.isLt; subst hR; nlinarith⟩) ?_
    (third hR x b') (P b' b') n' n (fun k => rfl) (fun k => hW b' b' k n _ n' rfl hn) ?_
  · intro k k' hkk
    have := congrArg Fin.val hkk
    simp only at this
    exact Fin.ext (by omega)
  · intro j hj
    have hr : 0 < r := by
      rcases Nat.eq_zero_or_pos r with h | h
      · exfalso; subst hR; subst h; exact absurd j.isLt (by simp)
      · exact h
    have hjlt : j.val < 3 * r := hR ▸ j.isLt
    have hb : j.val / r < 3 := (Nat.div_lt_iff_lt_mul hr).2 (by omega)
    have hk : j.val % r < r := Nat.mod_lt _ hr
    have hne : (⟨j.val / r, hb⟩ : Fin 3) ≠ b' := by
      intro e
      apply hj
      refine ⟨⟨j.val % r, hk⟩, Fin.ext ?_⟩
      have : j.val / r = b'.val := congrArg Fin.val e
      show r * b'.val + j.val % r = j.val
      rw [← this]; exact Nat.div_add_mod _ _
    rw [hW ⟨j.val / r, hb⟩ b' ⟨j.val % r, hk⟩ n j n' (Nat.div_add_mod _ _) hn]
    exact hz _ _ hne _

end Cert.Field

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.KernelRow.lean ====
/-
  The fused computation of a row against the three branches' own computations, on the extended reals.
  A fused layer (a vector of length 3r against a block-diagonal matrix) restricted to the b-th third of its outputs is
  the b-th branch's layer on the b-th third of the inputs; the rectifier commutes with taking thirds. The fused first
  colour layer reads only the geometry entries of each branch's 17 outputs (its weight rows for entries 0 and 1 vanish)
  and, for the background only, the view direction. With real inputs the softplus of a branch's output is a positive
  real, so a branch's density vanishes only where its mask does, and there the branch's colour vanishes too: that is
  what makes `a * (1 / s) * c = (a / s) * c` hold even at `s = 0`.
-/
import proofs.«149636_j70153995813579_2_alg».proof.Proof.Blocks
import proofs.«149636_j70153995813579_2_alg».proof.Proof.LibRealLift
import Idealize.ShloMosaic.Lib.IdealHost

noncomputable section

open scoped BigOperators

namespace Cert.Field

open Idealize.ShloMosaic Idealize.ShloMosaic.ValueIdx

/-! ## Real entries -/

/-- Every entry is a real number. -/
def IsReal {ι : Type} (f : ι → EReal) : Prop := ∀ i, ∃ r : ℝ, f i = (r : EReal)

theorem coe_max' (a b : ℝ) : ((max a b : ℝ) : EReal) = max (a : EReal) (b : EReal) :=
  EReal.coe_strictMono.monotone.map_max

theorem layer_real {K N : Nat} {x : Fin K → EReal} {W : Arr K N} (hx : IsReal x) (hW : IsReal W) : IsReal (layer x W) := by
  intro n
  choose xr hxr using hx
  choose Wr hWr using hW
  refine ⟨∑ k, xr k * Wr (ix2 k n), ?_⟩
  unfold layer
  simp only [hxr, hWr, ← EReal.coe_mul]
  exact Cert.LibRealLift.coe_sum _ _

theorem reluV_real {N : Nat} {x : Fin N → EReal} (hx : IsReal x) : IsReal (reluV x) := by
  intro n
  obtain ⟨r, hr⟩ := hx n
  refine ⟨max r 0, ?_⟩
  unfold reluV
  rw [hr, coe_max', EReal.coe_zero]

theorem sigmaNet_real {x : Fin 32 → EReal} {s0 : Arr 32 64} {s1 : Arr 64 64} {s2 : Arr 64 17}
    (hx : IsReal x) (h0 : IsReal s0) (h1 : IsReal s1) (h2 : IsReal s2) : IsReal (sigmaNet x s0 s1 s2) :=
  layer_real (reluV_real (layer_real (reluV_real (layer_real hx h0)) h1)) h2

/-- The softplus of a real number is a positive real; in particular it is not zero. -/
theorem softplus_coe_ne_zero (r : ℝ) : softplus (r : EReal) ≠ 0 := by
  have hpos : (0 : ℝ) < 1 + Real.exp (-(max r (-r))) := by have := Real.exp_pos (-(max r (-r))); linarith
  have e : softplus (r : EReal) = ((max r 0 + Real.log (1 + Real.exp (-(max r (-r)))) : ℝ) : EReal) := by
    unfold softplus Ideal.log1p
    have h1 : (-(max (r : EReal) (-(r : EReal)))) = ((-(max r (-r)) : ℝ) : EReal) := by
      rw [EReal.coe_neg, coe_max', EReal.coe_neg]
    rw [h1, Ideal.exp_coe]
    have h2 : (1 : EReal) + ((Real.exp (-(max r (-r))) : ℝ) : EReal) = ((1 + Real.exp (-(max r (-r))) : ℝ) : EReal) := by
      rw [EReal.coe_add, EReal.coe_one]
    rw [h2, Ideal.log_coe, if_neg (not_le.2 hpos), EReal.coe_add, coe_max', EReal.coe_zero]
  rw [e]
  have hlog : 0 < Real.log (1 + Real.exp (-(max r (-r)))) :=
    Real.log_pos (by have := Real.exp_pos (-(max r (-r))); linarith)
  have hm : (0 : ℝ) ≤ max r 0 := le_max_right r 0
  have : (0 : ℝ) < max r 0 + Real.log (1 + Real.exp (-(max r (-r)))) := by linarith
  exact_mod_cast this.ne'

/-- `a * (1 / s) * c = (a / s) * c` on the extended reals, provided `c` vanishes wherever `a` does. -/
theorem mul_inv_mul (a s c : EReal) (h : a = 0 → c = 0) : a * Ideal.div 1 s * c = Ideal.div a s * c := by
  unfold Ideal.div
  by_cases hs : s = 0
  · rw [if_pos hs, if_pos hs, if_pos zero_lt_one]
    rcases lt_trichotomy a 0 with ha | ha | ha
    · rw [if_neg (not_lt.2 ha.le), EReal.mul_top_of_neg ha]
    · rw [h ha, mul_zero, mul_zero]
    · rw [if_pos ha, EReal.mul_top_of_pos ha]
  · rw [if_neg hs, if_neg hs, one_mul]

/-! ## Thirds -/

/-- The b-th of three choices. -/
def sel3 {α : Type} (A0 A1 A2 : α) (b : Fin 3) : α := match b with | 0 => A0 | 1 => A1 | 2 => A2

theorem diag3_self' {r c : Nat} (A0 A1 A2 : Arr r c) (b : Fin 3) : diag3 A0 A1 A2 b b = sel3 A0 A1 A2 b :=
  diag3_self A0 A1 A2 b

theorem third_reluV {r R : Nat} (hR : R = 3 * r) (y : Fin R → EReal) (b : Fin 3) :
    third hR (reluV y) b = reluV (third hR y b) := rfl

/-- The b-th third of a fused layer's output is the b-th branch's layer of the b-th third of its input. -/
theorem third_layer {r c R C : Nat} (hR : R = 3 * r) (hC : C = 3 * c) (x : Fin R → EReal) (W : Arr R C) (A0 A1 A2 : Arr r c)
    (hW : ∀ (b b' : Fin 3) (k : Fin r) (n : Fin c) (j : Fin R) (n' : Fin C),
      r * b.val + k.val = j.val → c * b'.val + n.val = n'.val → W (ix2 j n') = diag3 A0 A1 A2 b b' (ix2 k n))
    (b : Fin 3) : third hC (layer x W) b = layer (third hR x b) (sel3 A0 A1 A2 b) := by
  funext n
  show layer x W _ = _
  rw [layer_block hR x W (diag3 A0 A1 A2) hW (fun b b' h i => diag3_ne A0 A1 A2 h i) b n _ rfl, diag3_self']

/-! ## The row's fused computation -/

theorem e96 : 96 = 3 * 32 := rfl
theorem e192 : 192 = 3 * 64 := rfl
theorem e51 : 51 = 3 * 17 := rfl
theorem e9 : 9 = 3 * 3 := rfl

/-- The form of a block-diagonal matrix of [r, c] blocks. -/
def BlockDiag {r c R C : Nat} (W : Arr R C) (A0 A1 A2 : Arr r c) : Prop :=
  ∀ (b b' : Fin 3) (k : Fin r) (n : Fin c) (j : Fin R) (n' : Fin C),
    r * b.val + k.val = j.val → c * b'.val + n.val = n'.val → W (ix2 j n') = diag3 A0 A1 A2 b b' (ix2 k n)

/-- The fused density perceptron: 96 -> 192 -> 192 -> 51. -/
def kHf (x : Fin 96 → EReal) (W0 : Arr 96 192) (W1 : Arr 192 192) (W2 : Arr 192 51) : Fin 51 → EReal :=
  layer (reluV (layer (reluV (layer x W0)) W1)) W2

theorem kHf_third (x : Fin 96 → EReal) (W0 : Arr 96 192) (W1 : Arr 192 192) (W2 : Arr 192 51)
    (s00 s01 s02 : Arr 32 64) (s10 s11 s12 : Arr 64 64) (s20 s21 s22 : Arr 64 17)
    (h0 : BlockDiag W0 s00 s01 s02) (h1 : BlockDiag W1 s10 s11 s12) (h2 : BlockDiag W2 s20 s21 s22) (b : Fin 3) :
    third e51 (kHf x W0 W1 W2) b
      = sigmaNet (third e96 x b) (sel3 s00 s01 s02 b) (sel3 s10 s11 s12 b) (sel3 s20 s21 s22 b) := by
  unfold kHf sigmaNet
  rw [third_layer e192 e51 _ W2 s20 s21 s22 h2 b, third_reluV, third_layer e192 e192 _ W1 s10 s11 s12 h1 b, third_reluV,
    third_layer e96 e192 x W0 s00 s01 s02 h0 b]

/-- Rows 3..17 of the background's first colour weight: the rows its geometry features meet. -/
def geoW (bc0 : Arr 18 64) : Arr 15 64 := fun i => bc0 (ix2 ⟨(i 0).val + 3, by have := idx2_lt0 i; omega⟩ (i 1))

/-- The fused geometry weight [51, 192]: in row band b, rows 2..16, column block b, the branch's geometry weight;
    zero elsewhere. -/
def GeoForm (Wg : Arr 51 192) (bc0 : Arr 18 64) (fc0 ac0 : Arr 15 64) : Prop :=
  (∀ (b : Fin 3) (ρ : Fin 15) (n : Fin 64) (j : Fin 51) (n' : Fin 192), 17 * b.val + ρ.val + 2 = j.val → 64 * b.val + n.val = n'.val →
      Wg (ix2 j n') = sel3 (geoW bc0) fc0 ac0 b (ix2 ρ n))
  ∧ (∀ (b b' : Fin 3) (ρ : Fin 17) (n : Fin 64) (j : Fin 51) (n' : Fin 192), 17 * b.val + ρ.val = j.val → 64 * b'.val + n.val = n'.val →
      ¬(b = b' ∧ 2 ≤ ρ.val) → Wg (ix2 j n') = 0)

/-- The fused view weight [3, 192]: rows 0..2 of the background's first colour weight in column block 0; zero elsewhere. -/
def ViewForm (Wv : Arr 3 192) (bc0 : Arr 18 64) : Prop :=
  (∀ (k : Fin 3) (n : Fin 64) (n' : Fin 192), n.val = n'.val → Wv (ix2 k n') = bc0 (ix2 ⟨k.val, by omega⟩ n))
  ∧ (∀ (b' : Fin 3) (k : Fin 3) (n : Fin 64) (n' : Fin 192), b' ≠ 0 → 64 * b'.val + n.val = n'.val → Wv (ix2 k n') = 0)

/-- The fused first colour layer, rectified. -/
def kHc (hf : Fin 51 → EReal) (vw : Fin 3 → EReal) (Wg : Arr 51 192) (Wv : Arr 3 192) : Fin 192 → EReal :=
  reluV (fun n' => layer hf Wg n' + layer vw Wv n')

/-- A branch's first colour layer before the rectifier. -/
def pre (vw : Fin 3 → EReal) (h : Fin 3 → (Fin 17 → EReal)) (bc0 : Arr 18 64) (fc0 ac0 : Arr 15 64) (b : Fin 3) : Fin 64 → EReal :=
  match b with
  | 0 => firstBg vw (geo (h 0)) bc0
  | 1 => layer (geo (h 1)) fc0
  | 2 => layer (geo (h 2)) ac0

theorem geo_part (hf : Fin 51 → EReal) (Wg : Arr 51 192) (bc0 : Arr 18 64) (fc0 ac0 : Arr 15 64)
    (hg : GeoForm Wg bc0 fc0 ac0) (b : Fin 3) (n : Fin 64) (n' : Fin 192) (hn : 64 * b.val + n.val = n'.val) :
    layer hf Wg n' = layer (geo (third e51 hf b)) (sel3 (geoW bc0) fc0 ac0 b) n := by
  have hb := b.isLt
  refine layer_pick hf Wg (fun ρ : Fin 15 => ⟨17 * b.val + ρ.val + 2, by have := ρ.isLt; omega⟩) ?_
    (geo (third e51 hf b)) _ n' n ?_ (fun ρ => hg.1 b ρ n _ n' rfl hn) ?_
  · intro ρ ρ' h
    have := congrArg Fin.val h
    simp only at this
    exact Fin.ext (by omega)
  · intro ρ
    unfold geo third
    exact congrArg hf (Fin.ext (by simp only; omega))
  · intro j hj
    have hjlt := j.isLt
    have hb0 : j.val / 17 < 3 := by omega
    have hρ : j.val % 17 < 17 := Nat.mod_lt _ (by norm_num)
    refine hg.2 ⟨j.val / 17, hb0⟩ b ⟨j.val % 17, hρ⟩ n j n' (by show 17 * (j.val / 17) + j.val % 17 = j.val; omega) hn ?_
    rintro ⟨hbb, h2⟩
    apply hj
    have hbv : j.val / 17 = b.val := congrArg Fin.val hbb
    simp only at h2
    exact ⟨⟨j.val % 17 - 2, by omega⟩, Fin.ext (by show 17 * b.val + (j.val % 17 - 2) + 2 = j.val; omega)⟩

theorem kHc_at (hf : Fin 51 → EReal) (vw : Fin 3 → EReal) (Wg : Arr 51 192) (Wv : Arr 3 192)
    (bc0 : Arr 18 64) (fc0 ac0 : Arr 15 64) (hg : GeoForm Wg bc0 fc0 ac0) (hv : ViewForm Wv bc0) (b : Fin 3)
    (n : Fin 64) (n' : Fin 192) (hn : 64 * b.val + n.val = n'.val) :
    layer hf Wg n' + layer vw Wv n' = pre vw (third e51 hf) bc0 fc0 ac0 b n := by
  rw [geo_part hf Wg bc0 fc0 ac0 hg b n n' hn]
  have hviews : b ≠ 0 → layer vw Wv n' = 0 := fun hb0 => by
    unfold layer
    exact Finset.sum_eq_zero fun k _ => by rw [hv.2 b k n n' hb0 hn, mul_zero]
  match b, hn, hviews with
  | 0, hn, _ =>
    show layer (geo (third e51 hf 0)) (geoW bc0) n + layer vw Wv n' = firstBg vw (geo (third e51 hf 0)) bc0 n
    unfold firstBg layer
    rw [add_comm]
    refine congrArg₂ (· + ·) (Finset.sum_congr rfl fun k _ => ?_) rfl
    rw [hv.1 k n n' (by simpa using hn)]
  | 1, _, hviews =>
    rw [hviews (by decide), add_zero]; rfl
  | 2, _, hviews =>
    rw [hviews (by decide), add_zero]; rfl

theorem kHc_third (hf : Fin 51 → EReal) (vw : Fin 3 → EReal) (Wg : Arr 51 192) (Wv : Arr 3 192)
    (bc0 : Arr 18 64) (fc0 ac0 : Arr 15 64) (hg : GeoForm Wg bc0 fc0 ac0) (hv : ViewForm Wv bc0) (b : Fin 3) :
    third e192 (kHc hf vw Wg Wv) b = reluV (pre vw (third e51 hf) bc0 fc0 ac0 b) := by
  funext n
  show max (layer hf Wg _ + layer vw Wv _) 0 = max (pre vw (third e51 hf) bc0 fc0 ac0 b n) 0
  rw [kHc_at hf vw Wg Wv bc0 fc0 ac0 hg hv b n _ rfl]

/-- The fused colour perceptron after the first layer: 192 -> 192 -> 192 -> 9. -/
def kO (hc : Fin 192 → EReal) (C1 C2 : Arr 192 192) (C3 : Arr 192 9) : Fin 9 → EReal :=
  layer (reluV (layer (reluV (layer hc C1)) C2)) C3

theorem kO_third (hc : Fin 192 → EReal) (C1 C2 : Arr 192 192) (C3 : Arr 192 9)
    (c10 c11 c12 c20 c21 c22 : Arr 64 64) (c30 c31 c32 : Arr 64 3)
    (h1 : BlockDiag C1 c10 c11 c12) (h2 : BlockDiag C2 c20 c21 c22) (h3 : BlockDiag C3 c30 c31 c32) (b : Fin 3) :
    third e9 (kO hc C1 C2 C3) b
      = layer (reluV (layer (reluV (layer (third e192 hc b) (sel3 c10 c11 c12 b))) (sel3 c20 c21 c22 b))) (sel3 c30 c31 c32 b) := by
  unfold kO
  rw [third_layer e192 e9 _ C3 c30 c31 c32 h3 b, third_reluV, third_layer e192 e192 _ C2 c20 c21 c22 h2 b, third_reluV,
    third_layer e192 e192 hc C1 c10 c11 c12 h1 b]

/-! ## The stored row -/

/-- The row the kernel stores, from the fused row of features, the packed view/mask row and the fused weights. -/
def kRow (x : Fin 96 → EReal) (aux : Fin 6 → EReal) (W0 : Arr 96 192) (W1 : Arr 192 192) (W2 : Arr 192 51) (Wg : Arr 51 192)
    (Wv : Arr 3 192) (C1 C2 : Arr 192 192) (C3 : Arr 192 9) (q : Fin 4) : EReal :=
  if h : q.val < 3 then
    softplus (kHf x W0 W1 W2 ⟨0, by omega⟩) * aux ⟨3, by omega⟩
        * Ideal.div (Ideal.ofBits .f32 0x3F800000#32)
            (softplus (kHf x W0 W1 W2 ⟨0, by omega⟩) * aux ⟨3, by omega⟩ + softplus (kHf x W0 W1 W2 ⟨17, by omega⟩) * aux ⟨4, by omega⟩
              + softplus (kHf x W0 W1 W2 ⟨34, by omega⟩) * aux ⟨5, by omega⟩ + eps)
        * (Ideal.logistic (kO (kHc (kHf x W0 W1 W2) (fun k : Fin 3 => aux ⟨k.val, by omega⟩) Wg Wv) C1 C2 C3 ⟨0 + q.val, by omega⟩) * aux ⟨3, by omega⟩)
      + softplus (kHf x W0 W1 W2 ⟨17, by omega⟩) * aux ⟨4, by omega⟩
        * Ideal.div (Ideal.ofBits .f32 0x3F800000#32)
            (softplus (kHf x W0 W1 W2 ⟨0, by omega⟩) * aux ⟨3, by omega⟩ + softplus (kHf x W0 W1 W2 ⟨17, by omega⟩) * aux ⟨4, by omega⟩
              + softplus (kHf x W0 W1 W2 ⟨34, by omega⟩) * aux ⟨5, by omega⟩ + eps)
        * (Ideal.logistic (kO (kHc (kHf x W0 W1 W2) (fun k : Fin 3 => aux ⟨k.val, by omega⟩) Wg Wv) C1 C2 C3 ⟨3 + q.val, by omega⟩) * aux ⟨4, by omega⟩)
      + softplus (kHf x W0 W1 W2 ⟨34, by omega⟩) * aux ⟨5, by omega⟩
        * Ideal.div (Ideal.ofBits .f32 0x3F800000#32)
            (softplus (kHf x W0 W1 W2 ⟨0, by omega⟩) * aux ⟨3, by omega⟩ + softplus (kHf x W0 W1 W2 ⟨17, by omega⟩) * aux ⟨4, by omega⟩
              + softplus (kHf x W0 W1 W2 ⟨34, by omega⟩) * aux ⟨5, by omega⟩ + eps)
        * (Ideal.logistic (kO (kHc (kHf x W0 W1 W2) (fun k : Fin 3 => aux ⟨k.val, by omega⟩) Wg Wv) C1 C2 C3 ⟨6 + q.val, by omega⟩) * aux ⟨5, by omega⟩)
  else
    softplus (kHf x W0 W1 W2 ⟨0, by omega⟩) * aux ⟨3, by omega⟩ + softplus (kHf x W0 W1 W2 ⟨17, by omega⟩) * aux ⟨4, by omega⟩
      + softplus (kHf x W0 W1 W2 ⟨34, by omega⟩) * aux ⟨5, by omega⟩ + eps

/-- A branch's density perceptron on its third of the fused feature row. -/
def brH (x : Fin 96 → EReal) (s00 s01 s02 : Arr 32 64) (s10 s11 s12 : Arr 64 64) (s20 s21 s22 : Arr 64 17) (b : Fin 3) : Fin 17 → EReal :=
  sigmaNet (third e96 x b) (sel3 s00 s01 s02 b) (sel3 s10 s11 s12 b) (sel3 s20 s21 s22 b)

/-- A density vanishes only with its mask, when the perceptron's output is real; the colour then vanishes too. -/
theorem colour_zero_of_density_zero {h : Fin 17 → EReal} (hr : IsReal h) (mk g : EReal)
    (hz : softplus (h ⟨0, by omega⟩) * mk = 0) : Ideal.logistic g * mk = 0 := by
  obtain ⟨r, hr0⟩ := hr ⟨0, by omega⟩
  rw [hr0] at hz
  rcases mul_eq_zero.1 hz with h1 | h1
  · exact absurd h1 (softplus_coe_ne_zero r)
  · rw [h1, mul_zero]

theorem kRow_eq (x : Fin 96 → EReal) (aux : Fin 6 → EReal) (W0 : Arr 96 192) (W1 : Arr 192 192) (W2 : Arr 192 51) (Wg : Arr 51 192)
    (Wv : Arr 3 192) (C1 C2 : Arr 192 192) (C3 : Arr 192 9)
    (s00 s01 s02 : Arr 32 64) (s10 s11 s12 : Arr 64 64) (s20 s21 s22 : Arr 64 17)
    (bc0 : Arr 18 64) (fc0 ac0 : Arr 15 64) (c10 c11 c12 c20 c21 c22 : Arr 64 64) (c30 c31 c32 : Arr 64 3)
    (h0 : BlockDiag W0 s00 s01 s02) (h1 : BlockDiag W1 s10 s11 s12) (h2 : BlockDiag W2 s20 s21 s22)
    (hg : GeoForm Wg bc0 fc0 ac0) (hv : ViewForm Wv bc0)
    (hc1 : BlockDiag C1 c10 c11 c12) (hc2 : BlockDiag C2 c20 c21 c22) (hc3 : BlockDiag C3 c30 c31 c32)
    (rx : IsReal x) (r00 : IsReal s00) (r01 : IsReal s01) (r02 : IsReal s02) (r10 : IsReal s10) (r11 : IsReal s11) (r12 : IsReal s12)
    (r20 : IsReal s20) (r21 : IsReal s21) (r22 : IsReal s22) (q : Fin 4) :
    kRow x aux W0 W1 W2 Wg Wv C1 C2 C3 q
      = outRow (density (brH x s00 s01 s02 s10 s11 s12 s20 s21 s22 0) (aux ⟨3, by omega⟩))
          (density (brH x s00 s01 s02 s10 s11 s12 s20 s21 s22 1) (aux ⟨4, by omega⟩))
          (density (brH x s00 s01 s02 s10 s11 s12 s20 s21 s22 2) (aux ⟨5, by omega⟩))
          (colour (colourTail (firstBg (fun k : Fin 3 => aux ⟨k.val, by omega⟩) (geo (brH x s00 s01 s02 s10 s11 s12 s20 s21 s22 0)) bc0) c10 c20 c30) (aux ⟨3, by omega⟩))
          (colour (colourTail (layer (geo (brH x s00 s01 s02 s10 s11 s12 s20 s21 s22 1)) fc0) c11 c21 c31) (aux ⟨4, by omega⟩))
          (colour (colourTail (layer (geo (brH x s00 s01 s02 s10 s11 s12 s20 s21 s22 2)) ac0) c12 c22 c32) (aux ⟨5, by omega⟩)) q := by
  have hH : third e51 (kHf x W0 W1 W2) = brH x s00 s01 s02 s10 s11 s12 s20 s21 s22 :=
    funext fun b => kHf_third x W0 W1 W2 s00 s01 s02 s10 s11 s12 s20 s21 s22 h0 h1 h2 b
  have hreal : ∀ b, IsReal (brH x s00 s01 s02 s10 s11 s12 s20 s21 s22 b) := by
    intro b
    refine sigmaNet_real (fun k => rx _) ?_ ?_ ?_
    · fin_cases b <;> assumption
    · fin_cases b <;> assumption
    · fin_cases b <;> assumption
  have hf0 : kHf x W0 W1 W2 ⟨0, by omega⟩ = brH x s00 s01 s02 s10 s11 s12 s20 s21 s22 0 ⟨0, by omega⟩ := by
    rw [← hH]; rfl
  have hf1 : kHf x W0 W1 W2 ⟨17, by omega⟩ = brH x s00 s01 s02 s10 s11 s12 s20 s21 s22 1 ⟨0, by omega⟩ := by
    rw [← hH]; rfl
  have hf2 : kHf x W0 W1 W2 ⟨34, by omega⟩ = brH x s00 s01 s02 s10 s11 s12 s20 s21 s22 2 ⟨0, by omega⟩ := by
    rw [← hH]; rfl
  have hO : ∀ b : Fin 3, third e9 (kO (kHc (kHf x W0 W1 W2) (fun k : Fin 3 => aux ⟨k.val, by omega⟩) Wg Wv) C1 C2 C3) b
      = colourTail (pre (fun k : Fin 3 => aux ⟨k.val, by omega⟩) (brH x s00 s01 s02 s10 s11 s12 s20 s21 s22) bc0 fc0 ac0 b)
          (sel3 c10 c11 c12 b) (sel3 c20 c21 c22 b) (sel3 c30 c31 c32 b) := by
    intro b
    rw [kO_third _ C1 C2 C3 c10 c11 c12 c20 c21 c22 c30 c31 c32 hc1 hc2 hc3 b, kHc_third _ _ Wg Wv bc0 fc0 ac0 hg hv b, hH]
    rfl
  unfold kRow outRow
  rw [hf0, hf1, hf2]
  by_cases hq : q.val < 3
  · rw [dif_pos hq, dif_pos hq]
    have o0 : kO (kHc (kHf x W0 W1 W2) (fun k : Fin 3 => aux ⟨k.val, by omega⟩) Wg Wv) C1 C2 C3 ⟨0 + q.val, by omega⟩
        = colourTail (firstBg (fun k : Fin 3 => aux ⟨k.val, by omega⟩) (geo (brH x s00 s01 s02 s10 s11 s12 s20 s21 s22 0)) bc0) c10 c20 c30 ⟨q.val, hq⟩ := by
      exact congrFun (hO 0) ⟨q.val, hq⟩
    have o1 : kO (kHc (kHf x W0 W1 W2) (fun k : Fin 3 => aux ⟨k.val, by omega⟩) Wg Wv) C1 C2 C3 ⟨3 + q.val, by omega⟩
        = colourTail (layer (geo (brH x s00 s01 s02 s10 s11 s12 s20 s21 s22 1)) fc0) c11 c21 c31 ⟨q.val, hq⟩ := by
      exact congrFun (hO 1) ⟨q.val, hq⟩
    have o2 : kO (kHc (kHf x W0 W1 W2) (fun k : Fin 3 => aux ⟨k.val, by omega⟩) Wg Wv) C1 C2 C3 ⟨6 + q.val, by omega⟩
        = colourTail (layer (geo (brH x s00 s01 s02 s10 s11 s12 s20 s21 s22 2)) ac0) c12 c22 c32 ⟨q.val, hq⟩ := by
      exact congrFun (hO 2) ⟨q.val, hq⟩
    rw [o0, o1, o2, Ideal.ofBits_one_f32]
    unfold mix total colour density
    rw [mul_inv_mul _ _ _ (fun hz => colour_zero_of_density_zero (hreal 0) _ _ hz),
      mul_inv_mul _ _ _ (fun hz => colour_zero_of_density_zero (hreal 1) _ _ hz),
      mul_inv_mul _ _ _ (fun hz => colour_zero_of_density_zero (hreal 2) _ _ hz)]
  · rw [dif_neg hq, dif_neg hq]
    unfold total density
    rfl

end Cert.Field

end
-- ==== Proof.KernelPoint.lean ====
/-
  The block the kernel stores at a grid point, row by row: the stored [2048, 4] block at (p, q) is the row function
  `kRow` of row p of the three feature blocks side by side, row p of the packed view/mask block, and the fused weights.
-/
import proofs.«149636_j70153995813579_2_alg».proof.Proof.Payload
import proofs.«149636_j70153995813579_2_alg».proof.Proof.KernelRow
import proofs.«149636_j70153995813579_2_alg».proof.Proof.FrameIdeal

noncomputable section

open scoped BigOperators

namespace Cert.KernelIdeal.Point

open Cert.KernelIdeal Cert.KernelIdeal.Gen Cert.KernelIdeal.Fr Cert.KernelIdeal.Pay Cert.Field
open Idealize.ShloMosaic Idealize.ShloMosaic.ValueIdx Idealize.ShloMosaic.Pipeline

theorem hz : (![0, 0] : Fin 2 → Nat) = fun _ => 0 := funext fun a => by fin_cases a <;> rfl

/-- The b-th third of row p of the three feature blocks side by side is row p of the b-th block. -/
theorem feat_third (x0 x1 x2 : Vec Ideal S2048x32 .f32) (p : Fin 2048) (b : Fin 3) :
    third e96 (row (feat x0 x1 x2) p) b = row (sel3 x0 x1 x2 b) p := by
  funext k
  show feat x0 x1 x2 (ix2 p (⟨32 * b.val + k.val, _⟩ : Fin 96)) = sel3 x0 x1 x2 b (ix2 p k)
  match b with
  | ⟨0, _⟩ => exact Cert.LibGrid.cols_apply [⟨S2048x32, x0⟩, ⟨S2048x32, x1⟩, ⟨S2048x32, x2⟩] concatenates_S2048x32_S2048x32_S2048x32_S2048x96_d1 p _ 0 (by simp) 32 x0 rfl 0 (by simp) k (by simp)
  | ⟨1, _⟩ => exact Cert.LibGrid.cols_apply [⟨S2048x32, x0⟩, ⟨S2048x32, x1⟩, ⟨S2048x32, x2⟩] concatenates_S2048x32_S2048x32_S2048x32_S2048x96_d1 p _ 1 (by simp) 32 x1 rfl 32 (by simp) k (by simp)
  | ⟨2, _⟩ => exact Cert.LibGrid.cols_apply [⟨S2048x32, x0⟩, ⟨S2048x32, x1⟩, ⟨S2048x32, x2⟩] concatenates_S2048x32_S2048x32_S2048x32_S2048x96_d1 p _ 2 (by simp) 32 x2 rfl 64 (by simp) k (by simp)

/-- The stored block at (p, q). -/
theorem out12_kRow (x0 x1 x2 : Vec Ideal S2048x32 .f32) (x3 : Vec Ideal S2048x6 .f32) (x4 : Vec Ideal S96x192 .bf16)
    (x5 : Vec Ideal S192x192 .bf16) (x6 : Vec Ideal S192x51 .bf16) (x7 : Vec Ideal S51x192 .bf16) (x8 : Vec Ideal S3x192 .bf16)
    (x9 x10 : Vec Ideal S192x192 .bf16) (x11 : Vec Ideal S192x9 .bf16) (p : Fin 2048) (q : Fin 4) :
    out12 (F := Ideal) x0 x1 x2 x3 x4 x5 x6 x7 x8 x9 x10 x11 (ix2 p q)
      = kRow (row (feat x0 x1 x2) p) (row x3 p) x4 x5 x6 x7 x8 x9 x10 x11 q := by
  unfold out12
  rw [View.canon_unit_zero hz]
  simp only [View.ld_unit_zero (S := S2048x32) hz, View.ld_unit_zero (S := S2048x6) hz, View.ld_unit_zero (S := S96x192) hz,
    View.ld_unit_zero (S := S192x192) hz, View.ld_unit_zero (S := S192x51) hz, View.ld_unit_zero (S := S51x192) hz,
    View.ld_unit_zero (S := S3x192) hz, View.ld_unit_zero (S := S192x9) hz]
  have hK0 : k0_pay4 (F := Ideal) x3 (ix2 p (0 : Fin 1)) = row x3 p ⟨3, by omega⟩ := pay4_at x3 p
  have hK1 : k0_pay5 (F := Ideal) x3 (ix2 p (0 : Fin 1)) = row x3 p ⟨4, by omega⟩ := pay5_at x3 p
  have hK2 : k0_pay6 (F := Ideal) x3 (ix2 p (0 : Fin 1)) = row x3 p ⟨5, by omega⟩ := pay6_at x3 p
  have hA0 : k0_pay13 (F := Ideal) (k0_pay4 x3) (k0_pay8 x0 x1 x2 x4 x5 x6) (k0_pay10 x0 x1 x2 x4 x5 x6)
      (k0_pay11 x0 x1 x2 x4 x5 x6) (k0_pay12 x0 x1 x2 x4 x5 x6) (ix2 p (0 : Fin 1))
      = softplus (kHf (row (feat x0 x1 x2) p) x4 x5 x6 ⟨0, by omega⟩) * row x3 p ⟨3, by omega⟩ := by
    rw [pay13_at, pay1_at, pay4_at]; rfl
  have hA1 : k0_pay14 (F := Ideal) (k0_pay1 x0 x1 x2 x4 x5 x6) (k0_pay5 x3) (ix2 p (0 : Fin 1))
      = softplus (kHf (row (feat x0 x1 x2) p) x4 x5 x6 ⟨17, by omega⟩) * row x3 p ⟨4, by omega⟩ := by
    rw [pay14_at, pay1_at, pay5_at]; rfl
  have hA2 : k0_pay15 (F := Ideal) (k0_pay1 x0 x1 x2 x4 x5 x6) (k0_pay6 x3) (ix2 p (0 : Fin 1))
      = softplus (kHf (row (feat x0 x1 x2) p) x4 x5 x6 ⟨34, by omega⟩) * row x3 p ⟨5, by omega⟩ := by
    rw [pay15_at, pay1_at, pay6_at]; rfl
  have hO : oRow (k0_pay16 (F := Ideal) (k0_pay1 x0 x1 x2 x4 x5 x6) (k0_pay3 x3) x7 x8) x9 x10 x11 p
      = kO (kHc (kHf (row (feat x0 x1 x2) p) x4 x5 x6) (fun k : Fin 3 => row x3 p ⟨k.val, by omega⟩) x7 x8) x9 x10 x11 := by
    have r19 : row (k0_pay1 (F := Ideal) x0 x1 x2 x4 x5 x6) p = kHf (row (feat x0 x1 x2) p) x4 x5 x6 :=
      funext fun n' => pay1_at x0 x1 x2 x4 x5 x6 p n'
    have r22 : row (k0_pay3 (F := Ideal) x3) p = fun k : Fin 3 => row x3 p ⟨k.val, by omega⟩ :=
      funext fun k => pay3_at x3 p k
    unfold oRow kO
    rw [pay16_row, r19, r22]
    rfl
  rcases q with ⟨qv, hqv⟩
  by_cases hq : qv < 3
  · refine (pay17_colour _ _ _ _ _ _ _ x9 x10 x11 p ⟨qv, hq⟩).trans ?_
    unfold kRow sRow
    rw [dif_pos (show (⟨qv, hqv⟩ : Fin 4).val < 3 from hq), hA0, hA1, hA2, hK0, hK1, hK2, hO]
  · have h3 : qv = 3 := by omega
    subst h3
    refine (pay17_total _ _ _ _ _ _ _ x9 x10 x11 p).trans ?_
    unfold kRow sRow
    rw [dif_neg (show ¬ (⟨3, hqv⟩ : Fin 4).val < 3 from Nat.lt_irrefl 3), hA0, hA1, hA2]

end Cert.KernelIdeal.Point

end
-- ==== Proof.KernelIsG.lean ====
/-
  The idealized kernel's result array is the specification `G` of the argument arrays: at every grid point the stored
  block, row by row, is `G`'s row of the point's global row — given the forms of the arrays the host builds before the
  region (block-diagonal fused weights, the fused geometry and view weights, the packed view/mask array) and real
  entries of the features and of the density perceptrons' weights.
-/
import proofs.«149636_j70153995813579_2_alg».proof.Proof.KernelPoint
import proofs.«149636_j70153995813579_2_alg».proof.Proof.KernelValue

noncomputable section

open scoped BigOperators

namespace Cert.KernelIdeal.KG

open Cert.KernelIdeal Cert.KernelIdeal.Gen Cert.KernelIdeal.Fr Cert.KernelIdeal.Pay Cert.KernelIdeal.Point Cert.Field
open Idealize.ShloMosaic Idealize.ShloMosaic.TcCoe Idealize.SL.Sem Idealize.ShloMosaic.ValueIdx

variable (m : (ℓ : Loc nD τ sig) → Buf (Elt Ideal) ℓ) (c : Dev nD)

/-- An argument array as launched. -/
abbrev A (b : Ref sig .tc) : Buf (Elt Ideal) ((c.tc : Thread nD τ).loc b) := m ((c.tc : Thread nD τ).loc b)

/-- The specification at the launch contents of the argument arrays. -/
def Gm : S1048576x4.Idx → Elt Ideal .f32 :=
  G (A m c main_arg0) (A m c main_arg1) (A m c main_arg2) (A m c main_arg3) (A m c main_arg4) (A m c main_arg5) (A m c main_arg6)
    ⟨A m c main_arg7, A m c main_arg8, A m c main_arg9, A m c main_arg11, A m c main_arg12, A m c main_arg13⟩ (A m c main_arg10)
    ⟨A m c main_arg14, A m c main_arg15, A m c main_arg16, A m c main_arg18, A m c main_arg19, A m c main_arg20⟩ (A m c main_arg17)
    ⟨A m c main_arg21, A m c main_arg22, A m c main_arg23, A m c main_arg25, A m c main_arg26, A m c main_arg27⟩ (A m c main_arg24)

/-- The arrays the host builds before the region, as the region finds them. -/
structure HostFacts : Prop where
  w74 : BlockDiag (V m c main_v74 : S96x192.Idx → Elt Ideal .bf16) (A m c main_arg7) (A m c main_arg14) (A m c main_arg21)
  w75 : BlockDiag (V m c main_v75 : S192x192.Idx → Elt Ideal .bf16) (A m c main_arg8) (A m c main_arg15) (A m c main_arg22)
  w76 : BlockDiag (V m c main_v76 : S192x51.Idx → Elt Ideal .bf16) (A m c main_arg9) (A m c main_arg16) (A m c main_arg23)
  w77 : GeoForm (V m c main_v77 : S51x192.Idx → Elt Ideal .bf16) (A m c main_arg10) (A m c main_arg17) (A m c main_arg24)
  w78 : ViewForm (V m c main_v78 : S3x192.Idx → Elt Ideal .bf16) (A m c main_arg10)
  w79 : BlockDiag (V m c main_v79 : S192x192.Idx → Elt Ideal .bf16) (A m c main_arg11) (A m c main_arg18) (A m c main_arg25)
  w80 : BlockDiag (V m c main_v80 : S192x192.Idx → Elt Ideal .bf16) (A m c main_arg12) (A m c main_arg19) (A m c main_arg26)
  w81 : BlockDiag (V m c main_v81 : S192x9.Idx → Elt Ideal .bf16) (A m c main_arg13) (A m c main_arg20) (A m c main_arg27)
  auxv : ∀ (R : Fin 1048576) (q : Fin 3), (V m c main_v85 : S1048576x6.Idx → Elt Ideal .f32) (ix2 R ⟨q.val, by omega⟩) = A m c main_arg3 (ix2 R q)
  aux0 : ∀ (R : Fin 1048576), (V m c main_v85 : S1048576x6.Idx → Elt Ideal .f32) (ix2 R ⟨3, by omega⟩) = A m c main_arg4 (ix1 R)
  aux1 : ∀ (R : Fin 1048576), (V m c main_v85 : S1048576x6.Idx → Elt Ideal .f32) (ix2 R ⟨4, by omega⟩) = A m c main_arg5 (ix1 R)
  aux2 : ∀ (R : Fin 1048576), (V m c main_v85 : S1048576x6.Idx → Elt Ideal .f32) (ix2 R ⟨5, by omega⟩) = A m c main_arg6 (ix1 R)

/-- Real entries of the feature arrays and of the density perceptrons' weights. -/
structure RealFacts : Prop where
  x0 : IsReal (A m c main_arg0 : S1048576x32.Idx → EReal)
  x1 : IsReal (A m c main_arg1 : S1048576x32.Idx → EReal)
  x2 : IsReal (A m c main_arg2 : S1048576x32.Idx → EReal)
  s00 : IsReal (A m c main_arg7 : S32x64.Idx → EReal)
  s01 : IsReal (A m c main_arg14 : S32x64.Idx → EReal)
  s02 : IsReal (A m c main_arg21 : S32x64.Idx → EReal)
  s10 : IsReal (A m c main_arg8 : S64x64.Idx → EReal)
  s11 : IsReal (A m c main_arg15 : S64x64.Idx → EReal)
  s12 : IsReal (A m c main_arg22 : S64x64.Idx → EReal)
  s20 : IsReal (A m c main_arg9 : S64x17.Idx → EReal)
  s21 : IsReal (A m c main_arg16 : S64x17.Idx → EReal)
  s22 : IsReal (A m c main_arg23 : S64x17.Idx → EReal)

/-- A vector is real when its three thirds are. -/
theorem isReal_of_thirds {r R : Nat} (hR : R = 3 * r) (hr0 : 0 < r) (x : Fin R → EReal) (h : ∀ b, IsReal (third hR x b)) : IsReal x := by
  intro j
  have hjlt : j.val < 3 * r := hR ▸ j.isLt
  have hb : j.val / r < 3 := (Nat.div_lt_iff_lt_mul hr0).2 (by omega)
  obtain ⟨v, hv⟩ := h ⟨j.val / r, hb⟩ ⟨j.val % r, Nat.mod_lt _ hr0⟩
  refine ⟨v, ?_⟩
  rw [← hv]
  unfold third
  exact congrArg x (Fin.ext (Nat.div_add_mod _ _).symm)

/-- The b-th of three arrays with real entries has real entries. -/
theorem isReal_sel3 {ι : Type} (f0 f1 f2 : ι → EReal) (h0 : IsReal f0) (h1 : IsReal f1) (h2 : IsReal f2) (b : Fin 3) :
    IsReal (sel3 f0 f1 f2 b) := by
  fin_cases b <;> assumption

set_option maxHeartbeats 1600000 in
/-- The per-point fact: the stored block at (p, q) is the specification at (2048 t + p, q). -/
theorem H_of (hf : HostFacts m c) (hr : RealFacts m c) (t : Fin cfg0.N) (p : Fin 2048) (q : Fin 4) :
    out12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 p q)
      = Gm m c (ix2 (KV.row t p) q) := by
  rw [out12_kRow]
  have hx0 : row (iblk m c 0 t : Vec Ideal S2048x32 .f32) p = row (A m c main_arg0) (KV.row t p) :=
    funext fun k => (KV.blk_data_0 m c t p k).trans (congrFun (V_main_arg0 m c) _)
  have hx1 : row (iblk m c 1 t : Vec Ideal S2048x32 .f32) p = row (A m c main_arg1) (KV.row t p) :=
    funext fun k => (KV.blk_data_1 m c t p k).trans (congrFun (V_main_arg1 m c) _)
  have hx2 : row (iblk m c 2 t : Vec Ideal S2048x32 .f32) p = row (A m c main_arg2) (KV.row t p) :=
    funext fun k => (KV.blk_data_2 m c t p k).trans (congrFun (V_main_arg2 m c) _)
  have hk0 : row (iblk m c 3 t : Vec Ideal S2048x6 .f32) p ⟨3, by omega⟩ = A m c main_arg4 (ix1 (KV.row t p)) :=
    (KV.blk_data_3 m c t p ⟨3, by omega⟩).trans (hf.aux0 _)
  have hk1 : row (iblk m c 3 t : Vec Ideal S2048x6 .f32) p ⟨4, by omega⟩ = A m c main_arg5 (ix1 (KV.row t p)) :=
    (KV.blk_data_3 m c t p ⟨4, by omega⟩).trans (hf.aux1 _)
  have hk2 : row (iblk m c 3 t : Vec Ideal S2048x6 .f32) p ⟨5, by omega⟩ = A m c main_arg6 (ix1 (KV.row t p)) :=
    (KV.blk_data_3 m c t p ⟨5, by omega⟩).trans (hf.aux2 _)
  have hvw : (fun k : Fin 3 => row (iblk m c 3 t : Vec Ideal S2048x6 .f32) p ⟨k.val, by omega⟩) = row (A m c main_arg3) (KV.row t p) :=
    funext fun k => (KV.blk_data_3 m c t p ⟨k.val, by omega⟩).trans (hf.auxv _ k)
  have hthird : ∀ b, third e96 (row (feat (iblk m c 0 t) (iblk m c 1 t) (iblk m c 2 t)) p) b
      = row (sel3 (A m c main_arg0 : S1048576x32.Idx → EReal) (A m c main_arg1) (A m c main_arg2) b) (KV.row t p) := by
    intro b
    rw [feat_third]
    match b with
    | ⟨0, _⟩ => exact hx0
    | ⟨1, _⟩ => exact hx1
    | ⟨2, _⟩ => exact hx2
  have rX : IsReal (row (feat (iblk m c 0 t) (iblk m c 1 t) (iblk m c 2 t)) p) := by
    refine isReal_of_thirds e96 (by norm_num) _ (fun b => ?_)
    rw [hthird b]
    exact fun k => isReal_sel3 _ _ _ hr.x0 hr.x1 hr.x2 b (ix2 (KV.row t p) k)
  have w4 : BlockDiag (iblk m c 4 t : Vec Ideal S96x192 .bf16) (A m c main_arg7) (A m c main_arg14) (A m c main_arg21) := by
    rw [KV.blk_weight_4]; exact hf.w74
  have w5 : BlockDiag (iblk m c 5 t : Vec Ideal S192x192 .bf16) (A m c main_arg8) (A m c main_arg15) (A m c main_arg22) := by
    rw [KV.blk_weight_5]; exact hf.w75
  have w6 : BlockDiag (iblk m c 6 t : Vec Ideal S192x51 .bf16) (A m c main_arg9) (A m c main_arg16) (A m c main_arg23) := by
    rw [KV.blk_weight_6]; exact hf.w76
  have w7 : GeoForm (iblk m c 7 t : Vec Ideal S51x192 .bf16) (A m c main_arg10) (A m c main_arg17) (A m c main_arg24) := by
    rw [KV.blk_weight_7]; exact hf.w77
  have w8 : ViewForm (iblk m c 8 t : Vec Ideal S3x192 .bf16) (A m c main_arg10) := by
    rw [KV.blk_weight_8]; exact hf.w78
  have w9 : BlockDiag (iblk m c 9 t : Vec Ideal S192x192 .bf16) (A m c main_arg11) (A m c main_arg18) (A m c main_arg25) := by
    rw [KV.blk_weight_9]; exact hf.w79
  have w10 : BlockDiag (iblk m c 10 t : Vec Ideal S192x192 .bf16) (A m c main_arg12) (A m c main_arg19) (A m c main_arg26) := by
    rw [KV.blk_weight_10]; exact hf.w80
  have w11 : BlockDiag (iblk m c 11 t : Vec Ideal S192x9 .bf16) (A m c main_arg13) (A m c main_arg20) (A m c main_arg27) := by
    rw [KV.blk_weight_11]; exact hf.w81
  have key := kRow_eq (row (feat (iblk m c 0 t) (iblk m c 1 t) (iblk m c 2 t)) p) (row (iblk m c 3 t : Vec Ideal S2048x6 .f32) p)
    (iblk m c 4 t : Vec Ideal S96x192 .bf16) (iblk m c 5 t : Vec Ideal S192x192 .bf16) (iblk m c 6 t : Vec Ideal S192x51 .bf16)
    (iblk m c 7 t : Vec Ideal S51x192 .bf16) (iblk m c 8 t : Vec Ideal S3x192 .bf16) (iblk m c 9 t : Vec Ideal S192x192 .bf16)
    (iblk m c 10 t : Vec Ideal S192x192 .bf16) (iblk m c 11 t : Vec Ideal S192x9 .bf16)
    (A m c main_arg7) (A m c main_arg14) (A m c main_arg21) (A m c main_arg8) (A m c main_arg15) (A m c main_arg22)
    (A m c main_arg9) (A m c main_arg16) (A m c main_arg23) (A m c main_arg10) (A m c main_arg17) (A m c main_arg24)
    (A m c main_arg11) (A m c main_arg18) (A m c main_arg25) (A m c main_arg12) (A m c main_arg19) (A m c main_arg26)
    (A m c main_arg13) (A m c main_arg20) (A m c main_arg27)
    w4 w5 w6 w7 w8 w9 w10 w11 rX hr.s00 hr.s01 hr.s02 hr.s10 hr.s11 hr.s12 hr.s20 hr.s21 hr.s22 q
  refine key.trans ?_
  have e0 : brH (row (feat (iblk m c 0 t) (iblk m c 1 t) (iblk m c 2 t)) p) (A m c main_arg7) (A m c main_arg14) (A m c main_arg21)
      (A m c main_arg8) (A m c main_arg15) (A m c main_arg22) (A m c main_arg9) (A m c main_arg16) (A m c main_arg23) 0
      = sigmaNet (row (A m c main_arg0) (KV.row t p)) (A m c main_arg7) (A m c main_arg8) (A m c main_arg9) := by
    unfold brH; rw [hthird 0]; rfl
  have e1 : brH (row (feat (iblk m c 0 t) (iblk m c 1 t) (iblk m c 2 t)) p) (A m c main_arg7) (A m c main_arg14) (A m c main_arg21)
      (A m c main_arg8) (A m c main_arg15) (A m c main_arg22) (A m c main_arg9) (A m c main_arg16) (A m c main_arg23) 1
      = sigmaNet (row (A m c main_arg1) (KV.row t p)) (A m c main_arg14) (A m c main_arg15) (A m c main_arg16) := by
    unfold brH; rw [hthird 1]; rfl
  have e2 : brH (row (feat (iblk m c 0 t) (iblk m c 1 t) (iblk m c 2 t)) p) (A m c main_arg7) (A m c main_arg14) (A m c main_arg21)
      (A m c main_arg8) (A m c main_arg15) (A m c main_arg22) (A m c main_arg9) (A m c main_arg16) (A m c main_arg23) 2
      = sigmaNet (row (A m c main_arg2) (KV.row t p)) (A m c main_arg21) (A m c main_arg22) (A m c main_arg23) := by
    unfold brH; rw [hthird 2]; rfl
  rw [e0, e1, e2, hk0, hk1, hk2, hvw]
  rfl

end Cert.KernelIdeal.KG

end
-- ==== Proof.Finite.lean ====
/-
  From the precondition to real entries. The precondition is the conjunction, over the 28 float arguments, of
  "every entry's absolute value is below +infinity" (each an all-reduction by `and` of a comparison); on the extended
  reals an entry whose absolute value is below the top element is a real number.
-/
import proofs.«149636_j70153995813579_2_alg».proof.Defs
import proofs.«149636_j70153995813579_2_alg».proof.Proof.KernelRow
import Idealize.ShloMosaic.Lib.ReduceAll
import Idealize.ShloMosaic.Lib.Affine
import Idealize.ShloMosaic.PureOps.Ideal.Laws

noncomputable section

namespace Cert.KernelIdeal.Finite

open Idealize.ShloMosaic Idealize.ShloMosaic.ValueIdx Cert.Field

instance : Subsingleton (⟨0, ![]⟩ : Shape).Idx := ⟨fun a b => funext fun d => d.elim0⟩

/-- The single-precision +infinity word denotes the top element. -/
theorem top_bits : Ideal.ofBits .f32 0x7F800000#32 = (⊤ : EReal) := by simp [Ideal.ofBits, Ideal.ieee]

/-- An extended real whose absolute value is below the top element is a real number. -/
theorem real_of_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have h' : Ideal.cmp .olt (max x (-x)) (⊤ : EReal) = 1#1 := by rw [← top_bits]; exact h
  induction x using EReal.rec
  · simp [Ideal.cmp] at h'
  · exact ⟨_, rfl⟩
  · simp [Ideal.cmp] at h'

/-- An array all of whose entries have absolute value below +infinity has real entries. -/
theorem isReal_of_all {s : Shape} {axes : List (Fin s.rank)} (x : FVec Ideal s .f32)
    (bc : (⟨0, ![]⟩ : Shape).BroadcastsInDim s (![] : Fin 0 → Fin s.rank)) (hred : s.ReducesTo axes ⟨0, ![]⟩)
    (hu : 0 < (⟨0, ![]⟩ : Shape).numel)
    (e : Host.reduce IntOp.andi (cmpf .olt (Host.absf x) (broadcastInDim s ![] bc (constant (F := Ideal) ⟨0, ![]⟩ .f32 0x7F800000#32)))
      (constantI ⟨0, ![]⟩ 1 1#1) hred hu ix0 = 1#1) : IsReal x := by
  intro i
  exact real_of_lt (x i) (Host.reduce_andi_all _ _ hred hu ix0 e i)

open Cert.Pre_finite_inputs in
/-- The printed precondition gives real entries of every float argument (stated for the ones used). -/
theorem decode [Cert.Pre_finite_inputs.Facts] (a0 a1 a2 : FVec Ideal S1048576x32 .f32) (a3 : FVec Ideal S1048576x3 .f32) (a4 a5 a6 : FVec Ideal S1048576 .f32)
    (a7 : FVec Ideal S32x64 .f32) (a8 : FVec Ideal S64x64 .f32) (a9 : FVec Ideal S64x17 .f32) (a10 : FVec Ideal S18x64 .f32)
    (a11 a12 : FVec Ideal S64x64 .f32) (a13 : FVec Ideal S64x3 .f32)
    (a14 : FVec Ideal S32x64 .f32) (a15 : FVec Ideal S64x64 .f32) (a16 : FVec Ideal S64x17 .f32) (a17 : FVec Ideal S15x64 .f32)
    (a18 a19 : FVec Ideal S64x64 .f32) (a20 : FVec Ideal S64x3 .f32)
    (a21 : FVec Ideal S32x64 .f32) (a22 : FVec Ideal S64x64 .f32) (a23 : FVec Ideal S64x17 .f32) (a24 : FVec Ideal S15x64 .f32)
    (a25 a26 : FVec Ideal S64x64 .f32) (a27 : FVec Ideal S64x3 .f32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    IsReal a0 ∧ IsReal a1 ∧ IsReal a2 ∧ IsReal a7 ∧ IsReal a8 ∧ IsReal a9 ∧ IsReal a14 ∧ IsReal a15 ∧ IsReal a16
      ∧ IsReal a21 ∧ IsReal a22 ∧ IsReal a23 := by
  have e := congrFun h ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7,
    Cert.Pre_finite_inputs.fn_part8, Idealize.ShloMosaic.andi] at e
  simp only [IntOp.andi_eq_one] at e
  obtain ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ := e
  exact ⟨isReal_of_all a0 _ _ _ h0, isReal_of_all a1 _ _ _ h1, isReal_of_all a2 _ _ _ h2, isReal_of_all a7 _ _ _ h7,
    isReal_of_all a8 _ _ _ h8, isReal_of_all a9 _ _ _ h9, isReal_of_all a14 _ _ _ h14, isReal_of_all a15 _ _ _ h15,
    isReal_of_all a16 _ _ _ h16, isReal_of_all a21 _ _ _ h21, isReal_of_all a22 _ _ _ h22, isReal_of_all a23 _ _ _ h23⟩

end Cert.KernelIdeal.Finite

end
-- ==== Proof.HostArrays.lean ====
/-
  The weight matrices the host line builds before the region, read entry by entry.

  Before the region the program glues the weight arguments and blocks of zeros into larger matrices (pieces side by
  side, then bands one over the other) and changes their format (the identity on the extended reals). Each theorem
  here reads one of the six block-diagonal matrices at explicit coordinates: the b-th weight matrix in block (b, b)
  and zero in every other block.

  How a matrix is read off the line of operations: the line is cut before the first operation that builds the matrix;
  the operations before the cut write no argument array, so the contents they leave agree with the launch contents on
  the arguments; the operations after the cut are unfolded one by one at the matrix's reference.
-/
import proofs.«149636_j70153995813579_2_alg».proof.Proof.Gen.KernelIdeal.Launch
import proofs.«149636_j70153995813579_2_alg».proof.Proof.FrameIdealArgs
import proofs.«149636_j70153995813579_2_alg».proof.Proof.Blocks
import proofs.«149636_j70153995813579_2_alg».proof.Proof.LibGrid
import Idealize.ShloMosaic.Lib.Tactic

set_option maxRecDepth 16384

noncomputable section

namespace Cert.KernelIdeal.HostArrays

open Idealize.ShloMosaic Idealize.ShloMosaic.TcCoe Idealize.ShloMosaic.Tactic
open Idealize.ShloMosaic.ValueIdx Idealize.ShloMosaic.StableHlo Idealize.ShloMosaic.Pipeline
open Cert.Field

/-! ## A line of host operations at one reference -/

/-- Two lines run one after the other: the second from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Unfolds a line of host operations at one reference: each operation's result at its own result buffer is its
    function's value at its operands' contents, at any other reference what was there. An operation of several
    operands lists them as a literal vector; reading that vector at each literal position names the operand again.
    The chain down to the first operation of several operands is unfolded in one pass that visits each shared part
    once; below it (inside a concatenation's list of pieces) one rewrite at a time. -/
macro "host_results" : tactic =>
  `(tactic| (simp only [after_cons, after_nil]
             try (simp (disch := decide) only [
               nullary_result', unary_result', binary_result', nary_result',
               nullary_result_ne', unary_result_ne', binary_result_ne', nary_result_ne', Matrix.cons_val])
             repeat (first
               | rw [nullary_result] | rw [unary_result] | rw [binary_result]
               | (rw [nary_result]; dsimp only [Matrix.cons_val])
               | (rw [nullary_result_ne]; rotate_left; decide)
               | (rw [unary_result_ne]; rotate_left; decide)
               | (rw [binary_result_ne]; rotate_left; decide)
               | (rw [nary_result_ne]; rotate_left; decide))))

/-! ## Zero blocks and block-diagonal arrangements -/

/-- A broadcast of the zero constant is zero at every index. -/
theorem zeros_apply {t : Shape} (h : S_.BroadcastsInDim t (![] : Fin 0 → Fin t.rank)) (i : t.Idx) :
    (broadcastInDim t ![] h (constant (F := Ideal) S_ .f32 0x00000000#32) : t.Idx → EReal) i = 0 := by
  unfold broadcastInDim constant
  simp [Ideal.ofBits, Ideal.ieee]

/-- Three bands of three pieces, the diagonal pieces three matrices and the others zero, read at
    (r * b + k, c * b' + n): the block-diagonal arrangement's block (b, b') at (k, n). -/
theorem blockdiag_apply {r c R C : Nat} (A0 A1 A2 Z01 Z02 Z10 Z12 Z20 Z21 : Arr r c)
    (h01 : ∀ i, Z01 i = 0) (h02 : ∀ i, Z02 i = 0) (h10 : ∀ i, Z10 i = 0) (h12 : ∀ i, Z12 i = 0) (h20 : ∀ i, Z20 i = 0) (h21 : ∀ i, Z21 i = 0)
    (h0 h1 h2 : Shape.Concatenates [(⟨2, ![r, c]⟩ : Shape), ⟨2, ![r, c]⟩, ⟨2, ![r, c]⟩] ⟨2, ![r, C]⟩ 1)
    (h : Shape.Concatenates [(⟨2, ![r, C]⟩ : Shape), ⟨2, ![r, C]⟩, ⟨2, ![r, C]⟩] ⟨2, ![R, C]⟩ 0)
    (b b' : Fin 3) (k : Fin r) (n : Fin c) (j : Fin R) (n' : Fin C)
    (hj : r * b.val + k.val = j.val) (hn : c * b'.val + n.val = n'.val) :
    concatenate ⟨2, ![R, C]⟩ 0
      [⟨⟨2, ![r, C]⟩, concatenate ⟨2, ![r, C]⟩ 1 [⟨⟨2, ![r, c]⟩, A0⟩, ⟨⟨2, ![r, c]⟩, Z01⟩, ⟨⟨2, ![r, c]⟩, Z02⟩] h0⟩,
       ⟨⟨2, ![r, C]⟩, concatenate ⟨2, ![r, C]⟩ 1 [⟨⟨2, ![r, c]⟩, Z10⟩, ⟨⟨2, ![r, c]⟩, A1⟩, ⟨⟨2, ![r, c]⟩, Z12⟩] h1⟩,
       ⟨⟨2, ![r, C]⟩, concatenate ⟨2, ![r, C]⟩ 1 [⟨⟨2, ![r, c]⟩, Z20⟩, ⟨⟨2, ![r, c]⟩, Z21⟩, ⟨⟨2, ![r, c]⟩, A2⟩] h2⟩] h (ix2 j n')
    = diag3 A0 A1 A2 b b' (ix2 k n) := by
  refine (Cert.LibGrid.grid3_apply (fun b b' => (![![A0, Z01, Z02], ![Z10, A1, Z12], ![Z20, Z21, A2]] b) b') h0 h1 h2 h b b' k n j n' hj hn).trans ?_
  fin_cases b <;> fin_cases b' <;> simp [diag3, h01, h02, h10, h12, h20, h21]

/-! ## The arrays as the region finds them -/

variable (m : (ℓ : Loc nD τ sig) → Buf (Elt Ideal) ℓ) (c : Dev nD)

/-- The device's buffers when the region is entered: the launch contents carried through the host operations. -/
abbrev Vh (b : Ref sig .tc) : Buf (Elt Ideal) ((c : Thread nD τ).loc b) :=
  StableHlo.after (Gen.hostOps0 (F := Ideal)) (fun b => m (c, b)) b
/-- An argument array as launched. -/
abbrev A (b : Ref sig .tc) := m ((c : Thread nD τ).loc b)

/-- The line cut after its first k operations. -/
theorem after_split (k : Nat) (V : Valuation τ sig (Elt Ideal)) :
    after (Gen.hostOps0 (F := Ideal)) V = after (List.drop k (Gen.hostOps0 (F := Ideal))) (after (List.take k (Gen.hostOps0 (F := Ideal))) V) := by
  rw [← after_append, List.take_append_drop]

/-- The first k operations write none of the references outside the list of results: an argument array is still as
    launched after them. -/
theorem prefix_arg (k : Nat) (r : Ref sig .tc) (hr : r ∉ Fr.hostW) :
    after (List.take k (Gen.hostOps0 (F := Ideal))) (fun b => m (c, b)) (Proc.devRef .tc r) = m (c, Proc.devRef .tc r) :=
  after_of_writes_sub _ _ (List.forall_iff_forall_mem.mpr fun op hop =>
    List.forall_iff_forall_mem.mp Fr.hostOps0_writes op (List.mem_of_mem_take hop)) hr

set_option maxHeartbeats 4000000 in
/-- The first density layer's fused weight [96, 192]: blocks 32 x 64. -/
theorem v74_apply (b b' : Fin 3) (k : Fin 32) (n : Fin 64) (j : Fin 96) (n' : Fin 192)
    (hj : 32 * b.val + k.val = j.val) (hn : 64 * b'.val + n.val = n'.val) :
    Vh m c main_v74 (ix2 j n') = diag3 (A m c main_arg7) (A m c main_arg14) (A m c main_arg21) b b' (ix2 k n) := by
  have hA := prefix_arg m c 0 main_arg7 (by decide)
  have hB := prefix_arg m c 0 main_arg14 (by decide)
  have hC := prefix_arg m c 0 main_arg21 (by decide)
  dsimp only [Vh]
  rw [after_split 0]
  generalize after (List.take 0 (Gen.hostOps0 (F := Ideal))) (fun b => m (c, b)) = V' at hA hB hC ⊢
  simp only [Gen.hostOps0, List.drop_succ_cons, List.drop_zero]
  host_results
  rw [hA, hB, hC, truncf_apply]
  exact blockdiag_apply _ _ _ _ _ _ _ _ _ (zeros_apply _) (zeros_apply _) (zeros_apply _) (zeros_apply _) (zeros_apply _) (zeros_apply _)
    _ _ _ _ b b' k n j n' hj hn

set_option maxHeartbeats 4000000 in
/-- The second density layer's fused weight [192, 192]: blocks 64 x 64. -/
theorem v75_apply (b b' : Fin 3) (k : Fin 64) (n : Fin 64) (j : Fin 192) (n' : Fin 192)
    (hj : 64 * b.val + k.val = j.val) (hn : 64 * b'.val + n.val = n'.val) :
    Vh m c main_v75 (ix2 j n') = diag3 (A m c main_arg8) (A m c main_arg15) (A m c main_arg22) b b' (ix2 k n) := by
  have hA := prefix_arg m c 16 main_arg8 (by decide)
  have hB := prefix_arg m c 16 main_arg15 (by decide)
  have hC := prefix_arg m c 16 main_arg22 (by decide)
  dsimp only [Vh]
  rw [after_split 16]
  generalize after (List.take 16 (Gen.hostOps0 (F := Ideal))) (fun b => m (c, b)) = V' at hA hB hC ⊢
  simp only [Gen.hostOps0, List.drop_succ_cons, List.drop_zero]
  host_results
  rw [hA, hB, hC, truncf_apply]
  exact blockdiag_apply _ _ _ _ _ _ _ _ _ (zeros_apply _) (zeros_apply _) (zeros_apply _) (zeros_apply _) (zeros_apply _) (zeros_apply _)
    _ _ _ _ b b' k n j n' hj hn

set_option maxHeartbeats 4000000 in
/-- The third density layer's fused weight [192, 51]: blocks 64 x 17. -/
theorem v76_apply (b b' : Fin 3) (k : Fin 64) (n : Fin 17) (j : Fin 192) (n' : Fin 51)
    (hj : 64 * b.val + k.val = j.val) (hn : 17 * b'.val + n.val = n'.val) :
    Vh m c main_v76 (ix2 j n') = diag3 (A m c main_arg9) (A m c main_arg16) (A m c main_arg23) b b' (ix2 k n) := by
  have hA := prefix_arg m c 32 main_arg9 (by decide)
  have hB := prefix_arg m c 32 main_arg16 (by decide)
  have hC := prefix_arg m c 32 main_arg23 (by decide)
  dsimp only [Vh]
  rw [after_split 32]
  generalize after (List.take 32 (Gen.hostOps0 (F := Ideal))) (fun b => m (c, b)) = V' at hA hB hC ⊢
  simp only [Gen.hostOps0, List.drop_succ_cons, List.drop_zero]
  host_results
  rw [hA, hB, hC, truncf_apply]
  exact blockdiag_apply _ _ _ _ _ _ _ _ _ (zeros_apply _) (zeros_apply _) (zeros_apply _) (zeros_apply _) (zeros_apply _) (zeros_apply _)
    _ _ _ _ b b' k n j n' hj hn

set_option maxHeartbeats 4000000 in
/-- The second colour layer's fused weight [192, 192]: blocks 64 x 64. -/
theorem v79_apply (b b' : Fin 3) (k : Fin 64) (n : Fin 64) (j : Fin 192) (n' : Fin 192)
    (hj : 64 * b.val + k.val = j.val) (hn : 64 * b'.val + n.val = n'.val) :
    Vh m c main_v79 (ix2 j n') = diag3 (A m c main_arg11) (A m c main_arg18) (A m c main_arg25) b b' (ix2 k n) := by
  have hA := prefix_arg m c 48 main_arg11 (by decide)
  have hB := prefix_arg m c 48 main_arg18 (by decide)
  have hC := prefix_arg m c 48 main_arg25 (by decide)
  dsimp only [Vh]
  rw [after_split 48]
  generalize after (List.take 48 (Gen.hostOps0 (F := Ideal))) (fun b => m (c, b)) = V' at hA hB hC ⊢
  simp only [Gen.hostOps0, List.drop_succ_cons, List.drop_zero]
  host_results
  rw [hA, hB, hC, truncf_apply]
  exact blockdiag_apply _ _ _ _ _ _ _ _ _ (zeros_apply _) (zeros_apply _) (zeros_apply _) (zeros_apply _) (zeros_apply _) (zeros_apply _)
    _ _ _ _ b b' k n j n' hj hn

set_option maxHeartbeats 4000000 in
/-- The third colour layer's fused weight [192, 192]: blocks 64 x 64. -/
theorem v80_apply (b b' : Fin 3) (k : Fin 64) (n : Fin 64) (j : Fin 192) (n' : Fin 192)
    (hj : 64 * b.val + k.val = j.val) (hn : 64 * b'.val + n.val = n'.val) :
    Vh m c main_v80 (ix2 j n') = diag3 (A m c main_arg12) (A m c main_arg19) (A m c main_arg26) b b' (ix2 k n) := by
  have hA := prefix_arg m c 64 main_arg12 (by decide)
  have hB := prefix_arg m c 64 main_arg19 (by decide)
  have hC := prefix_arg m c 64 main_arg26 (by decide)
  dsimp only [Vh]
  rw [after_split 64]
  generalize after (List.take 64 (Gen.hostOps0 (F := Ideal))) (fun b => m (c, b)) = V' at hA hB hC ⊢
  simp only [Gen.hostOps0, List.drop_succ_cons, List.drop_zero]
  host_results
  rw [hA, hB, hC, truncf_apply]
  exact blockdiag_apply _ _ _ _ _ _ _ _ _ (zeros_apply _) (zeros_apply _) (zeros_apply _) (zeros_apply _) (zeros_apply _) (zeros_apply _)
    _ _ _ _ b b' k n j n' hj hn

set_option maxHeartbeats 4000000 in
/-- The last colour layer's fused weight [192, 9]: blocks 64 x 3. -/
theorem v81_apply (b b' : Fin 3) (k : Fin 64) (n : Fin 3) (j : Fin 192) (n' : Fin 9)
    (hj : 64 * b.val + k.val = j.val) (hn : 3 * b'.val + n.val = n'.val) :
    Vh m c main_v81 (ix2 j n') = diag3 (A m c main_arg13) (A m c main_arg20) (A m c main_arg27) b b' (ix2 k n) := by
  have hA := prefix_arg m c 80 main_arg13 (by decide)
  have hB := prefix_arg m c 80 main_arg20 (by decide)
  have hC := prefix_arg m c 80 main_arg27 (by decide)
  dsimp only [Vh]
  rw [after_split 80]
  generalize after (List.take 80 (Gen.hostOps0 (F := Ideal))) (fun b => m (c, b)) = V' at hA hB hC ⊢
  simp only [Gen.hostOps0, List.drop_succ_cons, List.drop_zero]
  host_results
  rw [hA, hB, hC, truncf_apply]
  exact blockdiag_apply _ _ _ _ _ _ _ _ _ (zeros_apply _) (zeros_apply _) (zeros_apply _) (zeros_apply _) (zeros_apply _) (zeros_apply _)
    _ _ _ _ b b' k n j n' hj hn

end Cert.KernelIdeal.HostArrays

end
-- ==== Proof.HostGeo.lean ====
/-
  The two fused first-layer colour weights the host line builds before the region, read at explicit coordinates: the
  view weight [3, 192] is rows 0..2 of the background's first colour weight in column block 0 and zero elsewhere; the
  geometry weight [51, 192] is, in row band b under two zero rows, the b-th branch's geometry rows in column block b and
  zero elsewhere.
-/
import proofs.«149636_j70153995813579_2_alg».proof.Proof.FrameIdeal
import proofs.«149636_j70153995813579_2_alg».proof.Proof.KernelRow
import proofs.«149636_j70153995813579_2_alg».proof.Proof.LibGrid
import Idealize.ShloMosaic.Lib.Tactic

set_option maxRecDepth 16384

noncomputable section

namespace Cert.KernelIdeal.HostGeo

open Idealize.ShloMosaic Idealize.ShloMosaic.TcCoe Idealize.ShloMosaic.Tactic
open Idealize.ShloMosaic.ValueIdx Idealize.ShloMosaic.StableHlo Idealize.ShloMosaic.Pipeline
open Cert.KernelIdeal Cert.KernelIdeal.Gen Cert.Field

section
variable {τ : Topo} {sig : RefSig} {Val : EltTy → Type}

/-- An operation of three operands listed as a literal vector: its result with each operand's contents at its own
    reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for two operands. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl
end

/-- A line of host operations read at one reference, in one pass. -/
macro "line_simp" : tactic =>
  `(tactic| (simp (disch := decide) only [after_cons, after_nil,
      nullary_result', unary_result', binary_result', nary2_result', nary3_result', nary4_result', nary_result',
      nullary_result_ne', unary_result_ne', binary_result_ne', nary_result_ne']))

/-- A broadcast of the zero constant is zero at every index. -/
theorem zeros_at {t : Shape} (h : S_.BroadcastsInDim t (![] : Fin 0 → Fin t.rank)) (i : t.Idx) :
    (broadcastInDim t ![] h (constant (F := Ideal) S_ .f32 0x00000000#32) : t.Idx → EReal) i = 0 := by
  unfold broadcastInDim constant
  simp [Ideal.ofBits, Ideal.ieee]

/-- A rectangle cut out of a matrix at offsets (o0, o1), at (a, b): the matrix at (o0 + a, o1 + b). -/
theorem slice2 {R C r c : Nat} {α : Type} (o0 o1 : Nat) (x : (⟨2, ![R, C]⟩ : Shape).Idx → α)
    (h : (⟨2, ![R, C]⟩ : Shape).Slices ![o0, o1] ⟨2, ![r, c]⟩) (a : Fin r) (b : Fin c) (ha : o0 + a.val < R) (hb : o1 + b.val < C) :
    extractStridedSlice ⟨2, ![r, c]⟩ ![o0, o1] x h (ix2 a b) = x (ix2 ⟨o0 + a.val, ha⟩ ⟨o1 + b.val, hb⟩) :=
  extractStridedSlice_apply ![o0, o1] x h (ix2 a b) (ix2 ⟨o0 + a.val, ha⟩ ⟨o1 + b.val, hb⟩) (fun d => by
    match d with
    | ⟨0, _⟩ => rfl
    | ⟨1, _⟩ => rfl)

variable (m : (ℓ : Loc nD τ sig) → Buf (Elt Ideal) ℓ) (c : Dev nD)

set_option maxHeartbeats 4000000 in
/-- The view weight as the region finds it. -/
theorem v78_eq :
    (Fr.V m c main_v78 : S3x192.Idx → EReal)
      = truncf .bf16 (concatenate S3x192 1 [⟨S3x64, extractStridedSlice S3x64 ![0, 0] (m ((c : Thread nD τ).loc main_arg10) : S18x64.Idx → EReal) slices_S18x64_S3x64_0_0⟩,
          ⟨S3x64, broadcastInDim S3x64 ![] bcast_S_S3x64 (constant (F := Ideal) S_ .f32 0x00000000#32)⟩,
          ⟨S3x64, broadcastInDim S3x64 ![] bcast_S_S3x64 (constant (F := Ideal) S_ .f32 0x00000000#32)⟩]
          concatenates_S3x64_S3x64_S3x64_S3x192_d1 : FVec Ideal S3x192 .f32) bitsLt_bf16_f32 := by
  dsimp only [Fr.V, Gen.hostOps0]
  line_simp
  rfl

theorem ix2_congr {n0 n1 : Nat} {a a' : Fin n0} {b b' : Fin n1} (ha : a.val = a'.val) (hb : b.val = b'.val) :
    ix2 a b = ix2 a' b' := by rw [Fin.ext ha, Fin.ext hb]

theorem v78_view : ViewForm (Fr.V m c main_v78 : S3x192.Idx → EReal) (m ((c : Thread nD τ).loc main_arg10) : S18x64.Idx → EReal) := by
  constructor
  · intro k n n' hn
    rw [v78_eq, truncf_apply]
    refine (Cert.LibGrid.cols_apply [⟨S3x64, _⟩, ⟨S3x64, _⟩, ⟨S3x64, _⟩] concatenates_S3x64_S3x64_S3x64_S3x192_d1 k n' 0 (by simp) 64 _ rfl 0 (by simp) n (by simpa using hn)).trans ?_
    refine (slice2 0 0 _ _ k n (by omega) (by omega)).trans ?_
    exact congrArg _ (ix2_congr (Nat.zero_add _) (Nat.zero_add _))
  · intro b' k n n' hb' hn
    rw [v78_eq, truncf_apply]
    have hb := b'.isLt
    have hbv : b'.val ≠ 0 := fun h => hb' (Fin.ext h)
    rcases Nat.lt_or_ge b'.val 2 with h2 | h2
    · exact (Cert.LibGrid.cols_apply [⟨S3x64, _⟩, ⟨S3x64, _⟩, ⟨S3x64, _⟩] concatenates_S3x64_S3x64_S3x64_S3x192_d1 k n' 1 (by simp) 64 _ rfl 64 (by simp) n (by omega)).trans (zeros_at _ _)
    · exact (Cert.LibGrid.cols_apply [⟨S3x64, _⟩, ⟨S3x64, _⟩, ⟨S3x64, _⟩] concatenates_S3x64_S3x64_S3x64_S3x192_d1 k n' 2 (by simp) 64 _ rfl 128 (by simp) n (by omega)).trans (zeros_at _ _)

/-! ## The geometry weight -/

/-- One 17-row band: two rows `Z2` over three [15, 64] pieces side by side, at (ρ, 64 b' + n). -/
theorem band_at (Z2 : S2x192.Idx → EReal) (P0 P1 P2 : S15x64.Idx → EReal) (ρ : Fin 17) (b' : Fin 3) (n : Fin 64) (n' : Fin 192)
    (hn : 64 * b'.val + n.val = n'.val) :
    concatenate S17x192 0 [⟨S2x192, Z2⟩, ⟨S15x192, concatenate S15x192 1 [⟨S15x64, P0⟩, ⟨S15x64, P1⟩, ⟨S15x64, P2⟩]
        concatenates_S15x64_S15x64_S15x64_S15x192_d1⟩] concatenates_S2x192_S15x192_S17x192_d0 (ix2 ρ n')
      = if h : 2 ≤ ρ.val then sel3 P0 P1 P2 b' (ix2 ⟨ρ.val - 2, by omega⟩ n) else Z2 (ix2 ⟨ρ.val, by omega⟩ n') := by
  by_cases h : 2 ≤ ρ.val
  · rw [dif_pos h]
    refine (Cert.LibGrid.rows_apply [⟨S2x192, _⟩, ⟨S15x192, _⟩] concatenates_S2x192_S15x192_S17x192_d0 ρ n' 1 (by simp) 15 _ rfl 2 (by simp)
      (⟨ρ.val - 2, by omega⟩ : Fin 15) (by simp; omega)).trans ?_
    match b', hn with
    | ⟨0, _⟩, hn => exact Cert.LibGrid.cols_apply [⟨S15x64, _⟩, ⟨S15x64, _⟩, ⟨S15x64, _⟩] concatenates_S15x64_S15x64_S15x64_S15x192_d1 _ n' 0 (by simp) 64 _ rfl 0 (by simp) n (by simpa using hn)
    | ⟨1, _⟩, hn => exact Cert.LibGrid.cols_apply [⟨S15x64, _⟩, ⟨S15x64, _⟩, ⟨S15x64, _⟩] concatenates_S15x64_S15x64_S15x64_S15x192_d1 _ n' 1 (by simp) 64 _ rfl 64 (by simp) n (by simpa using hn)
    | ⟨2, _⟩, hn => exact Cert.LibGrid.cols_apply [⟨S15x64, _⟩, ⟨S15x64, _⟩, ⟨S15x64, _⟩] concatenates_S15x64_S15x64_S15x64_S15x192_d1 _ n' 2 (by simp) 64 _ rfl 128 (by simp) n (by simpa using hn)
  · rw [dif_neg h]
    exact Cert.LibGrid.rows_apply [⟨S2x192, _⟩, ⟨S15x192, _⟩] concatenates_S2x192_S15x192_S17x192_d0 ρ n' 0 (by simp) 2 _ rfl 0 (by simp)
      (⟨ρ.val, by omega⟩ : Fin 2) (by simp)

/-- The zero blocks of the geometry weight. -/
abbrev Z15 : S15x64.Idx → EReal := broadcastInDim S15x64 ![] bcast_S_S15x64 (constant (F := Ideal) S_ .f32 0x00000000#32)
abbrev Z2r : S2x192.Idx → EReal := broadcastInDim S2x192 ![] bcast_S_S2x192 (constant (F := Ideal) S_ .f32 0x00000000#32)

/-- A 17-row band from its three pieces. -/
abbrev band (P0 P1 P2 : S15x64.Idx → EReal) : S17x192.Idx → EReal :=
  concatenate S17x192 0 [⟨S2x192, Z2r⟩, ⟨S15x192, concatenate S15x192 1 [⟨S15x64, P0⟩, ⟨S15x64, P1⟩, ⟨S15x64, P2⟩]
    concatenates_S15x64_S15x64_S15x64_S15x192_d1⟩] concatenates_S2x192_S15x192_S17x192_d0

set_option maxHeartbeats 4000000 in
/-- The geometry weight as the region finds it: three bands one over the other. -/
theorem v77_eq :
    (Fr.V m c main_v77 : S51x192.Idx → EReal)
      = truncf .bf16 (concatenate S51x192 0
          [⟨S17x192, band (extractStridedSlice S15x64 ![3, 0] (m ((c : Thread nD τ).loc main_arg10) : S18x64.Idx → EReal) slices_S18x64_S15x64_3_0) Z15 Z15⟩,
           ⟨S17x192, band Z15 (m ((c : Thread nD τ).loc main_arg17) : S15x64.Idx → EReal) Z15⟩,
           ⟨S17x192, band Z15 Z15 (m ((c : Thread nD τ).loc main_arg24) : S15x64.Idx → EReal)⟩]
          concatenates_S17x192_S17x192_S17x192_S51x192_d0 : FVec Ideal S51x192 .f32) bitsLt_bf16_f32 := by
  dsimp only [Fr.V, Gen.hostOps0]
  line_simp
  rfl

/-- The geometry weight at (17 b + ρ, 64 b' + n): band b at (ρ, 64 b' + n). -/
theorem v77_band (b : Fin 3) (ρ : Fin 17) (j : Fin 51) (n' : Fin 192) (hj : 17 * b.val + ρ.val = j.val) :
    (Fr.V m c main_v77 : S51x192.Idx → EReal) (ix2 j n')
      = sel3 (band (extractStridedSlice S15x64 ![3, 0] (m ((c : Thread nD τ).loc main_arg10) : S18x64.Idx → EReal) slices_S18x64_S15x64_3_0) Z15 Z15)
          (band Z15 (m ((c : Thread nD τ).loc main_arg17) : S15x64.Idx → EReal) Z15)
          (band Z15 Z15 (m ((c : Thread nD τ).loc main_arg24) : S15x64.Idx → EReal)) b (ix2 ρ n') := by
  rw [v77_eq, truncf_apply]
  match b, hj with
  | ⟨0, _⟩, hj => exact Cert.LibGrid.rows_apply [⟨S17x192, _⟩, ⟨S17x192, _⟩, ⟨S17x192, _⟩] concatenates_S17x192_S17x192_S17x192_S51x192_d0 j n' 0 (by simp) 17 _ rfl 0 (by simp) ρ (by simpa using hj)
  | ⟨1, _⟩, hj => exact Cert.LibGrid.rows_apply [⟨S17x192, _⟩, ⟨S17x192, _⟩, ⟨S17x192, _⟩] concatenates_S17x192_S17x192_S17x192_S51x192_d0 j n' 1 (by simp) 17 _ rfl 17 (by simp) ρ (by simpa using hj)
  | ⟨2, _⟩, hj => exact Cert.LibGrid.rows_apply [⟨S17x192, _⟩, ⟨S17x192, _⟩, ⟨S17x192, _⟩] concatenates_S17x192_S17x192_S17x192_S51x192_d0 j n' 2 (by simp) 17 _ rfl 34 (by simp) ρ (by simpa using hj)

theorem v77_geo : GeoForm (Fr.V m c main_v77 : S51x192.Idx → EReal) (m ((c : Thread nD τ).loc main_arg10) : S18x64.Idx → EReal)
    (m ((c : Thread nD τ).loc main_arg17) : S15x64.Idx → EReal) (m ((c : Thread nD τ).loc main_arg24) : S15x64.Idx → EReal) := by
  constructor
  · intro b ρ n j n' hj hn
    rw [v77_band m c b ⟨ρ.val + 2, by omega⟩ j n' (by show 17 * b.val + (ρ.val + 2) = j.val; omega)]
    match b, hn with
    | ⟨0, _⟩, hn =>
      refine (band_at _ _ _ _ ⟨ρ.val + 2, by omega⟩ ⟨0, by omega⟩ n n' hn).trans ?_
      rw [dif_pos (by simp)]
      show extractStridedSlice S15x64 ![3, 0] (m ((c : Thread nD τ).loc main_arg10) : S18x64.Idx → EReal) slices_S18x64_S15x64_3_0
          (ix2 (⟨ρ.val + 2 - 2, by omega⟩ : Fin 15) n) = geoW (m ((c : Thread nD τ).loc main_arg10) : S18x64.Idx → EReal) (ix2 ρ n)
      refine (slice2 3 0 _ slices_S18x64_S15x64_3_0 (⟨ρ.val + 2 - 2, by omega⟩ : Fin 15) n (by simp; omega) (by omega)).trans ?_
      exact congrArg _ (ix2_congr (by show 3 + (ρ.val + 2 - 2) = ρ.val + 3; omega) (by show 0 + n.val = n.val; omega))
    | ⟨1, _⟩, hn =>
      refine (band_at _ _ _ _ ⟨ρ.val + 2, by omega⟩ ⟨1, by omega⟩ n n' hn).trans ?_
      rw [dif_pos (by simp)]
      exact congrArg _ (ix2_congr (by simp) rfl)
    | ⟨2, _⟩, hn =>
      refine (band_at _ _ _ _ ⟨ρ.val + 2, by omega⟩ ⟨2, by omega⟩ n n' hn).trans ?_
      rw [dif_pos (by simp)]
      exact congrArg _ (ix2_congr (by simp) rfl)
  · intro b b' ρ n j n' hj hn hneg
    rw [v77_band m c b ρ j n' hj]
    by_cases h2 : 2 ≤ ρ.val
    · have hbb : b ≠ b' := fun e => hneg ⟨e, h2⟩
      match b, b', hn, hbb with
      | ⟨0, _⟩, ⟨0, _⟩, _, hbb => exact absurd rfl hbb
      | ⟨0, _⟩, ⟨1, _⟩, hn, _ => exact (band_at _ _ _ _ ρ ⟨1, by omega⟩ n n' hn).trans (by rw [dif_pos h2]; show Z15 _ = 0; exact zeros_at _ _)
      | ⟨0, _⟩, ⟨2, _⟩, hn, _ => exact (band_at _ _ _ _ ρ ⟨2, by omega⟩ n n' hn).trans (by rw [dif_pos h2]; show Z15 _ = 0; exact zeros_at _ _)
      | ⟨1, _⟩, ⟨0, _⟩, hn, _ => exact (band_at _ _ _ _ ρ ⟨0, by omega⟩ n n' hn).trans (by rw [dif_pos h2]; show Z15 _ = 0; exact zeros_at _ _)
      | ⟨1, _⟩, ⟨1, _⟩, _, hbb => exact absurd rfl hbb
      | ⟨1, _⟩, ⟨2, _⟩, hn, _ => exact (band_at _ _ _ _ ρ ⟨2, by omega⟩ n n' hn).trans (by rw [dif_pos h2]; show Z15 _ = 0; exact zeros_at _ _)
      | ⟨2, _⟩, ⟨0, _⟩, hn, _ => exact (band_at _ _ _ _ ρ ⟨0, by omega⟩ n n' hn).trans (by rw [dif_pos h2]; show Z15 _ = 0; exact zeros_at _ _)
      | ⟨2, _⟩, ⟨1, _⟩, hn, _ => exact (band_at _ _ _ _ ρ ⟨1, by omega⟩ n n' hn).trans (by rw [dif_pos h2]; show Z15 _ = 0; exact zeros_at _ _)
      | ⟨2, _⟩, ⟨2, _⟩, _, hbb => exact absurd rfl hbb
    · match b with
      | ⟨0, _⟩ => exact (band_at _ _ _ _ ρ b' n n' hn).trans (by rw [dif_neg h2]; exact zeros_at _ _)
      | ⟨1, _⟩ => exact (band_at _ _ _ _ ρ b' n n' hn).trans (by rw [dif_neg h2]; exact zeros_at _ _)
      | ⟨2, _⟩ => exact (band_at _ _ _ _ ρ b' n n' hn).trans (by rw [dif_neg h2]; exact zeros_at _ _)

end Cert.KernelIdeal.HostGeo

end
-- ==== Proof.HostAux.lean ====
/-
  The packed view/mask array [1048576, 6] the host line builds before the region, read by columns: columns 0..2 are
  the view directions, columns 3, 4, 5 the three masks (each a vector turned into a one-column array).
-/
import proofs.«149636_j70153995813579_2_alg».proof.Proof.FrameIdeal
import proofs.«149636_j70153995813579_2_alg».proof.Proof.LibGrid
import Idealize.ShloMosaic.Lib.Tactic

set_option maxRecDepth 16384

noncomputable section

namespace Cert.KernelIdeal.HostAux

open Idealize.ShloMosaic Idealize.ShloMosaic.TcCoe Idealize.ShloMosaic.Tactic
open Idealize.ShloMosaic.ValueIdx Idealize.ShloMosaic.StableHlo Idealize.ShloMosaic.Pipeline
open Cert.KernelIdeal Cert.KernelIdeal.Gen

variable (m : (ℓ : Loc nD τ sig) → Buf (Elt Ideal) ℓ) (c : Dev nD)

/-- A vector as a one-column array, at (R, 0): the vector at R. -/
theorem col_apply (x : S1048576.Idx → EReal) (R : Fin 1048576) :
    broadcastInDim S1048576x1 ![0] bcast_S1048576_S1048576x1_0 x (ix2 R (0 : Fin 1)) = x (ix1 R) :=
  broadcastInDim_apply ![0] bcast_S1048576_S1048576x1_0 x (ix2 R (0 : Fin 1)) (ix1 R) (fun a => by
    match a with
    | ⟨0, _⟩ => rfl)

set_option maxHeartbeats 4000000 in
/-- The packed array as the region finds it: the four pieces side by side. -/
theorem v85_eq :
    (Fr.V m c main_v85 : S1048576x6.Idx → EReal)
      = concatenate S1048576x6 1 [⟨S1048576x3, (m ((c : Thread nD τ).loc main_arg3) : S1048576x3.Idx → EReal)⟩,
          ⟨S1048576x1, broadcastInDim S1048576x1 ![0] bcast_S1048576_S1048576x1_0 (m ((c : Thread nD τ).loc main_arg4) : S1048576.Idx → EReal)⟩,
          ⟨S1048576x1, broadcastInDim S1048576x1 ![0] bcast_S1048576_S1048576x1_0 (m ((c : Thread nD τ).loc main_arg5) : S1048576.Idx → EReal)⟩,
          ⟨S1048576x1, broadcastInDim S1048576x1 ![0] bcast_S1048576_S1048576x1_0 (m ((c : Thread nD τ).loc main_arg6) : S1048576.Idx → EReal)⟩]
          concatenates_S1048576x3_S1048576x1_S1048576x1_S1048576x1_S1048576x6_d1 := by
  dsimp only [Fr.V, Gen.hostOps0]
  after_results_simp
  rfl

theorem auxv (R : Fin 1048576) (q : Fin 3) :
    (Fr.V m c main_v85 : S1048576x6.Idx → EReal) (ix2 R ⟨q.val, by omega⟩) = (m ((c : Thread nD τ).loc main_arg3) : S1048576x3.Idx → EReal) (ix2 R q) := by
  rw [v85_eq]
  exact Cert.LibGrid.cols_apply [⟨S1048576x3, _⟩, ⟨S1048576x1, _⟩, ⟨S1048576x1, _⟩, ⟨S1048576x1, _⟩] concatenates_S1048576x3_S1048576x1_S1048576x1_S1048576x1_S1048576x6_d1 R _ 0 (by simp) 3 _ rfl 0 (by simp) q (by simp)

theorem aux0 (R : Fin 1048576) :
    (Fr.V m c main_v85 : S1048576x6.Idx → EReal) (ix2 R ⟨3, by omega⟩) = (m ((c : Thread nD τ).loc main_arg4) : S1048576.Idx → EReal) (ix1 R) := by
  rw [v85_eq]
  exact (Cert.LibGrid.cols_apply [⟨S1048576x3, _⟩, ⟨S1048576x1, _⟩, ⟨S1048576x1, _⟩, ⟨S1048576x1, _⟩] concatenates_S1048576x3_S1048576x1_S1048576x1_S1048576x1_S1048576x6_d1 R _ 1 (by simp) 1 _ rfl 3 (by simp) (0 : Fin 1) (by simp)).trans (col_apply _ R)

theorem aux1 (R : Fin 1048576) :
    (Fr.V m c main_v85 : S1048576x6.Idx → EReal) (ix2 R ⟨4, by omega⟩) = (m ((c : Thread nD τ).loc main_arg5) : S1048576.Idx → EReal) (ix1 R) := by
  rw [v85_eq]
  exact (Cert.LibGrid.cols_apply [⟨S1048576x3, _⟩, ⟨S1048576x1, _⟩, ⟨S1048576x1, _⟩, ⟨S1048576x1, _⟩] concatenates_S1048576x3_S1048576x1_S1048576x1_S1048576x1_S1048576x6_d1 R _ 2 (by simp) 1 _ rfl 4 (by simp) (0 : Fin 1) (by simp)).trans (col_apply _ R)

theorem aux2 (R : Fin 1048576) :
    (Fr.V m c main_v85 : S1048576x6.Idx → EReal) (ix2 R ⟨5, by omega⟩) = (m ((c : Thread nD τ).loc main_arg6) : S1048576.Idx → EReal) (ix1 R) := by
  rw [v85_eq]
  exact (Cert.LibGrid.cols_apply [⟨S1048576x3, _⟩, ⟨S1048576x1, _⟩, ⟨S1048576x1, _⟩, ⟨S1048576x1, _⟩] concatenates_S1048576x3_S1048576x1_S1048576x1_S1048576x1_S1048576x6_d1 R _ 3 (by simp) 1 _ rfl 5 (by simp) (0 : Fin 1) (by simp)).trans (col_apply _ R)

end Cert.KernelIdeal.HostAux

end
-- ==== Proof.Facts.lean ====
/-
  The facts the kernel's value rests on, at the launch memory: the forms of the arrays the host line builds before the
  region, and — from the precondition — real entries of the features and of the density perceptrons' weights.
-/
import proofs.«149636_j70153995813579_2_alg».proof.Proof.KernelIsG
import proofs.«149636_j70153995813579_2_alg».proof.Proof.Finite
import proofs.«149636_j70153995813579_2_alg».proof.Proof.HostArrays
import proofs.«149636_j70153995813579_2_alg».proof.Proof.HostGeo
import proofs.«149636_j70153995813579_2_alg».proof.Proof.HostAux

noncomputable section

namespace Cert.KernelIdeal.KG

open Cert.KernelIdeal Cert.KernelIdeal.Gen Cert.Field
open Idealize.ShloMosaic Idealize.ShloMosaic.TcCoe Idealize.SL.Sem

theorem hostFacts (m : (ℓ : Loc nD τ sig) → Buf (Elt Ideal) ℓ) (c : Dev nD) : HostFacts m c where
  w74 := fun b b' k n j n' hj hn => HostArrays.v74_apply m c b b' k n j n' hj hn
  w75 := fun b b' k n j n' hj hn => HostArrays.v75_apply m c b b' k n j n' hj hn
  w76 := fun b b' k n j n' hj hn => HostArrays.v76_apply m c b b' k n j n' hj hn
  w77 := HostGeo.v77_geo m c
  w78 := HostGeo.v78_view m c
  w79 := fun b b' k n j n' hj hn => HostArrays.v79_apply m c b b' k n j n' hj hn
  w80 := fun b b' k n j n' hj hn => HostArrays.v80_apply m c b b' k n j n' hj hn
  w81 := fun b b' k n j n' hj hn => HostArrays.v81_apply m c b b' k n j n' hj hn
  auxv := HostAux.auxv m c
  aux0 := HostAux.aux0 m c
  aux1 := HostAux.aux1 m c
  aux2 := HostAux.aux2 m c

theorem realFacts [Cert.Pre_finite_inputs.Facts] (m : (ℓ : Loc nD τ sig) → Buf (Elt Ideal) ℓ) (hpre : Cert.Pre_KernelIdeal m)
    (c : Dev nD) : RealFacts m c := by
  obtain ⟨h0, h1, h2, h7, h8, h9, h14, h15, h16, h21, h22, h23⟩ := Finite.decode _ _ _ _ _ _ _ _ _ _ _ _ _ _ _ _ _ _ _ _ _ _ _ _ _ _ _ _ (hpre c)
  exact ⟨h0, h1, h2, h7, h14, h21, h8, h15, h22, h9, h16, h23⟩

end Cert.KernelIdeal.KG

end
-- ==== Proof.RefLib.lean ====
/-
  General steps for reading a perceptron, written as arrays over literal shapes, at an index: a bias-free dense layer,
  the rectifier against a broadcast zero, the softplus in its stable form, and the logistic function from its parts.
-/
import proofs.«149636_j70153995813579_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.Field

/-- A dense layer at an index: if the left operand's entry (a, k) is `v a k`, the product's entry (a, n) is the layer
    applied to the row `v a`. -/
theorem dense_step {M K N : Nat}
    (f : (⟨2, ![M, N]⟩ : Shape).Idx → EReal) (y : (⟨2, ![M, K]⟩ : Shape).Idx → EReal) (W : Arr K N)
    (v : Fin M → Fin K → EReal)
    (lidx : (⟨2, ![M, N]⟩ : Shape).Idx → Fin K → (⟨2, ![M, K]⟩ : Shape).Idx)
    (ridx : (⟨2, ![M, N]⟩ : Shape).Idx → Fin K → (⟨2, ![K, N]⟩ : Shape).Idx)
    (hl : ∀ i k, lidx i k = ix2 (i 0) k) (hr : ∀ i k, ridx i k = ix2 k (i 1))
    (happ : ∀ i, f i = ∑ k : Fin K, y (lidx i k) * W (ridx i k))
    (hy : ∀ j, y j = v (j 0) (j 1)) :
    ∀ i, f i = layer (v (i 0)) W (i 1) := by
  intro i
  rw [happ i]
  unfold layer
  refine Finset.sum_congr rfl fun k _ => ?_
  rw [hy, hl, hr]
  rfl

/-- The rectifier at an index: the maximum with an array that is zero everywhere. -/
theorem relu_step {M N : Nat} (f g z : (⟨2, ![M, N]⟩ : Shape).Idx → EReal) (v : Fin M → Fin N → EReal)
    (happ : ∀ i, f i = max (g i) (z i)) (hz : ∀ i, z i = Ideal.ofBits .f32 0x00000000#32)
    (hg : ∀ i, g i = v (i 0) (i 1)) : ∀ i, f i = reluV (v (i 0)) (i 1) := by
  intro i
  rw [happ, hz, hg, Ideal.ofBits_zero_f32]
  rfl

/-- The stable softplus as the program spells it: `d - 0` compared with itself is never unequal on the extended reals,
    so the selection takes the branch `max d 0 + log1p (exp (-|d - 0|))`. -/
theorem softplus_scalar (d z : EReal) (hz : z = Ideal.ofBits .f32 0x00000000#32) :
    Scalar.select (Ideal.cmp .une (d - z) (d - z)) (d + z)
      (max d z + Ideal.log1p (Ideal.exp (-(max (d - z) (-(d - z)))))) = softplus d := by
  subst hz
  rw [Ideal.ofBits_zero_f32]
  simp only [Ideal.cmp, ne_eq, not_true_eq_false, decide_false, BitVec.ofBool_false, Scalar.select, sub_zero]
  unfold softplus
  simp

/-- Two rank-2 indices with the same coordinates are equal. -/
macro "idx2" : tactic => `(tactic| exact funext fun a => Fin.ext (by match a with | ⟨0, _⟩ => rfl | ⟨1, _⟩ => rfl))

/-- The single-precision word of 1 is 1. -/
theorem ofBits_one_f32 : Ideal.ofBits .f32 0x3F800000#32 = 1 := by
  simp [Ideal.ofBits, Ideal.ieee, -EReal.coe_mul]; norm_num

/-- The logistic function from its parts: `1 / (1 + exp (-o))`. -/
theorem logistic_scalar (o a b : EReal) (ha : a = Ideal.ofBits .f32 0x3F800000#32) (hb : b = Ideal.ofBits .f32 0x3F800000#32) :
    Ideal.div b (a + Ideal.exp (-o)) = Ideal.logistic o := by
  subst ha hb
  rw [ofBits_one_f32]
  rfl

end Cert.ReferenceIdeal.RefValue

end
-- ==== Proof.RefSigmaBg.lean ====
/-
  The density perceptron of the background branch, layer by layer, read at an index: its output, the softplus of
  column 0 times the mask (the density) and columns 2..16 (the geometry features).
-/
import proofs.«149636_j70153995813579_2_alg».proof.Proof.Gen.ReferenceIdeal.Read
import proofs.«149636_j70153995813579_2_alg».proof.Proof.RefLib

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The first density layer. -/
theorem v0_eq (x0 : (⟨S1048576x32, .f32⟩ : BufTy).Contents (Elt Ideal)) (x7 : (⟨S32x64, .f32⟩ : BufTy).Contents (Elt Ideal)) : ∀ i, val_main_v0 (F := Ideal) x0 x7 i = layer (row x0 (i 0)) x7 (i 1) :=
  dense_step (M := 1048576) (K := 32) (N := 64) (val_main_v0 (F := Ideal) x0 x7) x0 x7 (row x0) lidx_main_v0 ridx_main_v0
    (fun i k => by idx2) (fun i k => by idx2) (val_main_v0_apply x0 x7) (fun j => congrArg x0 (eq_ix2 j))

theorem v1_eq (x0 : (⟨S1048576x32, .f32⟩ : BufTy).Contents (Elt Ideal)) (x7 : (⟨S32x64, .f32⟩ : BufTy).Contents (Elt Ideal)) : ∀ i, val_main_v1 (F := Ideal) x0 x7 i = reluV (layer (row x0 (i 0)) x7) (i 1) :=
  relu_step (M := 1048576) (N := 64) (val_main_v1 (F := Ideal) x0 x7) (val_main_v0 (F := Ideal) x0 x7) (val_main_call0_v0 (F := Ideal)) (fun a => layer (row x0 a) x7)
    (val_main_v1_apply (F := Ideal) x0 x7) (fun i => (val_main_call0_v0_apply (F := Ideal) i).trans (val_main_call0_cst_apply _)) (v0_eq x0 x7)

/-- The second density layer. -/
theorem v2_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) : ∀ i, val_main_v2 (F := Ideal) x0 x7 x8 i = layer (reluV (layer (row x0 (i 0)) x7)) x8 (i 1) :=
  dense_step (M := 1048576) (K := 64) (N := 64) (val_main_v2 (F := Ideal) x0 x7 x8) (val_main_v1 (F := Ideal) x0 x7) x8 (fun a => reluV (layer (row x0 a) x7)) lidx_main_v2 ridx_main_v2
    (fun i k => by idx2) (fun i k => by idx2) (val_main_v2_apply x0 x7 x8) (v1_eq x0 x7)

theorem v3_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) : ∀ i, val_main_v3 (F := Ideal) x0 x7 x8 i = reluV (layer (reluV (layer (row x0 (i 0)) x7)) x8) (i 1) :=
  relu_step (M := 1048576) (N := 64) (val_main_v3 (F := Ideal) x0 x7 x8) (val_main_v2 (F := Ideal) x0 x7 x8) (val_main_call1_v0 (F := Ideal)) (fun a => layer (reluV (layer (row x0 a) x7)) x8)
    (val_main_v3_apply (F := Ideal) x0 x7 x8) (fun i => (val_main_call1_v0_apply (F := Ideal) i).trans (val_main_call1_cst_apply _)) (v2_eq x0 x7 x8)

/-- The third density layer: the whole density perceptron. -/
theorem v4_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) : ∀ i, val_main_v4 (F := Ideal) x0 x7 x8 x9 i = sigmaNet (row x0 (i 0)) x7 x8 x9 (i 1) :=
  dense_step (M := 1048576) (K := 64) (N := 17) (val_main_v4 (F := Ideal) x0 x7 x8 x9) (val_main_v3 (F := Ideal) x0 x7 x8) x9 (fun a => reluV (layer (reluV (layer (row x0 a) x7)) x8)) lidx_main_v4 ridx_main_v4
    (fun i k => by idx2) (fun i k => by idx2) (val_main_v4_apply x0 x7 x8 x9) (v3_eq x0 x7 x8)

/-- Column 0 of the perceptron's output, as a vector over the rows. -/
theorem v6_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (i : S1048576.Idx) : val_main_v6 (F := Ideal) x0 x7 x8 x9 i = sigmaNet (row x0 (i 0)) x7 x8 x9 ⟨0, by omega⟩ := by
  rw [val_main_v6_apply, val_main_v5_apply, v4_eq]
  have e0 : (idx_main_v5 (idx_main_v6 i)) 0 = i 0 := Fin.ext (Nat.div_one _)
  rw [e0]
  rfl

/-- The softplus of column 0. -/
theorem v7_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (i : S1048576.Idx) : val_main_v7 (F := Ideal) x0 x7 x8 x9 i = softplus (sigmaNet (row x0 (i 0)) x7 x8 x9 ⟨0, by omega⟩) := by
  rw [← v6_eq x0 x7 x8 x9 i]
  exact softplus_scalar (val_main_v6 (F := Ideal) x0 x7 x8 x9 i) (val_main_call2_v0 (F := Ideal) i) ((val_main_call2_v0_apply (F := Ideal) i).trans (val_main_call2_cst_apply _))

/-- The branch's density. -/
theorem v8_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x4 : (⟨S1048576, .f32⟩ : BufTy).Contents (Elt Ideal)) (i : S1048576.Idx) :
    val_main_v8 (F := Ideal) x0 x4 x7 x8 x9 i = density (sigmaNet (row x0 (i 0)) x7 x8 x9) (x4 i) := by
  rw [val_main_v8_apply, v7_eq]
  rfl

/-- The geometry features: columns 2..16. -/
theorem v9_eq (x0 : (⟨S1048576x32, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (j : S1048576x15.Idx) : val_main_v9 (F := Ideal) x0 x7 x8 x9 j = geo (sigmaNet (row x0 (j 0)) x7 x8 x9) (j 1) := by
  rw [val_main_v9_apply, v4_eq]
  unfold geo
  have e1 : (idx_main_v9 j) 1 = ⟨(j 1).val + 2, by have := idx2_lt1 (n0 := 1048576) (n1 := 15) j; show (j 1).val + 2 < 17; omega⟩ := Fin.ext (Nat.add_comm _ _)
  rw [e1]
  rfl

end Cert.ReferenceIdeal.RefValue

end
-- ==== Proof.RefSigmaFg.lean ====
/-
  The density perceptron of the foreground branch, layer by layer, read at an index: its output, the softplus of
  column 0 times the mask (the density) and columns 2..16 (the geometry features).
-/
import proofs.«149636_j70153995813579_2_alg».proof.Proof.Gen.ReferenceIdeal.Read
import proofs.«149636_j70153995813579_2_alg».proof.Proof.RefLib

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The first density layer. -/
theorem v27_eq (x1 : (⟨S1048576x32, .f32⟩ : BufTy).Contents (Elt Ideal)) (x14 : (⟨S32x64, .f32⟩ : BufTy).Contents (Elt Ideal)) : ∀ i, val_main_v27 (F := Ideal) x1 x14 i = layer (row x1 (i 0)) x14 (i 1) :=
  dense_step (M := 1048576) (K := 32) (N := 64) (val_main_v27 (F := Ideal) x1 x14) x1 x14 (row x1) lidx_main_v27 ridx_main_v27
    (fun i k => by idx2) (fun i k => by idx2) (val_main_v27_apply x1 x14) (fun j => congrArg x1 (eq_ix2 j))

theorem v28_eq (x1 : (⟨S1048576x32, .f32⟩ : BufTy).Contents (Elt Ideal)) (x14 : (⟨S32x64, .f32⟩ : BufTy).Contents (Elt Ideal)) : ∀ i, val_main_v28 (F := Ideal) x1 x14 i = reluV (layer (row x1 (i 0)) x14) (i 1) :=
  relu_step (M := 1048576) (N := 64) (val_main_v28 (F := Ideal) x1 x14) (val_main_v27 (F := Ideal) x1 x14) (val_main_call6_v0 (F := Ideal)) (fun a => layer (row x1 a) x14)
    (val_main_v28_apply (F := Ideal) x1 x14) (fun i => (val_main_call6_v0_apply (F := Ideal) i).trans (val_main_call6_cst_apply _)) (v27_eq x1 x14)

/-- The second density layer. -/
theorem v29_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) : ∀ i, val_main_v29 (F := Ideal) x1 x14 x15 i = layer (reluV (layer (row x1 (i 0)) x14)) x15 (i 1) :=
  dense_step (M := 1048576) (K := 64) (N := 64) (val_main_v29 (F := Ideal) x1 x14 x15) (val_main_v28 (F := Ideal) x1 x14) x15 (fun a => reluV (layer (row x1 a) x14)) lidx_main_v29 ridx_main_v29
    (fun i k => by idx2) (fun i k => by idx2) (val_main_v29_apply x1 x14 x15) (v28_eq x1 x14)

theorem v30_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) : ∀ i, val_main_v30 (F := Ideal) x1 x14 x15 i = reluV (layer (reluV (layer (row x1 (i 0)) x14)) x15) (i 1) :=
  relu_step (M := 1048576) (N := 64) (val_main_v30 (F := Ideal) x1 x14 x15) (val_main_v29 (F := Ideal) x1 x14 x15) (val_main_call7_v0 (F := Ideal)) (fun a => layer (reluV (layer (row x1 a) x14)) x15)
    (val_main_v30_apply (F := Ideal) x1 x14 x15) (fun i => (val_main_call7_v0_apply (F := Ideal) i).trans (val_main_call7_cst_apply _)) (v29_eq x1 x14 x15)

/-- The third density layer: the whole density perceptron. -/
theorem v31_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) : ∀ i, val_main_v31 (F := Ideal) x1 x14 x15 x16 i = sigmaNet (row x1 (i 0)) x14 x15 x16 (i 1) :=
  dense_step (M := 1048576) (K := 64) (N := 17) (val_main_v31 (F := Ideal) x1 x14 x15 x16) (val_main_v30 (F := Ideal) x1 x14 x15) x16 (fun a => reluV (layer (reluV (layer (row x1 a) x14)) x15)) lidx_main_v31 ridx_main_v31
    (fun i k => by idx2) (fun i k => by idx2) (val_main_v31_apply x1 x14 x15 x16) (v30_eq x1 x14 x15)

/-- Column 0 of the perceptron's output, as a vector over the rows. -/
theorem v33_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (i : S1048576.Idx) : val_main_v33 (F := Ideal) x1 x14 x15 x16 i = sigmaNet (row x1 (i 0)) x14 x15 x16 ⟨0, by omega⟩ := by
  rw [val_main_v33_apply, val_main_v32_apply, v31_eq]
  have e0 : (idx_main_v32 (idx_main_v33 i)) 0 = i 0 := Fin.ext (Nat.div_one _)
  rw [e0]
  rfl

/-- The softplus of column 0. -/
theorem v34_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (i : S1048576.Idx) : val_main_v34 (F := Ideal) x1 x14 x15 x16 i = softplus (sigmaNet (row x1 (i 0)) x14 x15 x16 ⟨0, by omega⟩) := by
  rw [← v33_eq x1 x14 x15 x16 i]
  exact softplus_scalar (val_main_v33 (F := Ideal) x1 x14 x15 x16 i) (val_main_call8_v0 (F := Ideal) i) ((val_main_call8_v0_apply (F := Ideal) i).trans (val_main_call8_cst_apply _))

/-- The branch's density. -/
theorem v35_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x5 : (⟨S1048576, .f32⟩ : BufTy).Contents (Elt Ideal)) (i : S1048576.Idx) :
    val_main_v35 (F := Ideal) x1 x5 x14 x15 x16 i = density (sigmaNet (row x1 (i 0)) x14 x15 x16) (x5 i) := by
  rw [val_main_v35_apply, v34_eq]
  rfl

/-- The geometry features: columns 2..16. -/
theorem v36_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (j : S1048576x15.Idx) : val_main_v36 (F := Ideal) x1 x14 x15 x16 j = geo (sigmaNet (row x1 (j 0)) x14 x15 x16) (j 1) := by
  rw [val_main_v36_apply, v31_eq]
  unfold geo
  have e1 : (idx_main_v36 j) 1 = ⟨(j 1).val + 2, by have := idx2_lt1 (n0 := 1048576) (n1 := 15) j; show (j 1).val + 2 < 17; omega⟩ := Fin.ext (Nat.add_comm _ _)
  rw [e1]
  rfl

end Cert.ReferenceIdeal.RefValue

end
-- ==== Proof.RefSigmaAc.lean ====
/-
  The density perceptron of the actor branch, layer by layer, read at an index: its output, the softplus of
  column 0 times the mask (the density) and columns 2..16 (the geometry features).
-/
import proofs.«149636_j70153995813579_2_alg».proof.Proof.Gen.ReferenceIdeal.Read
import proofs.«149636_j70153995813579_2_alg».proof.Proof.RefLib

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The first density layer. -/
theorem v53_eq (x2 : (⟨S1048576x32, .f32⟩ : BufTy).Contents (Elt Ideal)) (x21 : (⟨S32x64, .f32⟩ : BufTy).Contents (Elt Ideal)) : ∀ i, val_main_v53 (F := Ideal) x2 x21 i = layer (row x2 (i 0)) x21 (i 1) :=
  dense_step (M := 1048576) (K := 32) (N := 64) (val_main_v53 (F := Ideal) x2 x21) x2 x21 (row x2) lidx_main_v53 ridx_main_v53
    (fun i k => by idx2) (fun i k => by idx2) (val_main_v53_apply x2 x21) (fun j => congrArg x2 (eq_ix2 j))

theorem v54_eq (x2 : (⟨S1048576x32, .f32⟩ : BufTy).Contents (Elt Ideal)) (x21 : (⟨S32x64, .f32⟩ : BufTy).Contents (Elt Ideal)) : ∀ i, val_main_v54 (F := Ideal) x2 x21 i = reluV (layer (row x2 (i 0)) x21) (i 1) :=
  relu_step (M := 1048576) (N := 64) (val_main_v54 (F := Ideal) x2 x21) (val_main_v53 (F := Ideal) x2 x21) (val_main_call12_v0 (F := Ideal)) (fun a => layer (row x2 a) x21)
    (val_main_v54_apply (F := Ideal) x2 x21) (fun i => (val_main_call12_v0_apply (F := Ideal) i).trans (val_main_call12_cst_apply _)) (v53_eq x2 x21)

/-- The second density layer. -/
theorem v55_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) : ∀ i, val_main_v55 (F := Ideal) x2 x21 x22 i = layer (reluV (layer (row x2 (i 0)) x21)) x22 (i 1) :=
  dense_step (M := 1048576) (K := 64) (N := 64) (val_main_v55 (F := Ideal) x2 x21 x22) (val_main_v54 (F := Ideal) x2 x21) x22 (fun a => reluV (layer (row x2 a) x21)) lidx_main_v55 ridx_main_v55
    (fun i k => by idx2) (fun i k => by idx2) (val_main_v55_apply x2 x21 x22) (v54_eq x2 x21)

theorem v56_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) : ∀ i, val_main_v56 (F := Ideal) x2 x21 x22 i = reluV (layer (reluV (layer (row x2 (i 0)) x21)) x22) (i 1) :=
  relu_step (M := 1048576) (N := 64) (val_main_v56 (F := Ideal) x2 x21 x22) (val_main_v55 (F := Ideal) x2 x21 x22) (val_main_call13_v0 (F := Ideal)) (fun a => layer (reluV (layer (row x2 a) x21)) x22)
    (val_main_v56_apply (F := Ideal) x2 x21 x22) (fun i => (val_main_call13_v0_apply (F := Ideal) i).trans (val_main_call13_cst_apply _)) (v55_eq x2 x21 x22)

/-- The third density layer: the whole density perceptron. -/
theorem v57_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) : ∀ i, val_main_v57 (F := Ideal) x2 x21 x22 x23 i = sigmaNet (row x2 (i 0)) x21 x22 x23 (i 1) :=
  dense_step (M := 1048576) (K := 64) (N := 17) (val_main_v57 (F := Ideal) x2 x21 x22 x23) (val_main_v56 (F := Ideal) x2 x21 x22) x23 (fun a => reluV (layer (reluV (layer (row x2 a) x21)) x22)) lidx_main_v57 ridx_main_v57
    (fun i k => by idx2) (fun i k => by idx2) (val_main_v57_apply x2 x21 x22 x23) (v56_eq x2 x21 x22)

/-- Column 0 of the perceptron's output, as a vector over the rows. -/
theorem v59_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (i : S1048576.Idx) : val_main_v59 (F := Ideal) x2 x21 x22 x23 i = sigmaNet (row x2 (i 0)) x21 x22 x23 ⟨0, by omega⟩ := by
  rw [val_main_v59_apply, val_main_v58_apply, v57_eq]
  have e0 : (idx_main_v58 (idx_main_v59 i)) 0 = i 0 := Fin.ext (Nat.div_one _)
  rw [e0]
  rfl

/-- The softplus of column 0. -/
theorem v60_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (i : S1048576.Idx) : val_main_v60 (F := Ideal) x2 x21 x22 x23 i = softplus (sigmaNet (row x2 (i 0)) x21 x22 x23 ⟨0, by omega⟩) := by
  rw [← v59_eq x2 x21 x22 x23 i]
  exact softplus_scalar (val_main_v59 (F := Ideal) x2 x21 x22 x23 i) (val_main_call14_v0 (F := Ideal) i) ((val_main_call14_v0_apply (F := Ideal) i).trans (val_main_call14_cst_apply _))

/-- The branch's density. -/
theorem v61_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x6 : (⟨S1048576, .f32⟩ : BufTy).Contents (Elt Ideal)) (i : S1048576.Idx) :
    val_main_v61 (F := Ideal) x2 x6 x21 x22 x23 i = density (sigmaNet (row x2 (i 0)) x21 x22 x23) (x6 i) := by
  rw [val_main_v61_apply, v60_eq]
  rfl

/-- The geometry features: columns 2..16. -/
theorem v62_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (j : S1048576x15.Idx) : val_main_v62 (F := Ideal) x2 x21 x22 x23 j = geo (sigmaNet (row x2 (j 0)) x21 x22 x23) (j 1) := by
  rw [val_main_v62_apply, v57_eq]
  unfold geo
  have e1 : (idx_main_v62 j) 1 = ⟨(j 1).val + 2, by have := idx2_lt1 (n0 := 1048576) (n1 := 15) j; show (j 1).val + 2 < 17; omega⟩ := Fin.ext (Nat.add_comm _ _)
  rw [e1]
  rfl

end Cert.ReferenceIdeal.RefValue

end
-- ==== Proof.RefColourBg.lean ====
/-
  The colour perceptron of the background branch, layer by layer, read at an index, then the logistic function and the mask.
-/
import proofs.«149636_j70153995813579_2_alg».proof.Proof.Gen.ReferenceIdeal.Read
import proofs.«149636_j70153995813579_2_alg».proof.Proof.RefLib
import proofs.«149636_j70153995813579_2_alg».proof.Proof.RefSigmaBg

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The joined array [view direction | geometry features] at a column of the view direction. -/
theorem v10_left (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (a : Fin 1048576) (k : Fin 3) :
    val_main_v10 (F := Ideal) x0 x3 x7 x8 x9 (ix2 (n0 := 1048576) (n1 := 18) a ⟨k.val, by omega⟩) = x3 (ix2 a k) := by
  unfold val_main_v10
  exact concatenate_pair_apply_left (t := S1048576x18) (s₁ := S1048576x3) (s₂ := S1048576x15) 1 x3 (val_main_v9 (F := Ideal) x0 x7 x8 x9)
    concatenates_S1048576x3_S1048576x15_S1048576x18_d1 (ix2 (n0 := 1048576) (n1 := 18) a ⟨k.val, by omega⟩) rfl (ix2 (n0 := 1048576) (n1 := 3) a k)
    (fun b => by match b with | ⟨0, _⟩ => rfl | ⟨1, _⟩ => rfl)

/-- The joined array at a column of the geometry features. -/
theorem v10_right (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (a : Fin 1048576) (r : Fin 15) :
    val_main_v10 (F := Ideal) x0 x3 x7 x8 x9 (ix2 (n0 := 1048576) (n1 := 18) a ⟨r.val + 3, by omega⟩) = val_main_v9 (F := Ideal) x0 x7 x8 x9 (ix2 a r) := by
  unfold val_main_v10
  exact concatenate_pair_apply_right (t := S1048576x18) (s₁ := S1048576x3) (s₂ := S1048576x15) 1 x3 (val_main_v9 (F := Ideal) x0 x7 x8 x9)
    concatenates_S1048576x3_S1048576x15_S1048576x18_d1 (ix2 (n0 := 1048576) (n1 := 18) a ⟨r.val + 3, by omega⟩) rfl rfl (ix2 (n0 := 1048576) (n1 := 15) a r)
    (fun b hb => by match b, hb with | ⟨0, _⟩, _ => rfl | ⟨1, _⟩, hb => exact absurd rfl hb)
    rfl

/-- The first colour layer of the background: the 18-term sum splits into the view direction's 3 terms and the
    geometry features' 15 terms. -/
theorem v11_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) : ∀ i, val_main_v11 (F := Ideal) x0 x3 x7 x8 x9 x10 i
    = firstBg (row x3 (i 0)) (geo (sigmaNet (row x0 (i 0)) x7 x8 x9)) x10 (i 1) := by
  intro i
  rw [val_main_v11_apply]
  unfold firstBg
  refine (Fin.sum_univ_add (fun k : Fin (3 + 15) => val_main_v10 (F := Ideal) x0 x3 x7 x8 x9 (lidx_main_v11 i k) * x10 (ridx_main_v11 i k))).trans ?_
  congr 1
  · refine Finset.sum_congr rfl fun k _ => ?_
    have el : lidx_main_v11 i (Fin.castAdd 15 k) = ix2 (n0 := 1048576) (n1 := 18) (i 0) ⟨k.val, by omega⟩ := by idx2
    have er : ridx_main_v11 i (Fin.castAdd 15 k) = ix2 (n0 := 18) (n1 := 64) ⟨k.val, by omega⟩ (i 1) := by idx2
    rw [el, er]
    exact congrArg (fun t => t * x10 (ix2 (n0 := 18) (n1 := 64) ⟨k.val, by omega⟩ (i 1))) (v10_left x0 x3 x7 x8 x9 (i 0) k)
  · refine Finset.sum_congr rfl fun r _ => ?_
    have el : lidx_main_v11 i (Fin.natAdd 3 r) = ix2 (n0 := 1048576) (n1 := 18) (i 0) ⟨r.val + 3, by omega⟩ :=
      funext fun a => Fin.ext (by match a with | ⟨0, _⟩ => rfl | ⟨1, _⟩ => exact Nat.add_comm _ _)
    have er : ridx_main_v11 i (Fin.natAdd 3 r) = ix2 (n0 := 18) (n1 := 64) ⟨r.val + 3, by omega⟩ (i 1) :=
      funext fun a => Fin.ext (by match a with | ⟨0, _⟩ => exact Nat.add_comm _ _ | ⟨1, _⟩ => rfl)
    rw [el, er]
    exact congrArg (fun t => t * x10 (ix2 (n0 := 18) (n1 := 64) ⟨r.val + 3, by omega⟩ (i 1)))
      ((v10_right x0 x3 x7 x8 x9 (i 0) r).trans (v9_eq x0 x7 x8 x9 (ix2 (n0 := 1048576) (n1 := 15) (i 0) r)))

theorem v12_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) : ∀ i, val_main_v12 (F := Ideal) x0 x3 x7 x8 x9 x10 i = reluV (firstBg (row x3 (i 0)) (geo (sigmaNet (row x0 (i 0)) x7 x8 x9)) x10) (i 1) :=
  relu_step (M := 1048576) (N := 64) (val_main_v12 (F := Ideal) x0 x3 x7 x8 x9 x10) (val_main_v11 (F := Ideal) x0 x3 x7 x8 x9 x10) (val_main_call3_v0 (F := Ideal)) (fun a => firstBg (row x3 a) (geo (sigmaNet (row x0 a) x7 x8 x9)) x10)
    (val_main_v12_apply (F := Ideal) x0 x3 x7 x8 x9 x10) (fun i => (val_main_call3_v0_apply (F := Ideal) i).trans (val_main_call3_cst_apply _)) (v11_eq x0 x3 x7 x8 x9 x10)

/-- The second colour layer. -/
theorem v13_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) : ∀ i, val_main_v13 (F := Ideal) x0 x3 x7 x8 x9 x10 x11 i = layer (reluV (firstBg (row x3 (i 0)) (geo (sigmaNet (row x0 (i 0)) x7 x8 x9)) x10)) x11 (i 1) :=
  dense_step (M := 1048576) (K := 64) (N := 64) (val_main_v13 (F := Ideal) x0 x3 x7 x8 x9 x10 x11) (val_main_v12 (F := Ideal) x0 x3 x7 x8 x9 x10) x11 (fun a => reluV (firstBg (row x3 a) (geo (sigmaNet (row x0 a) x7 x8 x9)) x10)) lidx_main_v13 ridx_main_v13
    (fun i k => by idx2) (fun i k => by idx2) (val_main_v13_apply x0 x3 x7 x8 x9 x10 x11) (v12_eq x0 x3 x7 x8 x9 x10)

theorem v14_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) : ∀ i, val_main_v14 (F := Ideal) x0 x3 x7 x8 x9 x10 x11 i = reluV (layer (reluV (firstBg (row x3 (i 0)) (geo (sigmaNet (row x0 (i 0)) x7 x8 x9)) x10)) x11) (i 1) :=
  relu_step (M := 1048576) (N := 64) (val_main_v14 (F := Ideal) x0 x3 x7 x8 x9 x10 x11) (val_main_v13 (F := Ideal) x0 x3 x7 x8 x9 x10 x11) (val_main_call4_v0 (F := Ideal)) (fun a => layer (reluV (firstBg (row x3 a) (geo (sigmaNet (row x0 a) x7 x8 x9)) x10)) x11)
    (val_main_v14_apply (F := Ideal) x0 x3 x7 x8 x9 x10 x11) (fun i => (val_main_call4_v0_apply (F := Ideal) i).trans (val_main_call4_cst_apply _)) (v13_eq x0 x3 x7 x8 x9 x10 x11)

/-- The third colour layer. -/
theorem v15_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) : ∀ i, val_main_v15 (F := Ideal) x0 x3 x7 x8 x9 x10 x11 x12 i = layer (reluV (layer (reluV (firstBg (row x3 (i 0)) (geo (sigmaNet (row x0 (i 0)) x7 x8 x9)) x10)) x11)) x12 (i 1) :=
  dense_step (M := 1048576) (K := 64) (N := 64) (val_main_v15 (F := Ideal) x0 x3 x7 x8 x9 x10 x11 x12) (val_main_v14 (F := Ideal) x0 x3 x7 x8 x9 x10 x11) x12 (fun a => reluV (layer (reluV (firstBg (row x3 a) (geo (sigmaNet (row x0 a) x7 x8 x9)) x10)) x11)) lidx_main_v15 ridx_main_v15
    (fun i k => by idx2) (fun i k => by idx2) (val_main_v15_apply x0 x3 x7 x8 x9 x10 x11 x12) (v14_eq x0 x3 x7 x8 x9 x10 x11)

theorem v16_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) : ∀ i, val_main_v16 (F := Ideal) x0 x3 x7 x8 x9 x10 x11 x12 i = reluV (layer (reluV (layer (reluV (firstBg (row x3 (i 0)) (geo (sigmaNet (row x0 (i 0)) x7 x8 x9)) x10)) x11)) x12) (i 1) :=
  relu_step (M := 1048576) (N := 64) (val_main_v16 (F := Ideal) x0 x3 x7 x8 x9 x10 x11 x12) (val_main_v15 (F := Ideal) x0 x3 x7 x8 x9 x10 x11 x12) (val_main_call5_v0 (F := Ideal)) (fun a => layer (reluV (layer (reluV (firstBg (row x3 a) (geo (sigmaNet (row x0 a) x7 x8 x9)) x10)) x11)) x12)
    (val_main_v16_apply (F := Ideal) x0 x3 x7 x8 x9 x10 x11 x12) (fun i => (val_main_call5_v0_apply (F := Ideal) i).trans (val_main_call5_cst_apply _)) (v15_eq x0 x3 x7 x8 x9 x10 x11 x12)

/-- The last colour layer: the whole colour perceptron. -/
theorem v17_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) (x13 : (⟨S64x3, .f32⟩ : BufTy).Contents (Elt Ideal)) : ∀ i, val_main_v17 (F := Ideal) x0 x3 x7 x8 x9 x10 x11 x12 x13 i = colourTail (firstBg (row x3 (i 0)) (geo (sigmaNet (row x0 (i 0)) x7 x8 x9)) x10) x11 x12 x13 (i 1) :=
  dense_step (M := 1048576) (K := 64) (N := 3) (val_main_v17 (F := Ideal) x0 x3 x7 x8 x9 x10 x11 x12 x13) (val_main_v16 (F := Ideal) x0 x3 x7 x8 x9 x10 x11 x12) x13 (fun a => reluV (layer (reluV (layer (reluV (firstBg (row x3 a) (geo (sigmaNet (row x0 a) x7 x8 x9)) x10)) x11)) x12)) lidx_main_v17 ridx_main_v17
    (fun i k => by idx2) (fun i k => by idx2) (val_main_v17_apply x0 x3 x7 x8 x9 x10 x11 x12 x13) (v16_eq x0 x3 x7 x8 x9 x10 x11 x12)

/-- Negate, exponential, add one, divide one by it: the logistic function. -/
theorem v23_eq (x0 : (⟨S1048576x32, .f32⟩ : BufTy).Contents (Elt Ideal)) (x3 : (⟨S1048576x3, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) (x13 : (⟨S64x3, .f32⟩ : BufTy).Contents (Elt Ideal)) (i : S1048576x3.Idx) : val_main_v23 (F := Ideal) x0 x3 x7 x8 x9 x10 x11 x12 x13 i = Ideal.logistic (val_main_v17 (F := Ideal) x0 x3 x7 x8 x9 x10 x11 x12 x13 i) :=
  logistic_scalar (val_main_v17 (F := Ideal) x0 x3 x7 x8 x9 x10 x11 x12 x13 i) (val_main_v20 (F := Ideal) i) (val_main_v22 (F := Ideal) i)
    ((val_main_v20_apply (F := Ideal) i).trans (val_main_cst_apply _)) ((val_main_v22_apply (F := Ideal) i).trans (val_main_cst_0_apply _))

/-- The branch's colour: the logistic function of the perceptron's output times the row's mask. -/
theorem v26_eq (x0 : (⟨S1048576x32, .f32⟩ : BufTy).Contents (Elt Ideal)) (x3 : (⟨S1048576x3, .f32⟩ : BufTy).Contents (Elt Ideal)) (x4 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) (x13 : (⟨S64x3, .f32⟩ : BufTy).Contents (Elt Ideal)) (i : S1048576x3.Idx) :
    val_main_v26 (F := Ideal) x0 x3 x4 x7 x8 x9 x10 x11 x12 x13 i = colour (colourTail (firstBg (row x3 (i 0)) (geo (sigmaNet (row x0 (i 0)) x7 x8 x9)) x10) x11 x12 x13) (x4 (ix1 (i 0))) (i 1) := by
  have em : idx_main_v24 (idx_main_v25 i) = ix1 (i 0) := funext fun a => Fin.ext (by match a with | ⟨0, _⟩ => rfl)
  rw [val_main_v26_apply, v23_eq, v17_eq, val_main_v25_apply, val_main_v24_apply, em]
  rfl

end Cert.ReferenceIdeal.RefValue

end
-- ==== Proof.RefColourFg.lean ====
/-
  The colour perceptron of the foreground branch, layer by layer, read at an index, then the logistic function and the mask.
-/
import proofs.«149636_j70153995813579_2_alg».proof.Proof.Gen.ReferenceIdeal.Read
import proofs.«149636_j70153995813579_2_alg».proof.Proof.RefLib
import proofs.«149636_j70153995813579_2_alg».proof.Proof.RefSigmaFg

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The first colour layer: the geometry features against the weight matrix. -/
theorem v37_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) : ∀ i, val_main_v37 (F := Ideal) x1 x14 x15 x16 x17 i = layer (geo (sigmaNet (row x1 (i 0)) x14 x15 x16)) x17 (i 1) :=
  dense_step (M := 1048576) (K := 15) (N := 64) (val_main_v37 (F := Ideal) x1 x14 x15 x16 x17) (val_main_v36 (F := Ideal) x1 x14 x15 x16) x17 (fun a => geo (sigmaNet (row x1 a) x14 x15 x16)) lidx_main_v37 ridx_main_v37
    (fun i k => by idx2) (fun i k => by idx2) (val_main_v37_apply x1 x14 x15 x16 x17) (v36_eq x1 x14 x15 x16)

theorem v38_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) : ∀ i, val_main_v38 (F := Ideal) x1 x14 x15 x16 x17 i = reluV (layer (geo (sigmaNet (row x1 (i 0)) x14 x15 x16)) x17) (i 1) :=
  relu_step (M := 1048576) (N := 64) (val_main_v38 (F := Ideal) x1 x14 x15 x16 x17) (val_main_v37 (F := Ideal) x1 x14 x15 x16 x17) (val_main_call9_v0 (F := Ideal)) (fun a => layer (geo (sigmaNet (row x1 a) x14 x15 x16)) x17)
    (val_main_v38_apply (F := Ideal) x1 x14 x15 x16 x17) (fun i => (val_main_call9_v0_apply (F := Ideal) i).trans (val_main_call9_cst_apply _)) (v37_eq x1 x14 x15 x16 x17)

/-- The second colour layer. -/
theorem v39_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) : ∀ i, val_main_v39 (F := Ideal) x1 x14 x15 x16 x17 x18 i = layer (reluV (layer (geo (sigmaNet (row x1 (i 0)) x14 x15 x16)) x17)) x18 (i 1) :=
  dense_step (M := 1048576) (K := 64) (N := 64) (val_main_v39 (F := Ideal) x1 x14 x15 x16 x17 x18) (val_main_v38 (F := Ideal) x1 x14 x15 x16 x17) x18 (fun a => reluV (layer (geo (sigmaNet (row x1 a) x14 x15 x16)) x17)) lidx_main_v39 ridx_main_v39
    (fun i k => by idx2) (fun i k => by idx2) (val_main_v39_apply x1 x14 x15 x16 x17 x18) (v38_eq x1 x14 x15 x16 x17)

theorem v40_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) : ∀ i, val_main_v40 (F := Ideal) x1 x14 x15 x16 x17 x18 i = reluV (layer (reluV (layer (geo (sigmaNet (row x1 (i 0)) x14 x15 x16)) x17)) x18) (i 1) :=
  relu_step (M := 1048576) (N := 64) (val_main_v40 (F := Ideal) x1 x14 x15 x16 x17 x18) (val_main_v39 (F := Ideal) x1 x14 x15 x16 x17 x18) (val_main_call10_v0 (F := Ideal)) (fun a => layer (reluV (layer (geo (sigmaNet (row x1 a) x14 x15 x16)) x17)) x18)
    (val_main_v40_apply (F := Ideal) x1 x14 x15 x16 x17 x18) (fun i => (val_main_call10_v0_apply (F := Ideal) i).trans (val_main_call10_cst_apply _)) (v39_eq x1 x14 x15 x16 x17 x18)

/-- The third colour layer. -/
theorem v41_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) : ∀ i, val_main_v41 (F := Ideal) x1 x14 x15 x16 x17 x18 x19 i = layer (reluV (layer (reluV (layer (geo (sigmaNet (row x1 (i 0)) x14 x15 x16)) x17)) x18)) x19 (i 1) :=
  dense_step (M := 1048576) (K := 64) (N := 64) (val_main_v41 (F := Ideal) x1 x14 x15 x16 x17 x18 x19) (val_main_v40 (F := Ideal) x1 x14 x15 x16 x17 x18) x19 (fun a => reluV (layer (reluV (layer (geo (sigmaNet (row x1 a) x14 x15 x16)) x17)) x18)) lidx_main_v41 ridx_main_v41
    (fun i k => by idx2) (fun i k => by idx2) (val_main_v41_apply x1 x14 x15 x16 x17 x18 x19) (v40_eq x1 x14 x15 x16 x17 x18)

theorem v42_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) : ∀ i, val_main_v42 (F := Ideal) x1 x14 x15 x16 x17 x18 x19 i = reluV (layer (reluV (layer (reluV (layer (geo (sigmaNet (row x1 (i 0)) x14 x15 x16)) x17)) x18)) x19) (i 1) :=
  relu_step (M := 1048576) (N := 64) (val_main_v42 (F := Ideal) x1 x14 x15 x16 x17 x18 x19) (val_main_v41 (F := Ideal) x1 x14 x15 x16 x17 x18 x19) (val_main_call11_v0 (F := Ideal)) (fun a => layer (reluV (layer (reluV (layer (geo (sigmaNet (row x1 a) x14 x15 x16)) x17)) x18)) x19)
    (val_main_v42_apply (F := Ideal) x1 x14 x15 x16 x17 x18 x19) (fun i => (val_main_call11_v0_apply (F := Ideal) i).trans (val_main_call11_cst_apply _)) (v41_eq x1 x14 x15 x16 x17 x18 x19)

/-- The last colour layer: the whole colour perceptron. -/
theorem v43_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) (x20 : (⟨S64x3, .f32⟩ : BufTy).Contents (Elt Ideal)) : ∀ i, val_main_v43 (F := Ideal) x1 x14 x15 x16 x17 x18 x19 x20 i = colourTail (layer (geo (sigmaNet (row x1 (i 0)) x14 x15 x16)) x17) x18 x19 x20 (i 1) :=
  dense_step (M := 1048576) (K := 64) (N := 3) (val_main_v43 (F := Ideal) x1 x14 x15 x16 x17 x18 x19 x20) (val_main_v42 (F := Ideal) x1 x14 x15 x16 x17 x18 x19) x20 (fun a => reluV (layer (reluV (layer (reluV (layer (geo (sigmaNet (row x1 a) x14 x15 x16)) x17)) x18)) x19)) lidx_main_v43 ridx_main_v43
    (fun i k => by idx2) (fun i k => by idx2) (val_main_v43_apply x1 x14 x15 x16 x17 x18 x19 x20) (v42_eq x1 x14 x15 x16 x17 x18 x19)

/-- Negate, exponential, add one, divide one by it: the logistic function. -/
theorem v49_eq (x1 : (⟨S1048576x32, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) (x20 : (⟨S64x3, .f32⟩ : BufTy).Contents (Elt Ideal)) (i : S1048576x3.Idx) : val_main_v49 (F := Ideal) x1 x14 x15 x16 x17 x18 x19 x20 i = Ideal.logistic (val_main_v43 (F := Ideal) x1 x14 x15 x16 x17 x18 x19 x20 i) :=
  logistic_scalar (val_main_v43 (F := Ideal) x1 x14 x15 x16 x17 x18 x19 x20 i) (val_main_v46 (F := Ideal) i) (val_main_v48 (F := Ideal) i)
    ((val_main_v46_apply (F := Ideal) i).trans (val_main_cst_1_apply _)) ((val_main_v48_apply (F := Ideal) i).trans (val_main_cst_2_apply _))

/-- The branch's colour: the logistic function of the perceptron's output times the row's mask. -/
theorem v52_eq (x1 : (⟨S1048576x32, .f32⟩ : BufTy).Contents (Elt Ideal)) (x5 : (⟨S1048576, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) (x20 : (⟨S64x3, .f32⟩ : BufTy).Contents (Elt Ideal)) (i : S1048576x3.Idx) :
    val_main_v52 (F := Ideal) x1 x5 x14 x15 x16 x17 x18 x19 x20 i = colour (colourTail (layer (geo (sigmaNet (row x1 (i 0)) x14 x15 x16)) x17) x18 x19 x20) (x5 (ix1 (i 0))) (i 1) := by
  have em : idx_main_v50 (idx_main_v51 i) = ix1 (i 0) := funext fun a => Fin.ext (by match a with | ⟨0, _⟩ => rfl)
  rw [val_main_v52_apply, v49_eq, v43_eq, val_main_v51_apply, val_main_v50_apply, em]
  rfl

end Cert.ReferenceIdeal.RefValue

end
-- ==== Proof.RefColourAc.lean ====
/-
  The colour perceptron of the actor branch, layer by layer, read at an index, then the logistic function and the mask.
-/
import proofs.«149636_j70153995813579_2_alg».proof.Proof.Gen.ReferenceIdeal.Read
import proofs.«149636_j70153995813579_2_alg».proof.Proof.RefLib
import proofs.«149636_j70153995813579_2_alg».proof.Proof.RefSigmaAc

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The first colour layer: the geometry features against the weight matrix. -/
theorem v63_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) : ∀ i, val_main_v63 (F := Ideal) x2 x21 x22 x23 x24 i = layer (geo (sigmaNet (row x2 (i 0)) x21 x22 x23)) x24 (i 1) :=
  dense_step (M := 1048576) (K := 15) (N := 64) (val_main_v63 (F := Ideal) x2 x21 x22 x23 x24) (val_main_v62 (F := Ideal) x2 x21 x22 x23) x24 (fun a => geo (sigmaNet (row x2 a) x21 x22 x23)) lidx_main_v63 ridx_main_v63
    (fun i k => by idx2) (fun i k => by idx2) (val_main_v63_apply x2 x21 x22 x23 x24) (v62_eq x2 x21 x22 x23)

theorem v64_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) : ∀ i, val_main_v64 (F := Ideal) x2 x21 x22 x23 x24 i = reluV (layer (geo (sigmaNet (row x2 (i 0)) x21 x22 x23)) x24) (i 1) :=
  relu_step (M := 1048576) (N := 64) (val_main_v64 (F := Ideal) x2 x21 x22 x23 x24) (val_main_v63 (F := Ideal) x2 x21 x22 x23 x24) (val_main_call15_v0 (F := Ideal)) (fun a => layer (geo (sigmaNet (row x2 a) x21 x22 x23)) x24)
    (val_main_v64_apply (F := Ideal) x2 x21 x22 x23 x24) (fun i => (val_main_call15_v0_apply (F := Ideal) i).trans (val_main_call15_cst_apply _)) (v63_eq x2 x21 x22 x23 x24)

/-- The second colour layer. -/
theorem v65_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) : ∀ i, val_main_v65 (F := Ideal) x2 x21 x22 x23 x24 x25 i = layer (reluV (layer (geo (sigmaNet (row x2 (i 0)) x21 x22 x23)) x24)) x25 (i 1) :=
  dense_step (M := 1048576) (K := 64) (N := 64) (val_main_v65 (F := Ideal) x2 x21 x22 x23 x24 x25) (val_main_v64 (F := Ideal) x2 x21 x22 x23 x24) x25 (fun a => reluV (layer (geo (sigmaNet (row x2 a) x21 x22 x23)) x24)) lidx_main_v65 ridx_main_v65
    (fun i k => by idx2) (fun i k => by idx2) (val_main_v65_apply x2 x21 x22 x23 x24 x25) (v64_eq x2 x21 x22 x23 x24)

theorem v66_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) : ∀ i, val_main_v66 (F := Ideal) x2 x21 x22 x23 x24 x25 i = reluV (layer (reluV (layer (geo (sigmaNet (row x2 (i 0)) x21 x22 x23)) x24)) x25) (i 1) :=
  relu_step (M := 1048576) (N := 64) (val_main_v66 (F := Ideal) x2 x21 x22 x23 x24 x25) (val_main_v65 (F := Ideal) x2 x21 x22 x23 x24 x25) (val_main_call16_v0 (F := Ideal)) (fun a => layer (reluV (layer (geo (sigmaNet (row x2 a) x21 x22 x23)) x24)) x25)
    (val_main_v66_apply (F := Ideal) x2 x21 x22 x23 x24 x25) (fun i => (val_main_call16_v0_apply (F := Ideal) i).trans (val_main_call16_cst_apply _)) (v65_eq x2 x21 x22 x23 x24 x25)

/-- The third colour layer. -/
theorem v67_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) : ∀ i, val_main_v67 (F := Ideal) x2 x21 x22 x23 x24 x25 x26 i = layer (reluV (layer (reluV (layer (geo (sigmaNet (row x2 (i 0)) x21 x22 x23)) x24)) x25)) x26 (i 1) :=
  dense_step (M := 1048576) (K := 64) (N := 64) (val_main_v67 (F := Ideal) x2 x21 x22 x23 x24 x25 x26) (val_main_v66 (F := Ideal) x2 x21 x22 x23 x24 x25) x26 (fun a => reluV (layer (reluV (layer (geo (sigmaNet (row x2 a) x21 x22 x23)) x24)) x25)) lidx_main_v67 ridx_main_v67
    (fun i k => by idx2) (fun i k => by idx2) (val_main_v67_apply x2 x21 x22 x23 x24 x25 x26) (v66_eq x2 x21 x22 x23 x24 x25)

theorem v68_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) : ∀ i, val_main_v68 (F := Ideal) x2 x21 x22 x23 x24 x25 x26 i = reluV (layer (reluV (layer (reluV (layer (geo (sigmaNet (row x2 (i 0)) x21 x22 x23)) x24)) x25)) x26) (i 1) :=
  relu_step (M := 1048576) (N := 64) (val_main_v68 (F := Ideal) x2 x21 x22 x23 x24 x25 x26) (val_main_v67 (F := Ideal) x2 x21 x22 x23 x24 x25 x26) (val_main_call17_v0 (F := Ideal)) (fun a => layer (reluV (layer (reluV (layer (geo (sigmaNet (row x2 a) x21 x22 x23)) x24)) x25)) x26)
    (val_main_v68_apply (F := Ideal) x2 x21 x22 x23 x24 x25 x26) (fun i => (val_main_call17_v0_apply (F := Ideal) i).trans (val_main_call17_cst_apply _)) (v67_eq x2 x21 x22 x23 x24 x25 x26)

/-- The last colour layer: the whole colour perceptron. -/
theorem v69_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) (x27 : (⟨S64x3, .f32⟩ : BufTy).Contents (Elt Ideal)) : ∀ i, val_main_v69 (F := Ideal) x2 x21 x22 x23 x24 x25 x26 x27 i = colourTail (layer (geo (sigmaNet (row x2 (i 0)) x21 x22 x23)) x24) x25 x26 x27 (i 1) :=
  dense_step (M := 1048576) (K := 64) (N := 3) (val_main_v69 (F := Ideal) x2 x21 x22 x23 x24 x25 x26 x27) (val_main_v68 (F := Ideal) x2 x21 x22 x23 x24 x25 x26) x27 (fun a => reluV (layer (reluV (layer (reluV (layer (geo (sigmaNet (row x2 a) x21 x22 x23)) x24)) x25)) x26)) lidx_main_v69 ridx_main_v69
    (fun i k => by idx2) (fun i k => by idx2) (val_main_v69_apply x2 x21 x22 x23 x24 x25 x26 x27) (v68_eq x2 x21 x22 x23 x24 x25 x26)

/-- Negate, exponential, add one, divide one by it: the logistic function. -/
theorem v75_eq (x2 : (⟨S1048576x32, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) (x27 : (⟨S64x3, .f32⟩ : BufTy).Contents (Elt Ideal)) (i : S1048576x3.Idx) : val_main_v75 (F := Ideal) x2 x21 x22 x23 x24 x25 x26 x27 i = Ideal.logistic (val_main_v69 (F := Ideal) x2 x21 x22 x23 x24 x25 x26 x27 i) :=
  logistic_scalar (val_main_v69 (F := Ideal) x2 x21 x22 x23 x24 x25 x26 x27 i) (val_main_v72 (F := Ideal) i) (val_main_v74 (F := Ideal) i)
    ((val_main_v72_apply (F := Ideal) i).trans (val_main_cst_3_apply _)) ((val_main_v74_apply (F := Ideal) i).trans (val_main_cst_4_apply _))

/-- The branch's colour: the logistic function of the perceptron's output times the row's mask. -/
theorem v78_eq (x2 : (⟨S1048576x32, .f32⟩ : BufTy).Contents (Elt Ideal)) (x6 : (⟨S1048576, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) (x27 : (⟨S64x3, .f32⟩ : BufTy).Contents (Elt Ideal)) (i : S1048576x3.Idx) :
    val_main_v78 (F := Ideal) x2 x6 x21 x22 x23 x24 x25 x26 x27 i = colour (colourTail (layer (geo (sigmaNet (row x2 (i 0)) x21 x22 x23)) x24) x25 x26 x27) (x6 (ix1 (i 0))) (i 1) := by
  have em : idx_main_v76 (idx_main_v77 i) = ix1 (i 0) := funext fun a => Fin.ext (by match a with | ⟨0, _⟩ => rfl)
  rw [val_main_v78_apply, v75_eq, v69_eq, val_main_v77_apply, val_main_v76_apply, em]
  rfl

end Cert.ReferenceIdeal.RefValue

end
-- ==== Proof.RefValue.lean ====
/-
  The reference program computes the specification function: the three branches' densities and colours (proved layer by
  layer in the imported modules) are summed to the total density, mixed by density weight, and joined into rows of four.
-/
import proofs.«149636_j70153995813579_2_alg».proof.Proof.Gen.ReferenceIdeal.Read
import proofs.«149636_j70153995813579_2_alg».proof.Proof.RefLib
import proofs.«149636_j70153995813579_2_alg».proof.Proof.RefSigmaBg
import proofs.«149636_j70153995813579_2_alg».proof.Proof.RefSigmaFg
import proofs.«149636_j70153995813579_2_alg».proof.Proof.RefSigmaAc
import proofs.«149636_j70153995813579_2_alg».proof.Proof.RefColourBg
import proofs.«149636_j70153995813579_2_alg».proof.Proof.RefColourFg
import proofs.«149636_j70153995813579_2_alg».proof.Proof.RefColourAc

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Field

/-- The total density of row `a`. -/
theorem v82_at (x0 : (⟨S1048576x32, .f32⟩ : BufTy).Contents (Elt Ideal)) (x1 : (⟨S1048576x32, .f32⟩ : BufTy).Contents (Elt Ideal)) (x2 : (⟨S1048576x32, .f32⟩ : BufTy).Contents (Elt Ideal)) (x4 : (⟨S1048576, .f32⟩ : BufTy).Contents (Elt Ideal)) (x5 : (⟨S1048576, .f32⟩ : BufTy).Contents (Elt Ideal)) (x6 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (a : Fin 1048576) :
    val_main_v82 (F := Ideal) x0 x1 x2 x4 x5 x6 x7 x8 x9 x14 x15 x16 x21 x22 x23 (ix1 a) = (total (density (sigmaNet (row x0 a) x7 x8 x9) (x4 (ix1 a))) (density (sigmaNet (row x1 a) x14 x15 x16) (x5 (ix1 a))) (density (sigmaNet (row x2 a) x21 x22 x23) (x6 (ix1 a)))) := by
  rw [val_main_v82_apply, val_main_v80_apply, val_main_v79_apply, v8_eq, v35_eq, v61_eq, val_main_v81_apply, val_main_cst_5_apply]
  rfl

/-- The weight of branch 0: its density over the total, repeated along the three channels. -/
theorem v85_at (x0 : (⟨S1048576x32, .f32⟩ : BufTy).Contents (Elt Ideal)) (x1 : (⟨S1048576x32, .f32⟩ : BufTy).Contents (Elt Ideal)) (x2 : (⟨S1048576x32, .f32⟩ : BufTy).Contents (Elt Ideal)) (x4 : (⟨S1048576, .f32⟩ : BufTy).Contents (Elt Ideal)) (x5 : (⟨S1048576, .f32⟩ : BufTy).Contents (Elt Ideal)) (x6 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (a : Fin 1048576) (q : Fin 3) :
    val_main_v85 (F := Ideal) x0 x1 x2 x4 x5 x6 x7 x8 x9 x14 x15 x16 x21 x22 x23 (ix2 (n0 := 1048576) (n1 := 3) a q) = Ideal.div (density (sigmaNet (row x0 a) x7 x8 x9) (x4 (ix1 a))) (total (density (sigmaNet (row x0 a) x7 x8 x9) (x4 (ix1 a))) (density (sigmaNet (row x1 a) x14 x15 x16) (x5 (ix1 a))) (density (sigmaNet (row x2 a) x21 x22 x23) (x6 (ix1 a)))) := by
  have e : idx_main_v84 (idx_main_v85 (ix2 (n0 := 1048576) (n1 := 3) a q)) = ix1 a := funext fun d => Fin.ext (by match d with | ⟨0, _⟩ => rfl)
  rw [val_main_v85_apply, val_main_v84_apply, e, val_main_v83_apply, v8_eq, v82_at]
  rfl

/-- The weight of branch 1: its density over the total, repeated along the three channels. -/
theorem v89_at (x0 : (⟨S1048576x32, .f32⟩ : BufTy).Contents (Elt Ideal)) (x1 : (⟨S1048576x32, .f32⟩ : BufTy).Contents (Elt Ideal)) (x2 : (⟨S1048576x32, .f32⟩ : BufTy).Contents (Elt Ideal)) (x4 : (⟨S1048576, .f32⟩ : BufTy).Contents (Elt Ideal)) (x5 : (⟨S1048576, .f32⟩ : BufTy).Contents (Elt Ideal)) (x6 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (a : Fin 1048576) (q : Fin 3) :
    val_main_v89 (F := Ideal) x0 x1 x2 x4 x5 x6 x7 x8 x9 x14 x15 x16 x21 x22 x23 (ix2 (n0 := 1048576) (n1 := 3) a q) = Ideal.div (density (sigmaNet (row x1 a) x14 x15 x16) (x5 (ix1 a))) (total (density (sigmaNet (row x0 a) x7 x8 x9) (x4 (ix1 a))) (density (sigmaNet (row x1 a) x14 x15 x16) (x5 (ix1 a))) (density (sigmaNet (row x2 a) x21 x22 x23) (x6 (ix1 a)))) := by
  have e : idx_main_v88 (idx_main_v89 (ix2 (n0 := 1048576) (n1 := 3) a q)) = ix1 a := funext fun d => Fin.ext (by match d with | ⟨0, _⟩ => rfl)
  rw [val_main_v89_apply, val_main_v88_apply, e, val_main_v87_apply, v35_eq, v82_at]
  rfl

/-- The weight of branch 2: its density over the total, repeated along the three channels. -/
theorem v94_at (x0 : (⟨S1048576x32, .f32⟩ : BufTy).Contents (Elt Ideal)) (x1 : (⟨S1048576x32, .f32⟩ : BufTy).Contents (Elt Ideal)) (x2 : (⟨S1048576x32, .f32⟩ : BufTy).Contents (Elt Ideal)) (x4 : (⟨S1048576, .f32⟩ : BufTy).Contents (Elt Ideal)) (x5 : (⟨S1048576, .f32⟩ : BufTy).Contents (Elt Ideal)) (x6 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (a : Fin 1048576) (q : Fin 3) :
    val_main_v94 (F := Ideal) x0 x1 x2 x4 x5 x6 x7 x8 x9 x14 x15 x16 x21 x22 x23 (ix2 (n0 := 1048576) (n1 := 3) a q) = Ideal.div (density (sigmaNet (row x2 a) x21 x22 x23) (x6 (ix1 a))) (total (density (sigmaNet (row x0 a) x7 x8 x9) (x4 (ix1 a))) (density (sigmaNet (row x1 a) x14 x15 x16) (x5 (ix1 a))) (density (sigmaNet (row x2 a) x21 x22 x23) (x6 (ix1 a)))) := by
  have e : idx_main_v93 (idx_main_v94 (ix2 (n0 := 1048576) (n1 := 3) a q)) = ix1 a := funext fun d => Fin.ext (by match d with | ⟨0, _⟩ => rfl)
  rw [val_main_v94_apply, val_main_v93_apply, e, val_main_v92_apply, v61_eq, v82_at]
  rfl

/-- A colour channel of row `a`: the density-weighted mean of the three branches' colours. -/
theorem v96_at (x0 : (⟨S1048576x32, .f32⟩ : BufTy).Contents (Elt Ideal)) (x1 : (⟨S1048576x32, .f32⟩ : BufTy).Contents (Elt Ideal)) (x2 : (⟨S1048576x32, .f32⟩ : BufTy).Contents (Elt Ideal)) (x3 : (⟨S1048576x3, .f32⟩ : BufTy).Contents (Elt Ideal)) (x4 : (⟨S1048576, .f32⟩ : BufTy).Contents (Elt Ideal)) (x5 : (⟨S1048576, .f32⟩ : BufTy).Contents (Elt Ideal)) (x6 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) (x13 : (⟨S64x3, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) (x20 : (⟨S64x3, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) (x27 : (⟨S64x3, .f32⟩ : BufTy).Contents (Elt Ideal)) (a : Fin 1048576) (q : Fin 3) :
    val_main_v96 (F := Ideal) x0 x1 x2 x3 x4 x5 x6 x7 x8 x9 x10 x11 x12 x13 x14 x15 x16 x17 x18 x19 x20 x21 x22 x23 x24 x25 x26 x27 (ix2 (n0 := 1048576) (n1 := 3) a q)
      = mix (density (sigmaNet (row x0 a) x7 x8 x9) (x4 (ix1 a))) (density (sigmaNet (row x1 a) x14 x15 x16) (x5 (ix1 a))) (density (sigmaNet (row x2 a) x21 x22 x23) (x6 (ix1 a))) (total (density (sigmaNet (row x0 a) x7 x8 x9) (x4 (ix1 a))) (density (sigmaNet (row x1 a) x14 x15 x16) (x5 (ix1 a))) (density (sigmaNet (row x2 a) x21 x22 x23) (x6 (ix1 a)))) ((colour (colourTail (firstBg (row x3 a) (geo (sigmaNet (row x0 a) x7 x8 x9)) x10) x11 x12 x13) (x4 (ix1 a))) q) ((colour (colourTail (layer (geo (sigmaNet (row x1 a) x14 x15 x16)) x17) x18 x19 x20) (x5 (ix1 a))) q) ((colour (colourTail (layer (geo (sigmaNet (row x2 a) x21 x22 x23)) x24) x25 x26 x27) (x6 (ix1 a))) q) := by
  rw [val_main_v96_apply, val_main_v91_apply, val_main_v86_apply, val_main_v90_apply, val_main_v95_apply, v85_at, v89_at, v94_at, v26_eq, v52_eq, v78_eq]
  rfl

/-- The reference program's result is the specification function: columns 0..2 of the final joined array are the
    mixed colour, column 3 is the total density. -/
theorem ref_is_G (x0 : (⟨S1048576x32, .f32⟩ : BufTy).Contents (Elt Ideal)) (x1 : (⟨S1048576x32, .f32⟩ : BufTy).Contents (Elt Ideal)) (x2 : (⟨S1048576x32, .f32⟩ : BufTy).Contents (Elt Ideal)) (x3 : (⟨S1048576x3, .f32⟩ : BufTy).Contents (Elt Ideal)) (x4 : (⟨S1048576, .f32⟩ : BufTy).Contents (Elt Ideal)) (x5 : (⟨S1048576, .f32⟩ : BufTy).Contents (Elt Ideal)) (x6 : (⟨S1048576, .f32⟩ : BufTy).Contents (Elt Ideal)) (x7 : (⟨S32x64, .f32⟩ : BufTy).Contents (Elt Ideal)) (x8 : (⟨S64x64, .f32⟩ : BufTy).Contents (Elt Ideal)) (x9 : (⟨S64x17, .f32⟩ : BufTy).Contents (Elt Ideal)) (x10 : (⟨S18x64, .f32⟩ : BufTy).Contents (Elt Ideal)) (x11 : (⟨S64x64, .f32⟩ : BufTy).Contents (Elt Ideal)) (x12 : (⟨S64x64, .f32⟩ : BufTy).Contents (Elt Ideal)) (x13 : (⟨S64x3, .f32⟩ : BufTy).Contents (Elt Ideal)) (x14 : (⟨S32x64, .f32⟩ : BufTy).Contents (Elt Ideal)) (x15 : (⟨S64x64, .f32⟩ : BufTy).Contents (Elt Ideal)) (x16 : (⟨S64x17, .f32⟩ : BufTy).Contents (Elt Ideal)) (x17 : (⟨S15x64, .f32⟩ : BufTy).Contents (Elt Ideal)) (x18 : (⟨S64x64, .f32⟩ : BufTy).Contents (Elt Ideal)) (x19 : (⟨S64x64, .f32⟩ : BufTy).Contents (Elt Ideal)) (x20 : (⟨S64x3, .f32⟩ : BufTy).Contents (Elt Ideal)) (x21 : (⟨S32x64, .f32⟩ : BufTy).Contents (Elt Ideal)) (x22 : (⟨S64x64, .f32⟩ : BufTy).Contents (Elt Ideal)) (x23 : (⟨S64x17, .f32⟩ : BufTy).Contents (Elt Ideal)) (x24 : (⟨S15x64, .f32⟩ : BufTy).Contents (Elt Ideal)) (x25 : (⟨S64x64, .f32⟩ : BufTy).Contents (Elt Ideal)) (x26 : (⟨S64x64, .f32⟩ : BufTy).Contents (Elt Ideal)) (x27 : (⟨S64x3, .f32⟩ : BufTy).Contents (Elt Ideal)) :
    Cert.ReferenceIdeal.Read.val_main_v98 (F := Ideal) x0 x1 x2 x3 x4 x5 x6 x7 x8 x9 x10 x11 x12 x13 x14 x15 x16 x17 x18 x19 x20 x21 x22 x23 x24 x25 x26 x27
      = Cert.Field.G x0 x1 x2 x3 x4 x5 x6 ⟨x7, x8, x9, x11, x12, x13⟩ x10 ⟨x14, x15, x16, x18, x19, x20⟩ x17 ⟨x21, x22, x23, x25, x26, x27⟩ x24 := by
  funext i
  unfold val_main_v98
  by_cases h : (i 1).val < 3
  · refine (concatenate_pair_apply_left (t := S1048576x4) (s₁ := S1048576x3) (s₂ := S1048576x1) 1 (val_main_v96 (F := Ideal) x0 x1 x2 x3 x4 x5 x6 x7 x8 x9 x10 x11 x12 x13 x14 x15 x16 x17 x18 x19 x20 x21 x22 x23 x24 x25 x26 x27) (val_main_v97 (F := Ideal) x0 x1 x2 x4 x5 x6 x7 x8 x9 x14 x15 x16 x21 x22 x23)
      concatenates_S1048576x3_S1048576x1_S1048576x4_d1 i rfl (ix2 (n0 := 1048576) (n1 := 3) (i 0) ⟨(i 1).val, h⟩)
      (fun b => by match b with | ⟨0, _⟩ => rfl | ⟨1, _⟩ => rfl)).trans ((v96_at x0 x1 x2 x3 x4 x5 x6 x7 x8 x9 x10 x11 x12 x13 x14 x15 x16 x17 x18 x19 x20 x21 x22 x23 x24 x25 x26 x27 (i 0) ⟨(i 1).val, h⟩).trans ?_)
    show _ = outRow _ _ _ _ _ _ (i 1)
    unfold outRow
    refine Eq.trans ?_ (dif_pos h).symm
    rfl
  · have h3 : (i 1).val = 3 := by have := idx2_lt1 (n0 := 1048576) (n1 := 4) i; omega
    refine (concatenate_pair_apply_right (t := S1048576x4) (s₁ := S1048576x3) (s₂ := S1048576x1) 1 (val_main_v96 (F := Ideal) x0 x1 x2 x3 x4 x5 x6 x7 x8 x9 x10 x11 x12 x13 x14 x15 x16 x17 x18 x19 x20 x21 x22 x23 x24 x25 x26 x27) (val_main_v97 (F := Ideal) x0 x1 x2 x4 x5 x6 x7 x8 x9 x14 x15 x16 x21 x22 x23)
      concatenates_S1048576x3_S1048576x1_S1048576x4_d1 i rfl rfl (ix2 (n0 := 1048576) (n1 := 1) (i 0) ⟨0, Nat.one_pos⟩)
      (fun b hb => by match b, hb with | ⟨0, _⟩, _ => rfl | ⟨1, _⟩, hb => exact absurd rfl hb)
      (by show 0 + 3 = (i 1).val; omega)).trans ?_
    have e : idx_main_v97 (ix2 (n0 := 1048576) (n1 := 1) (i 0) ⟨0, Nat.one_pos⟩) = ix1 (n := 1048576) (i 0) := funext fun d => Fin.ext (by match d with | ⟨0, _⟩ => rfl)
    refine (val_main_v97_apply (F := Ideal) x0 x1 x2 x4 x5 x6 x7 x8 x9 x14 x15 x16 x21 x22 x23 _).trans ((congrArg (val_main_v82 (F := Ideal) x0 x1 x2 x4 x5 x6 x7 x8 x9 x14 x15 x16 x21 x22 x23) e).trans ((v82_at x0 x1 x2 x4 x5 x6 x7 x8 x9 x14 x15 x16 x21 x22 x23 (i 0)).trans ?_))
    show _ = outRow _ _ _ _ _ _ (i 1)
    unfold outRow
    refine Eq.trans ?_ (dif_neg h).symm
    rfl

end Cert.ReferenceIdeal.RefValue

end
-- ==== Proof.lean ====
/-
  The certificate's five claims.

  The kernel evaluates, for each of 1048576 sampled points, three small bias-free perceptrons (background,
  foreground, actor) fused into block-diagonal matrix products, and mixes their colours by their densities; the
  reference evaluates the three branches one after the other. On the extended reals a product with a block-diagonal
  matrix, read in one column block, is the branch's own product (the other blocks contribute zeros), a change of
  float format is the identity, and the kernel's `a * (1 / s)` is the reference's `a / s` wherever the colour it
  multiplies does not vanish with `a` — which the finiteness of the inputs guarantees, the softplus of a real being
  positive. Both programs therefore end with the same array, the function `Cert.Field.G` of the arguments.
  The three frame claims: each program runs to the end, faults nowhere and leaves its arguments as launched.
-/
import proofs.«149636_j70153995813579_2_alg».proof.Defs
import proofs.«149636_j70153995813579_2_alg».proof.Proof.Gen.Kernel
import proofs.«149636_j70153995813579_2_alg».proof.Proof.Gen.KernelIdeal
import proofs.«149636_j70153995813579_2_alg».proof.Proof.Gen.ReferenceIdeal
import proofs.«149636_j70153995813579_2_alg».proof.Proof.Gen.Pre_finite_inputs
import proofs.«149636_j70153995813579_2_alg».proof.Proof.Gen.ReferenceIdeal.Run
import proofs.«149636_j70153995813579_2_alg».proof.Proof.Gen.ReferenceIdeal.Read
import proofs.«149636_j70153995813579_2_alg».proof.Proof.FrameBits
import proofs.«149636_j70153995813579_2_alg».proof.Proof.FrameIdeal
import proofs.«149636_j70153995813579_2_alg».proof.Proof.KernelValue
import proofs.«149636_j70153995813579_2_alg».proof.Proof.Facts
import proofs.«149636_j70153995813579_2_alg».proof.Proof.RefValue
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs to the end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 1600000 in
/-- Both idealized programs end with `G` of the arguments. -/
theorem algebraic : Cert.algebraic_KernelIdeal_ReferenceIdeal := by
  intro m g m' g' hpre hagree
  refine ⟨fun c => Cert.KernelIdeal.KG.Gm m c,
    Cert.KernelIdeal.KV.run_of (F := Ideal) m g (fun c => Cert.KernelIdeal.KG.Gm m c)
      (fun c t p q => Cert.KernelIdeal.KG.H_of m c (Cert.KernelIdeal.KG.hostFacts m c) (Cert.KernelIdeal.KG.realFacts m hpre c) t p q), ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4, e5, e6, e7, e8, e9, e10, e11, e12, e13, e14, e15, e16, e17, e18, e19, e20, e21, e22, e23, e24, e25, e26, e27⟩ := hagree c
  rw [Cert.ReferenceIdeal.Read.val_main_v98_eq, Cert.ReferenceIdeal.RefValue.ref_is_G, e0, e1, e2, e3, e4, e5, e6, e7, e8, e9, e10, e11, e12, e13, e14, e15, e16, e17, e18, e19, e20, e21, e22, e23, e24, e25, e26, e27]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
